-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S1024x3072 : Shape := ⟨2, ![1024, 3072]⟩
abbrev S1x3072 : Shape := ⟨2, ![1, 3072]⟩
abbrev S2x16x2048x64 : Shape := ⟨4, ![2, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x3072 : Shape := ⟨2, ![512, 3072]⟩
abbrev S512x16x64 : Shape := ⟨3, ![512, 16, 64]⟩
abbrev S16x512x64 : Shape := ⟨3, ![16, 512, 64]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 23
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S3072x1024, .f32⟩
  | .hbm, ⟨10, _⟩ => ⟨S3072, .f32⟩
  | .hbm, ⟨11, _⟩ => ⟨S1024x3072, .f32⟩
  | .hbm, ⟨12, _⟩ => ⟨S1024x3072, .bf16⟩
  | .hbm, ⟨13, _⟩ => ⟨S1024x1024, .f32⟩
  | .hbm, ⟨14, _⟩ => ⟨S1024x1024, .bf16⟩
  | .hbm, ⟨15, _⟩ => ⟨S1x3072, .f32⟩
  | .hbm, ⟨16, _⟩ => ⟨S2x16x2048x64, .f32⟩
  | .hbm, ⟨17, _⟩ => ⟨S2x16x2048x64, .f32⟩
  | .hbm, ⟨18, _⟩ => ⟨S2x16x2048x64, .f32⟩
  | .hbm, ⟨19, _⟩ => ⟨S2x16x2048x2048, .f32⟩
  | .hbm, ⟨20, _⟩ => ⟨S2x16x2048x64, .f32⟩
  | .hbm, ⟨21, _⟩ => ⟨S1x1024, .f32⟩
  | .hbm, ⟨22, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S1x3072, .f32⟩
  | .local _ .vmem, ⟨4, _⟩ => ⟨S1x16x512x64, .f32⟩
  | .local _ .vmem, ⟨5, _⟩ => ⟨S1x16x512x64, .f32⟩
  | .local _ .vmem, ⟨6, _⟩ => ⟨S1x16x512x64, .f32⟩
  | .local _ .vmem, ⟨7, _⟩ => ⟨S1x16x512x64, .f32⟩
  | .local _ .vmem, ⟨8, _⟩ => ⟨S1x16x512x64, .f32⟩
  | .local _ .vmem, ⟨9, _⟩ => ⟨S1x16x512x64, .f32⟩
  | .local _ .vmem, ⟨10, _⟩ => ⟨S1x1x512x64, .f32⟩
  | .local _ .vmem, ⟨11, _⟩ => ⟨S1x1x512x64, .f32⟩
  | .local _ .vmem, ⟨12, _⟩ => ⟨S1x1x2048x64, .f32⟩
  | .local _ .vmem, ⟨13, _⟩ => ⟨S1x1x2048x64, .f32⟩
  | .local _ .vmem, ⟨14, _⟩ => ⟨S1x1x2048x64, .f32⟩
  | .local _ .vmem, ⟨15, _⟩ => ⟨S1x1x2048x64, .f32⟩
  | .local _ .vmem, ⟨16, _⟩ => ⟨S1x1x512x2048, .f32⟩
  | .local _ .vmem, ⟨17, _⟩ => ⟨S1x1x512x2048, .f32⟩
  | .local _ .vmem, ⟨18, _⟩ => ⟨S1x1x512x64, .f32⟩
  | .local _ .vmem, ⟨19, _⟩ => ⟨S1x1x512x64, .f32⟩
  | .local _ .vmem, ⟨20, _⟩ => ⟨S1x16x512x64, .f32⟩
  | .local _ .vmem, ⟨21, _⟩ => ⟨S1x16x512x64, .f32⟩
  | .local _ .vmem, ⟨22, _⟩ => ⟨S1024x1024, .bf16⟩
  | .local _ .vmem, ⟨23, _⟩ => ⟨S1x1024, .f32⟩
  | .local _ .vmem, ⟨24, _⟩ => ⟨S1x512x1024, .f32⟩
  | .local _ .vmem, ⟨25, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v8_0 : Ref sig .tc := ⟨.hbm, 19, rfl⟩
abbrev main_v8_1 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![2, 16, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1x512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨2, ![2, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x16x512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  concatenates_S1024x1024_S1024x1024_S1024x1024_S3072x1024_d0 : Shape.Concatenates [S1024x1024, S1024x1024, S1024x1024] S3072x1024 0
  concatenates_S1024_S1024_S1024_S3072_d0 : Shape.Concatenates [S1024, S1024, S1024] S3072 0
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  shapeCasts_S3072_S1x3072 : S3072.ShapeCasts S1x3072
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  shapeCasts_S512x1024_S512x16x64 : S512x1024.ShapeCasts S512x16x64
  slices_S512x3072_o0_1024_S512x1024 : S512x3072.Slices ![0, 1024] S512x1024
  slices_S512x3072_o0_2048_S512x1024 : S512x3072.Slices ![0, 2048] S512x1024
  transposes_S512x16x64_p1_0_2_S16x512x64 : S512x16x64.Transposes [1, 0, 2] S16x512x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  shapeCasts_S16x512x64_S1x16x512x64 : S16x512x64.ShapeCasts S1x16x512x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  shapeCasts_S1024_S1x1024 : S1024.ShapeCasts S1x1024
  transposes_S16x512x64_p1_0_2_S512x16x64 : S16x512x64.Transposes [1, 0, 2] S512x16x64
  shapeCasts_S512x16x64_S512x1024 : S512x16x64.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S2x16x2048x64.size a
  hwx0_3 : ∀ i : grid0.Coords, EltTy.bits .f32 = 32 ∨ (Rect.block (s := S2x16x2048x64) S1x16x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x64.size a ≤ S2x16x2048x64.size a
  hwx0_4 : ∀ i : grid0.Coords, EltTy.bits .f32 = 32 ∨ (Rect.block (s := S2x16x2048x64) S1x16x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512x64.size a ≤ S2x16x2048x64.size a
  hwx0_5 : ∀ i : grid0.Coords, EltTy.bits .f32 = 32 ∨ (Rect.block (s := S2x16x2048x64) S1x16x512x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S2x16x2048x64.size a
  hwx1_0 : ∀ i : grid1.Coords, EltTy.bits .f32 = 32 ∨ (Rect.block (s := S2x16x2048x64) S1x1x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x16x2048x64.size a
  hwx1_1 : ∀ i : grid1.Coords, EltTy.bits .f32 = 32 ∨ (Rect.block (s := S2x16x2048x64) S1x1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x16x2048x64.size a
  hwx1_2 : ∀ i : grid1.Coords, EltTy.bits .f32 = 32 ∨ (Rect.block (s := S2x16x2048x64) S1x1x2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512x2048.size a ≤ S2x16x2048x2048.size a
  hwx1_3 : ∀ i : grid1.Coords, EltTy.bits .f32 = 32 ∨ (Rect.block (s := S2x16x2048x2048) S1x1x512x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x512x64.size a ≤ S2x16x2048x64.size a
  hwx1_4 : ∀ i : grid1.Coords, EltTy.bits .f32 = 32 ∨ (Rect.block (s := S2x16x2048x64) S1x1x512x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x512x64.size a ≤ S2x16x2048x64.size a
  hwx2_0 : ∀ i : grid2.Coords, EltTy.bits .f32 = 32 ∨ (Rect.block (s := S2x16x2048x64) S1x16x512x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S2x2048x1024.size a
  hwx2_3 : ∀ i : grid2.Coords, EltTy.bits .f32 = 32 ∨ (Rect.block (s := S2x2048x1024) S1x512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1x16x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1x16x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_2) S1x16x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7_0) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_2) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8_0) S1x1x512x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8_1) S1x1x512x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v8_1) S1x16x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2x2048x1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x16x64, .f32⟩
  | .hbm, ⟨20, _⟩ => ⟨S2x16x2048x64, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x16x64, .f32⟩
  | .hbm, ⟨26, _⟩ => ⟨S2x16x2048x64, .f32⟩
  | .hbm, ⟨27, _⟩ => ⟨S2x16x2048x2048, .f32⟩
  | .hbm, ⟨28, _⟩ => ⟨S_, .f32⟩
  | .hbm, ⟨29, _⟩ => ⟨S2x16x2048x2048, .f32⟩
  | .hbm, ⟨30, _⟩ => ⟨S2x16x2048x2048, .f32⟩
  | .hbm, ⟨31, _⟩ => ⟨S_, .f32⟩
  | .hbm, ⟨32, _⟩ => ⟨S2x16x2048, .f32⟩
  | .hbm, ⟨33, _⟩ => ⟨S_, .f32⟩
  | .hbm, ⟨34, _⟩ => ⟨S2x16x2048, .f32⟩
  | .hbm, ⟨35, _⟩ => ⟨S2x16x2048, .f32⟩
  | .hbm, ⟨36, _⟩ => ⟨S2x16x2048x1, .f32⟩
  | .hbm, ⟨37, _⟩ => ⟨S2x16x2048x2048, .f32⟩
  | .hbm, ⟨38, _⟩ => ⟨S2x16x2048x2048, .f32⟩
  | .hbm, ⟨39, _⟩ => ⟨S2x16x2048x2048, .f32⟩
  | .hbm, ⟨40, _⟩ => ⟨S_, .f32⟩
  | .hbm, ⟨41, _⟩ => ⟨S2x16x2048, .f32⟩
  | .hbm, ⟨42, _⟩ => ⟨S2x16x2048x1, .f32⟩
  | .hbm, ⟨43, _⟩ => ⟨S2x16x2048x2048, .f32⟩
  | .hbm, ⟨44, _⟩ => ⟨S2x16x2048x2048, .f32⟩
  | .hbm, ⟨45, _⟩ => ⟨S2x16x2048x64, .f32⟩
  | .hbm, ⟨46, _⟩ => ⟨S2x2048x16x64, .f32⟩
  | .hbm, ⟨47, _⟩ => ⟨S2x2048x1024, .f32⟩
  | .hbm, ⟨48, _⟩ => ⟨S2x2048x1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.BitsQkvCall.lean ====
/-
  The first pallas_call (the fused q, k, v projection), for any float instance, at any contents `V` of the core's buffers
  when the call is entered. Grid point t = (n, s) takes rows 512·s … 512·s+511 of batch n of the activations, the whole
  [1024, 3072] weight and the whole [1, 3072] bias, and leaves in each of its three output staging buffers one
  [1, 16, 512, 64] block: the corresponding third of (block · weight + bias), split into 16 heads and the head axis moved
  in front of the row axis. The body stores each output buffer whole, once, so what a buffer holds afterwards is the
  stored payload; the inputs' buffers are left as found. This module states that as the pipeline's proof data and proves
  the body's obligation at every grid point by running the body symbolically.
-/
import proofs.«177007_j31035433681291_2_alg».proof.Proof.Gen.Kernel.Launch
import proofs.«177007_j31035433681291_2_alg».proof.Proof.Gen.Kernel.Skeleton
import proofs.«177007_j31035433681291_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core c's buffers hold when the region is entered
variable (V : (c : Dev nD) → (b : Ref sig .tc) → Buf (Elt F) ((c : Thread nD τ).loc b))

/-- Window w's block at grid point t, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the point fetched it or
    found it from the point before (then the block index has not moved), for any proof data over `V` that leaves it in place. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The rectangles the body loads and stores through: each a whole staging buffer. -/
abbrev all0_x : Rect S1x512x1024 := Rect.unit (s := S1x512x1024) ![0, 0, 0] S1x512x1024.size inb_S1x512x1024_S1x512x1024_0_0_0
abbrev all0_w : Rect S1024x3072 := Rect.unit (s := S1024x3072) ![0, 0] S1024x3072.size inb_S1024x3072_S1024x3072_0_0
abbrev all0_b : Rect S1x3072 := Rect.unit (s := S1x3072) ![0, 0] S1x3072.size inb_S1x3072_S1x3072_0_0
abbrev all0_o : Rect S1x16x512x64 := Rect.unit (s := S1x16x512x64) ![0, 0, 0, 0] S1x16x512x64.size inb_S1x16x512x64_S1x16x512x64_0_0_0_0

/-- What the body leaves in the q, k and v staging buffers, from the three input blocks: its one store of each. -/
def left0_3 (x : Vec F S1x512x1024 .f32) (w : Vec F S1024x3072 .bf16) (b : Vec F S1x3072 .f32) : Vec F S1x16x512x64 .f32 :=
  View.canon [⟨all0_o, k0_pay2 (View.ld x all0_x) (View.ld w all0_w) (View.ld b all0_b)⟩]
def left0_4 (x : Vec F S1x512x1024 .f32) (w : Vec F S1024x3072 .bf16) (b : Vec F S1x3072 .f32) : Vec F S1x16x512x64 .f32 :=
  View.canon [⟨all0_o, k0_pay3 (View.ld x all0_x) (View.ld w all0_w) (View.ld b all0_b)⟩]
def left0_5 (x : Vec F S1x512x1024 .f32) (w : Vec F S1024x3072 .bf16) (b : Vec F S1x3072 .f32) : Vec F S1x16x512x64 .f32 :=
  View.canon [⟨all0_o, k0_pay4 (View.ld x all0_x) (View.ld w all0_w) (View.ld b all0_b)⟩]

/-- One store through the whole rectangle covers the buffer. -/
theorem covers0_o (p : Vec F S1x16x512x64 .f32) (y : S1x16x512x64.Idx) :
    ∃ pc ∈ ([⟨all0_o, p⟩] : List (View.Piece (Elt F) S1x16x512x64 .f32)), y ∈ pc.1.set :=
  View.cover_of_tiled [⟨all0_o, p⟩] S1x16x512x64.size (by rfl) y

set_option maxHeartbeats 1000000 in
/-- The body on whole staging memrefs, the inputs' at contents x, w, b and the outputs' at anything: it runs to its
    continuation with the inputs' as they were and the outputs' at `left0_3`, `left0_4`, `left0_5` of the inputs'. -/
theorem body0_runs (c : Dev nD) (E : Set ℕ) (i : grid0.Coords)
    (a2 : Memref sig .tc .vmem S1x512x1024 .f32) (h2 : a2.IsWhole) (a3 : Memref sig .tc .vmem S1024x3072 .bf16) (h3 : a3.IsWhole)
    (a4 : Memref sig .tc .vmem S1x3072 .f32) (h4 : a4.IsWhole) (a5 : Memref sig .tc .vmem S1x16x512x64 .f32) (h5 : a5.IsWhole)
    (a6 : Memref sig .tc .vmem S1x16x512x64 .f32) (h6 : a6.IsWhole) (a7 : Memref sig .tc .vmem S1x16x512x64 .f32) (h7 : a7.IsWhole)
    (x : Vec F S1x512x1024 .f32) (w : Vec F S1024x3072 .bf16) (b : Vec F S1x3072 .f32) (K : PUnit → sProp 𝕄) :
    iprop(owns (c : Thread nD τ) a2 fullShare x ∗ owns (c : Thread nD τ) a3 fullShare w ∗ owns (c : Thread nD τ) a4 fullShare b
        ∗ (∃ d, owns (c : Thread nD τ) a5 fullShare d) ∗ (∃ d, owns (c : Thread nD τ) a6 fullShare d) ∗ (∃ d, owns (c : Thread nD τ) a7 fullShare d)
        ∗ (iprop(owns (c : Thread nD τ) a2 fullShare x ∗ owns (c : Thread nD τ) a3 fullShare w ∗ owns (c : Thread nD τ) a4 fullShare b
            ∗ owns (c : Thread nD τ) a5 fullShare (left0_3 x w b) ∗ owns (c : Thread nD τ) a6 fullShare (left0_4 x w b)
            ∗ owns (c : Thread nD τ) a7 fullShare (left0_5 x w b)) -∗ K ⟨⟩))
      ⊢ wp frame (wpE (defs₀ (F := F)) Variants.none c none) E (cc0__qkv_kernel i a2 h2 a3 h3 a4 h4 a5 h5 a6 h6 a7 h7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (covers0_o _)
  isplitl [H4]
  · iexists _; isplitr
    swap; · iexact H4
    ipureintro
    exact View.read_writes_eq_canon _ _ _ (covers0_o _)
  iexists _; isplitr
  swap; · iexact H5
  ipureintro
  exact View.read_writes_eq_canon _ _ _ (covers0_o _)

/-- The call's proof data on core c: the arrays as found; after the body at point t every input buffer at its block and
    every output buffer at what the body leaves from the input blocks; the scoped rest and the generator register ride
    along untouched; nothing owed, full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => left0_3 (blk0 V c 0 t) (blk0 V c 1 t) (blk0 V c 2 t)
    | ⟨4, _⟩ => left0_4 (blk0 V c 0 t) (blk0 V c 1 t) (blk0 V c 2 t)
    | ⟨5, _⟩ => left0_5 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = left0_3 (blk0 V c 0 t) (blk0 V c 1 t) (blk0 V c 2 t) := by dsimp only [dat0]
theorem dat0_after4 (c : Dev nD) (t : Fin cfg0.N) : (dat0 V c).after 4 t = left0_4 (blk0 V c 0 t) (blk0 V c 1 t) (blk0 V c 2 t) := by dsimp only [dat0]
theorem dat0_after5 (c : Dev nD) (t : Fin cfg0.N) : (dat0 V c).after 5 t = left0_5 (blk0 V c 0 t) (blk0 V c 1 t) (blk0 V c 2 t) := by dsimp only [dat0]

theorem dat0_before0 (c : Dev nD) (t : Fin cfg0.N) (d) : (dat0 V c).before 0 t d = blk0 V c 0 t :=
  held0_0 V (dat0 V c) (dat0_A V c 0) (dat0_after0 V c) t d
theorem dat0_before1 (c : Dev nD) (t : Fin cfg0.N) (d) : (dat0 V c).before 1 t d = blk0 V c 1 t :=
  held0_1 V (dat0 V c) (dat0_A V c 1) (dat0_after1 V c) t d
theorem dat0_before2 (c : Dev nD) (t : Fin cfg0.N) (d) : (dat0 V c).before 2 t d = blk0 V c 2 t :=
  held0_2 V (dat0 V c) (dat0_A V c 2) (dat0_after2 V c) t d

/-- What the body is called with at point t, window by window, -/
def enter0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def leave0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input memrefs hold their blocks, so `body0_runs` applies; the rest passes through unread. -/
theorem body0_at (c : Dev nD) (t : Fin cfg0.N) :
    enter0 V c t ⊢ wp frame (wpE (defs₀ (F := F)) Variants.none c none) Set.univ (bodyAt0 t) (fun _ => leave0 V c t) := by
  unfold enter0 leave0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3, dat0_after4, dat0_after5]
  iintro ⟨HΦ, Ho, ⟨%d0, H0⟩, ⟨%d1, H1⟩, ⟨%d2, H2⟩, ⟨%d3, H3⟩, ⟨%d4, H4⟩, ⟨%d5, H5⟩⟩
  iapply (body0_runs c Set.univ _ _ _ _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body0_obligation (c : Dev nD) : BodyObligation (dat0 (F := F) V c) (defs₀ (F := F)) Variants.none () Set.univ := fun t => by
  rw [bigSep_W0, bigSep_W0]
  exact body0_at V c t

end Cert.Kernel.Pipe

end
-- ==== Proof.BitsAttnCall.lean ====
/-
  The second pallas_call (attention), for any float instance, at any contents `V` of the core's buffers when the call
  is entered. Grid point t = (n, h, i) takes query rows 512·i … 512·i+511 of head h of batch n, and all 2048 key rows
  and all 2048 value rows of that head, and leaves in its two output staging buffers a [1, 1, 512, 2048] block of
  attention weights and a [1, 1, 512, 64] block of context rows. Each output buffer is stored whole, once; the inputs'
  buffers are left as found (the key and value blocks are fetched only when the head changes, and found in place
  otherwise). This module states that as the pipeline's proof data and proves the body's obligation at every grid point
  by running the body symbolically.
-/
import proofs.«177007_j31035433681291_2_alg».proof.Proof.Gen.Kernel.Launch
import proofs.«177007_j31035433681291_2_alg».proof.Proof.Gen.Kernel.Skeleton
import proofs.«177007_j31035433681291_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core c's buffers hold when the region is entered
variable (V : (c : Dev nD) → (b : Ref sig .tc) → Buf (Elt F) ((c : Thread nD τ).loc b))

/-- Window w's block at grid point t, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether the point fetched it or
    found it from the point before (then the block index has not moved), for any proof data over `V` that leaves it in place. -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The rectangles the body loads and stores through: each a whole staging buffer. -/
abbrev all1_q : Rect S1x1x512x64 := Rect.unit (s := S1x1x512x64) ![0, 0, 0, 0] S1x1x512x64.size inb_S1x1x512x64_S1x1x512x64_0_0_0_0
abbrev all1_k : Rect S1x1x2048x64 := Rect.unit (s := S1x1x2048x64) ![0, 0, 0, 0] S1x1x2048x64.size inb_S1x1x2048x64_S1x1x2048x64_0_0_0_0
abbrev all1_a : Rect S1x1x512x2048 := Rect.unit (s := S1x1x512x2048) ![0, 0, 0, 0] S1x1x512x2048.size inb_S1x1x512x2048_S1x1x512x2048_0_0_0_0

/-- What the body leaves in the weights' and the context's staging buffers, from the three input blocks. -/
def left1_3 (q : Vec F S1x1x512x64 .f32) (k : Vec F S1x1x2048x64 .f32) : Vec F S1x1x512x2048 .f32 :=
  View.canon [⟨all1_a, k1_pay2 (View.ld q all1_q) (View.ld k all1_k)⟩]
def left1_4 (q : Vec F S1x1x512x64 .f32) (k : Vec F S1x1x2048x64 .f32) (v : Vec F S1x1x2048x64 .f32) : Vec F S1x1x512x64 .f32 :=
  View.canon [⟨all1_q, k1_pay3 (View.ld q all1_q) (View.ld k all1_k) (View.ld v all1_k)⟩]

/-- One store through the whole rectangle covers the buffer. -/
theorem covers1_a (p : Vec F S1x1x512x2048 .f32) (y : S1x1x512x2048.Idx) :
    ∃ pc ∈ ([⟨all1_a, p⟩] : List (View.Piece (Elt F) S1x1x512x2048 .f32)), y ∈ pc.1.set :=
  View.cover_of_tiled [⟨all1_a, p⟩] S1x1x512x2048.size (by rfl) y
theorem covers1_c (p : Vec F S1x1x512x64 .f32) (y : S1x1x512x64.Idx) :
    ∃ pc ∈ ([⟨all1_q, p⟩] : List (View.Piece (Elt F) S1x1x512x64 .f32)), y ∈ pc.1.set :=
  View.cover_of_tiled [⟨all1_q, p⟩] S1x1x512x64.size (by rfl) y

set_option maxHeartbeats 1000000 in
/-- The body on whole staging memrefs, the inputs' at contents q, k, v and the outputs' at anything: it runs to its
    continuation with the inputs' as they were and the outputs' at `left1_3`, `left1_4` of the inputs'. -/
theorem body1_runs (c : Dev nD) (E : Set ℕ) (i : grid1.Coords)
    (a3 : Memref sig .tc .vmem S1x1x512x64 .f32) (h3 : a3.IsWhole) (a4 : Memref sig .tc .vmem S1x1x2048x64 .f32) (h4 : a4.IsWhole)
    (a5 : Memref sig .tc .vmem S1x1x2048x64 .f32) (h5 : a5.IsWhole) (a6 : Memref sig .tc .vmem S1x1x512x2048 .f32) (h6 : a6.IsWhole)
    (a7 : Memref sig .tc .vmem S1x1x512x64 .f32) (h7 : a7.IsWhole)
    (q : Vec F S1x1x512x64 .f32) (k : Vec F S1x1x2048x64 .f32) (v : Vec F S1x1x2048x64 .f32) (K : PUnit → sProp 𝕄) :
    iprop(owns (c : Thread nD τ) a3 fullShare q ∗ owns (c : Thread nD τ) a4 fullShare k ∗ owns (c : Thread nD τ) a5 fullShare v
        ∗ (∃ d, owns (c : Thread nD τ) a6 fullShare d) ∗ (∃ d, owns (c : Thread nD τ) a7 fullShare d)
        ∗ (iprop(owns (c : Thread nD τ) a3 fullShare q ∗ owns (c : Thread nD τ) a4 fullShare k ∗ owns (c : Thread nD τ) a5 fullShare v
            ∗ owns (c : Thread nD τ) a6 fullShare (left1_3 q k) ∗ owns (c : Thread nD τ) a7 fullShare (left1_4 q k v)) -∗ K ⟨⟩))
      ⊢ wp frame (wpE (defs₀ (F := F)) Variants.none c none) E (cc1_kernel i a3 h3 a4 h4 a5 h5 a6 h6 a7 h7) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (covers1_a _)
  iexists _; isplitr
  swap; · iexact H4
  ipureintro
  exact View.read_writes_eq_canon _ _ _ (covers1_c _)

/-- The call's proof data on core c: the arrays as found; after the body at point t every input buffer at its block and
    every output buffer at what the body leaves from the input blocks; the scoped rest and the generator register ride
    along untouched; nothing owed, full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => left1_3 (blk1 V c 0 t) (blk1 V c 1 t)
    | ⟨4, _⟩ => left1_4 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = left1_3 (blk1 V c 0 t) (blk1 V c 1 t) := by dsimp only [dat1]
theorem dat1_after4 (c : Dev nD) (t : Fin cfg1.N) : (dat1 V c).after 4 t = left1_4 (blk1 V c 0 t) (blk1 V c 1 t) (blk1 V c 2 t) := by dsimp only [dat1]

theorem dat1_before0 (c : Dev nD) (t : Fin cfg1.N) (d) : (dat1 V c).before 0 t d = blk1 V c 0 t :=
  held1_0 V (dat1 V c) (dat1_A V c 0) (dat1_after0 V c) t d
theorem dat1_before1 (c : Dev nD) (t : Fin cfg1.N) (d) : (dat1 V c).before 1 t d = blk1 V c 1 t :=
  held1_1 V (dat1 V c) (dat1_A V c 1) (dat1_after1 V c) t d
theorem dat1_before2 (c : Dev nD) (t : Fin cfg1.N) (d) : (dat1 V c).before 2 t d = blk1 V c 2 t :=
  held1_2 V (dat1 V c) (dat1_A V c 2) (dat1_after2 V c) t d

/-- What the body is called with at point t, window by window, -/
def enter1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def leave1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input memrefs hold their blocks, so `body1_runs` applies; the rest passes through unread. -/
theorem body1_at (c : Dev nD) (t : Fin cfg1.N) :
    enter1 V c t ⊢ wp frame (wpE (defs₀ (F := F)) Variants.none c none) Set.univ (bodyAt1 t) (fun _ => leave1 V c t) := by
  unfold enter1 leave1 bodyAt1
  simp only [dat1_before0, dat1_before1, dat1_before2]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4]
  iintro ⟨HΦ, Ho, ⟨%d0, H0⟩, ⟨%d1, H1⟩, ⟨%d2, H2⟩, ⟨%d3, H3⟩, ⟨%d4, H4⟩⟩
  iapply (body1_runs c Set.univ _ _ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body1_obligation (c : Dev nD) : BodyObligation (dat1 (F := F) V c) (defs₀ (F := F)) Variants.none () Set.univ := fun t => by
  rw [bigSep_W1, bigSep_W1]
  exact body1_at V c t

end Cert.Kernel.Pipe

end
-- ==== Proof.BitsOutCall.lean ====
/-
  The third pallas_call (the output projection), for any float instance, at any contents `V` of the core's buffers when
  the call is entered. Grid point t = (n, s) takes rows 512·s … 512·s+511 of all 16 heads of batch n of the context
  (a [1, 16, 512, 64] block), the whole [1024, 1024] weight and the whole [1, 1024] bias, and leaves in its output staging
  buffer one [1, 512, 1024] block: the heads laid side by side, times the weight, plus the bias. The output buffer is
  stored whole, once; the inputs' buffers are left as found. This module states that as the pipeline's proof data and
  proves the body's obligation at every grid point by running the body symbolically.
-/
import proofs.«177007_j31035433681291_2_alg».proof.Proof.Gen.Kernel.Launch
import proofs.«177007_j31035433681291_2_alg».proof.Proof.Gen.Kernel.Skeleton
import proofs.«177007_j31035433681291_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core c's buffers hold when the region is entered
variable (V : (c : Dev nD) → (b : Ref sig .tc) → Buf (Elt F) ((c : Thread nD τ).loc b))

/-- Window w's block at grid point t, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, whether the point fetched it or
    found it from the point before (then the block index has not moved), for any proof data over `V` that leaves it in place. -/
theorem held2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem held2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem held2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The rectangles the body loads and stores through: each a whole staging buffer. -/
abbrev all2_c : Rect S1x16x512x64 := Rect.unit (s := S1x16x512x64) ![0, 0, 0, 0] S1x16x512x64.size inb_S1x16x512x64_S1x16x512x64_0_0_0_0
abbrev all2_w : Rect S1024x1024 := Rect.unit (s := S1024x1024) ![0, 0] S1024x1024.size inb_S1024x1024_S1024x1024_0_0
abbrev all2_b : Rect S1x1024 := Rect.unit (s := S1x1024) ![0, 0] S1x1024.size inb_S1x1024_S1x1024_0_0
abbrev all2_o : Rect S1x512x1024 := Rect.unit (s := S1x512x1024) ![0, 0, 0] S1x512x1024.size inb_S1x512x1024_S1x512x1024_0_0_0

/-- What the body leaves in the output staging buffer, from the three input blocks: its one store. -/
def left2_3 (x : Vec F S1x16x512x64 .f32) (w : Vec F S1024x1024 .bf16) (b : Vec F S1x1024 .f32) : Vec F S1x512x1024 .f32 :=
  View.canon [⟨all2_o, k2_pay1 (View.ld x all2_c) (View.ld w all2_w) (View.ld b all2_b)⟩]

/-- One store through the whole rectangle covers the buffer. -/
theorem covers2_o (p : Vec F S1x512x1024 .f32) (y : S1x512x1024.Idx) :
    ∃ pc ∈ ([⟨all2_o, p⟩] : List (View.Piece (Elt F) S1x512x1024 .f32)), y ∈ pc.1.set :=
  View.cover_of_tiled [⟨all2_o, p⟩] S1x512x1024.size (by rfl) y

set_option maxHeartbeats 1000000 in
/-- The body on whole staging memrefs, the inputs' at contents x, w, b and the output's at anything: it runs to its
    continuation with the inputs' as they were and the output's at `left2_3` of the inputs'. -/
theorem body2_runs (c : Dev nD) (E : Set ℕ) (i : grid2.Coords)
    (a2 : Memref sig .tc .vmem S1x16x512x64 .f32) (h2 : a2.IsWhole) (a3 : Memref sig .tc .vmem S1024x1024 .bf16) (h3 : a3.IsWhole)
    (a4 : Memref sig .tc .vmem S1x1024 .f32) (h4 : a4.IsWhole) (a5 : Memref sig .tc .vmem S1x512x1024 .f32) (h5 : a5.IsWhole)
    (x : Vec F S1x16x512x64 .f32) (w : Vec F S1024x1024 .bf16) (b : Vec F S1x1024 .f32) (K : PUnit → sProp 𝕄) :
    iprop(owns (c : Thread nD τ) a2 fullShare x ∗ owns (c : Thread nD τ) a3 fullShare w ∗ owns (c : Thread nD τ) a4 fullShare b
        ∗ (∃ d, owns (c : Thread nD τ) a5 fullShare d)
        ∗ (iprop(owns (c : Thread nD τ) a2 fullShare x ∗ owns (c : Thread nD τ) a3 fullShare w ∗ owns (c : Thread nD τ) a4 fullShare b
            ∗ owns (c : Thread nD τ) a5 fullShare (left2_3 x w b)) -∗ K ⟨⟩))
      ⊢ wp frame (wpE (defs₀ (F := F)) Variants.none c none) E (cc2__out_kernel i a2 h2 a3 h3 a4 h4 a5 h5) K := by
  simp only [cc2__out_kernel_eq_skeleton]; unfold cc2__out_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers2_o _)

/-- The call's proof data on core c: the arrays as found; after the body at point t every input buffer at its block and
    the output buffer at what the body leaves from the input blocks; the scoped rest and the generator register ride
    along untouched; nothing owed, full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => left2_3 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = left2_3 (blk2 V c 0 t) (blk2 V c 1 t) (blk2 V c 2 t) := by dsimp only [dat2]

theorem dat2_before0 (c : Dev nD) (t : Fin cfg2.N) (d) : (dat2 V c).before 0 t d = blk2 V c 0 t :=
  held2_0 V (dat2 V c) (dat2_A V c 0) (dat2_after0 V c) t d
theorem dat2_before1 (c : Dev nD) (t : Fin cfg2.N) (d) : (dat2 V c).before 1 t d = blk2 V c 1 t :=
  held2_1 V (dat2 V c) (dat2_A V c 1) (dat2_after1 V c) t d
theorem dat2_before2 (c : Dev nD) (t : Fin cfg2.N) (d) : (dat2 V c).before 2 t d = blk2 V c 2 t :=
  held2_2 V (dat2 V c) (dat2_A V c 2) (dat2_after2 V c) t d

/-- What the body is called with at point t, window by window, -/
def enter2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def leave2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input memrefs hold their blocks, so `body2_runs` applies; the rest passes through unread. -/
theorem body2_at (c : Dev nD) (t : Fin cfg2.N) :
    enter2 V c t ⊢ wp frame (wpE (defs₀ (F := F)) Variants.none c none) Set.univ (bodyAt2 t) (fun _ => leave2 V c t) := by
  unfold enter2 leave2 bodyAt2
  simp only [dat2_before0, dat2_before1, dat2_before2]
  rw [show (dat2 V c).Φ t.succ = (dat2 V c).Φ t.castSucc from rfl,
    show (dat2 V c).owesAt () t.succ = (dat2 V c).owesAt () t.castSucc from rfl,
    dat2_after0, dat2_after1, dat2_after2, dat2_after3]
  iintro ⟨HΦ, Ho, ⟨%d0, H0⟩, ⟨%d1, H1⟩, ⟨%d2, H2⟩, ⟨%d3, H3⟩⟩
  iapply (body2_runs c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body2_obligation (c : Dev nD) : BodyObligation (dat2 (F := F) V c) (defs₀ (F := F)) Variants.none () Set.univ := fun t => by
  rw [bigSep_W2, bigSep_W2]
  exact body2_at V c t

end Cert.Kernel.Pipe

end
-- ==== Proof.BitsPipeRun.lean ====
/-
  The whole program as a run, for any float instance: @main is seven host operations, the projection call, the attention
  call, one host operation, the output call. Between consecutive items core c holds every unscoped buffer at known
  contents: the launch memory, folded through each stretch of host operations, and after each call that call's arrays at
  what its pipeline leaves (an input window's array as entered, an output window's array with every grid point's block
  written back) and every other buffer as entered. This module names those contents (W0 … W5), shows that each of the nine
  arguments is carried unchanged to the end, gives each call its segment record over the body obligations of the three call
  modules, and launches the lot: every weakly fair execution terminates, without a fault, in a state whose every unscoped
  buffer on core c is W5 c. The frame claim and, at the ideal instance, the values of the two results are read off that.
-/
import proofs.«177007_j31035433681291_2_alg».proof.Proof.BitsQkvCall
import proofs.«177007_j31035433681291_2_alg».proof.Proof.BitsAttnCall
import proofs.«177007_j31035433681291_2_alg».proof.Proof.BitsOutCall
import proofs.«177007_j31035433681291_2_alg».proof.Proof.Gen.Kernel.Regions

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- Core c's buffers at launch. -/
abbrev W0 : Dev nD → Valuation τ sig (Elt F) := fun c b => (s₀ m ρ).mem ((c : Dev nD), b)
/-- After the seven host operations before the first call. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After call 0: its arrays at what the pipeline leaves (an input's as entered, an output's write-backs folded in),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m ρ c b
theorem left0_arr (c : Dev nD) (w : Fin cfg0.W) : (dat0 (V1 m ρ) c).arrAt w cfg0.N = V2 m ρ c (Pipeline.arrRef spec0 w) :=
  (W2_arr m ρ c w).symm
theorem left0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After call 1: its arrays at what the pipeline leaves (an input's as entered, an output's write-backs folded in),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev V3 : (c : Dev nD) → (b : Ref sig .tc) → Buf (Elt F) ((c : Thread nD τ).loc b) := fun c b => W3 m ρ c b
theorem left1_arr (c : Dev nD) (w : Fin cfg1.W) : (dat1 (V2 m ρ) c).arrAt w cfg1.N = V3 m ρ c (Pipeline.arrRef spec1 w) :=
  (W3_arr m ρ c w).symm
theorem left1_rest (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the one host operation between the attention call and the output call. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After call 2: its arrays at what the pipeline leaves (an input's as entered, an output's write-backs folded in),
    every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the core's references. -/
abbrev V5 : (c : Dev nD) → (b : Ref sig .tc) → Buf (Elt F) ((c : Thread nD τ).loc b) := fun c b => W5 m ρ c b
theorem left2_arr (c : Dev nD) (w : Fin cfg2.W) : (dat2 (V4 m ρ) c).arrAt w cfg2.N = V5 m ρ c (Pipeline.arrRef spec2 w) :=
  (W5_arr m ρ c w).symm
theorem left2_rest (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The arguments reach the end as launched -/

/-- A buffer that is no array of any call and that no host operation writes holds at the end what it held at launch. -/
theorem W5_untouched (c : Dev nD) (b : Ref sig .tc) (h2 : ∀ w, Pipeline.arrRef spec2 w ≠ b) (hh2 : b ∉ hostOps2_W)
    (h1 : ∀ w, Pipeline.arrRef spec1 w ≠ b) (h0 : ∀ w, Pipeline.arrRef spec0 w ≠ b) (hh0 : b ∉ hostOps0_W) :
    W5 m ρ c (Proc.devRef .tc b) = m ((c : Thread nD τ).loc b) :=
  calc W5 m ρ c (Proc.devRef .tc b)
    _ = W4 m ρ c (Proc.devRef .tc b) := W5_of_ne m ρ c b h2
    _ = W3 m ρ c (Proc.devRef .tc b) := StableHlo.after_of_writes_sub hostOps2 _ hostOps2_writes hh2
    _ = W2 m ρ c (Proc.devRef .tc b) := W3_of_ne m ρ c b h1
    _ = W1 m ρ c (Proc.devRef .tc b) := W2_of_ne m ρ c b h0
    _ = W0 m ρ c (Proc.devRef .tc b) := StableHlo.after_of_writes_sub hostOps0 _ hostOps0_writes hh0
    _ = m ((c : Thread nD τ).loc b) := rfl

/-- The activations are the first call's input window 0 and nothing else writes them. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (dat0_A (V1 m ρ) c 0))
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  W5_untouched m ρ c main_arg1 (by decide) (by decide) (by decide) (by decide) (by decide)
theorem W5_main_arg2 (c : Dev nD) : W5 m ρ c (Proc.devRef .tc main_arg2) = m ((c : Thread nD τ).loc main_arg2) :=
  W5_untouched m ρ c main_arg2 (by decide) (by decide) (by decide) (by decide) (by decide)
theorem W5_main_arg3 (c : Dev nD) : W5 m ρ c (Proc.devRef .tc main_arg3) = m ((c : Thread nD τ).loc main_arg3) :=
  W5_untouched m ρ c main_arg3 (by decide) (by decide) (by decide) (by decide) (by decide)
theorem W5_main_arg4 (c : Dev nD) : W5 m ρ c (Proc.devRef .tc main_arg4) = m ((c : Thread nD τ).loc main_arg4) :=
  W5_untouched m ρ c main_arg4 (by decide) (by decide) (by decide) (by decide) (by decide)
theorem W5_main_arg5 (c : Dev nD) : W5 m ρ c (Proc.devRef .tc main_arg5) = m ((c : Thread nD τ).loc main_arg5) :=
  W5_untouched m ρ c main_arg5 (by decide) (by decide) (by decide) (by decide) (by decide)
theorem W5_main_arg6 (c : Dev nD) : W5 m ρ c (Proc.devRef .tc main_arg6) = m ((c : Thread nD τ).loc main_arg6) :=
  W5_untouched m ρ c main_arg6 (by decide) (by decide) (by decide) (by decide) (by decide)
theorem W5_main_arg7 (c : Dev nD) : W5 m ρ c (Proc.devRef .tc main_arg7) = m ((c : Thread nD τ).loc main_arg7) :=
  W5_untouched m ρ c main_arg7 (by decide) (by decide) (by decide) (by decide) (by decide)
theorem W5_main_arg8 (c : Dev nD) : W5 m ρ c (Proc.devRef .tc main_arg8) = m ((c : Thread nD τ).loc main_arg8) :=
  W5_untouched m ρ c main_arg8 (by decide) (by decide) (by decide) (by decide) (by decide)

/-! ## The proof data of the three calls and what rides beside the buffers -/

/-- No call has a prefetched table. -/
abbrev adm : (p : Fin 3) → (pcfgs (F := F) p).Adm := fun p => (cfgs p).toPCfg_adm
/-- Each call's proof data at the contents its call is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything. -/
abbrev L : GSem nD τ sig → Finset Unit := fun _ => ∅
abbrev lv : GSem nD τ sig → Unit → ℕ := fun _ _ => 0
/-- Beside the buffers, through every item: the core's generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped buffers from the contents W. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at W5, the generator register at some state. -/
abbrev Tₙ (c : Dev nD) : sProp 𝕄 := iprop(StableHlo.held (c : Thread nD τ) (Pipeline.ucRefs τ sig) (W5 m ρ c) ∗ ∃ r, prngReg c r)

/-! ## The calls as segments -/

-- unifying a library lemma stated over the pinned configuration with the printed one takes unfolding plain definitions in a metavariable's type
set_option backward.isDefEq.respectTransparency.types false in
/-- Call 0 as a segment: entered with every unscoped buffer at `W1`, left with them at `W2`. Its arrays are split
    out of the unscoped buffers at entry and put back, at what the pipeline leaves, at exit; the generator register goes
    into the call's invariant and comes out; nothing is owed; the kernel has no semaphore of its own. -/
def call0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body0_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0_arr m ρ c) (left0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain definitions in a metavariable's type
set_option backward.isDefEq.respectTransparency.types false in
/-- Call 1 as a segment: entered with every unscoped buffer at `W2`, left with them at `W3`. Its arrays are split
    out of the unscoped buffers at entry and put back, at what the pipeline leaves, at exit; the generator register goes
    into the call's invariant and comes out; nothing is owed; the kernel has no semaphore of its own. -/
def call1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body1_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (left1_arr m ρ c) (left1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain definitions in a metavariable's type
set_option backward.isDefEq.respectTransparency.types false in
/-- Call 2 as a segment: entered with every unscoped buffer at `W4`, left with them at `W5`. Its arrays are split
    out of the unscoped buffers at entry and put back, at what the pipeline leaves, at exit; the generator register goes
    into the call's invariant and comes out; nothing is owed; the kernel has no semaphore of its own. -/
def call2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body2_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (left2_arr m ρ c) (left2_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its segments, and the launch -/

abbrev items : List (Pipeline.Seg (pcfgs (F := F)) adm (pdats m ρ) () defs₀ 𝒱₀ L lv) :=
  [ .host (stretch hostOps0 hostOps0_sub hostOps0_fresh (W0 m ρ)),
    .region (call0 m ρ),
    .region (call1 m ρ),
    .host (stretch hostOps2 hostOps2_sub hostOps2_fresh (W3 m ρ)),
    .region (call2 m ρ) ]
/-- @main is the run of its items. -/
theorem main_is_items (c : Dev nD) : main (F := F) c = Pipeline.Seg.run (items m ρ) := (main_chain c).trans (by chain_rfl)

set_option backward.isDefEq.respectTransparency.types false in
/-- THE RUN. From any memory with zero counters every weakly fair execution of @main terminates, nothing faulting, and
    in every final state core c's every unscoped buffer holds `W5 c`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every weakly fair execution terminates, nothing faulting, with the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c)⟩) (run_all m ρ)

end Cert.Kernel.Pipe

end
-- ==== Proof.QkvCall.lean ====
/-
  The first pallas_call (the fused q, k, v projection), for any float instance, at any contents `V` of the core's buffers
  when the call is entered. Grid point t = (n, s) takes rows 512·s … 512·s+511 of batch n of the activations, the whole
  [1024, 3072] weight and the whole [1, 3072] bias, and leaves in each of its three output staging buffers one
  [1, 16, 512, 64] block: the corresponding third of (block · weight + bias), split into 16 heads and the head axis moved
  in front of the row axis. The body stores each output buffer whole, once, so what a buffer holds afterwards is the
  stored payload; the inputs' buffers are left as found. This module states that as the pipeline's proof data and proves
  the body's obligation at every grid point by running the body symbolically.
-/
import proofs.«177007_j31035433681291_2_alg».proof.Proof.Gen.KernelIdeal.Launch
import proofs.«177007_j31035433681291_2_alg».proof.Proof.Gen.KernelIdeal.Skeleton
import proofs.«177007_j31035433681291_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core c's buffers hold when the region is entered
variable (V : (c : Dev nD) → (b : Ref sig .tc) → Buf (Elt F) ((c : Thread nD τ).loc b))

/-- Window w's block at grid point t, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the point fetched it or
    found it from the point before (then the block index has not moved), for any proof data over `V` that leaves it in place. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The rectangles the body loads and stores through: each a whole staging buffer. -/
abbrev all0_x : Rect S1x512x1024 := Rect.unit (s := S1x512x1024) ![0, 0, 0] S1x512x1024.size inb_S1x512x1024_S1x512x1024_0_0_0
abbrev all0_w : Rect S1024x3072 := Rect.unit (s := S1024x3072) ![0, 0] S1024x3072.size inb_S1024x3072_S1024x3072_0_0
abbrev all0_b : Rect S1x3072 := Rect.unit (s := S1x3072) ![0, 0] S1x3072.size inb_S1x3072_S1x3072_0_0
abbrev all0_o : Rect S1x16x512x64 := Rect.unit (s := S1x16x512x64) ![0, 0, 0, 0] S1x16x512x64.size inb_S1x16x512x64_S1x16x512x64_0_0_0_0

/-- What the body leaves in the q, k and v staging buffers, from the three input blocks: its one store of each. -/
def left0_3 (x : Vec F S1x512x1024 .f32) (w : Vec F S1024x3072 .bf16) (b : Vec F S1x3072 .f32) : Vec F S1x16x512x64 .f32 :=
  View.canon [⟨all0_o, k0_pay2 (View.ld x all0_x) (View.ld w all0_w) (View.ld b all0_b)⟩]
def left0_4 (x : Vec F S1x512x1024 .f32) (w : Vec F S1024x3072 .bf16) (b : Vec F S1x3072 .f32) : Vec F S1x16x512x64 .f32 :=
  View.canon [⟨all0_o, k0_pay3 (View.ld x all0_x) (View.ld w all0_w) (View.ld b all0_b)⟩]
def left0_5 (x : Vec F S1x512x1024 .f32) (w : Vec F S1024x3072 .bf16) (b : Vec F S1x3072 .f32) : Vec F S1x16x512x64 .f32 :=
  View.canon [⟨all0_o, k0_pay4 (View.ld x all0_x) (View.ld w all0_w) (View.ld b all0_b)⟩]

/-- One store through the whole rectangle covers the buffer. -/
theorem covers0_o (p : Vec F S1x16x512x64 .f32) (y : S1x16x512x64.Idx) :
    ∃ pc ∈ ([⟨all0_o, p⟩] : List (View.Piece (Elt F) S1x16x512x64 .f32)), y ∈ pc.1.set :=
  View.cover_of_tiled [⟨all0_o, p⟩] S1x16x512x64.size (by rfl) y

set_option maxHeartbeats 1000000 in
/-- The body on whole staging memrefs, the inputs' at contents x, w, b and the outputs' at anything: it runs to its
    continuation with the inputs' as they were and the outputs' at `left0_3`, `left0_4`, `left0_5` of the inputs'. -/
theorem body0_runs (c : Dev nD) (E : Set ℕ) (i : grid0.Coords)
    (a2 : Memref sig .tc .vmem S1x512x1024 .f32) (h2 : a2.IsWhole) (a3 : Memref sig .tc .vmem S1024x3072 .bf16) (h3 : a3.IsWhole)
    (a4 : Memref sig .tc .vmem S1x3072 .f32) (h4 : a4.IsWhole) (a5 : Memref sig .tc .vmem S1x16x512x64 .f32) (h5 : a5.IsWhole)
    (a6 : Memref sig .tc .vmem S1x16x512x64 .f32) (h6 : a6.IsWhole) (a7 : Memref sig .tc .vmem S1x16x512x64 .f32) (h7 : a7.IsWhole)
    (x : Vec F S1x512x1024 .f32) (w : Vec F S1024x3072 .bf16) (b : Vec F S1x3072 .f32) (K : PUnit → sProp 𝕄) :
    iprop(owns (c : Thread nD τ) a2 fullShare x ∗ owns (c : Thread nD τ) a3 fullShare w ∗ owns (c : Thread nD τ) a4 fullShare b
        ∗ (∃ d, owns (c : Thread nD τ) a5 fullShare d) ∗ (∃ d, owns (c : Thread nD τ) a6 fullShare d) ∗ (∃ d, owns (c : Thread nD τ) a7 fullShare d)
        ∗ (iprop(owns (c : Thread nD τ) a2 fullShare x ∗ owns (c : Thread nD τ) a3 fullShare w ∗ owns (c : Thread nD τ) a4 fullShare b
            ∗ owns (c : Thread nD τ) a5 fullShare (left0_3 x w b) ∗ owns (c : Thread nD τ) a6 fullShare (left0_4 x w b)
            ∗ owns (c : Thread nD τ) a7 fullShare (left0_5 x w b)) -∗ K ⟨⟩))
      ⊢ wp frame (wpE (defs₀ (F := F)) Variants.none c none) E (cc0__qkv_kernel i a2 h2 a3 h3 a4 h4 a5 h5 a6 h6 a7 h7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (covers0_o _)
  isplitl [H4]
  · iexists _; isplitr
    swap; · iexact H4
    ipureintro
    exact View.read_writes_eq_canon _ _ _ (covers0_o _)
  iexists _; isplitr
  swap; · iexact H5
  ipureintro
  exact View.read_writes_eq_canon _ _ _ (covers0_o _)

/-- The call's proof data on core c: the arrays as found; after the body at point t every input buffer at its block and
    every output buffer at what the body leaves from the input blocks; the scoped rest and the generator register ride
    along untouched; nothing owed, full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => left0_3 (blk0 V c 0 t) (blk0 V c 1 t) (blk0 V c 2 t)
    | ⟨4, _⟩ => left0_4 (blk0 V c 0 t) (blk0 V c 1 t) (blk0 V c 2 t)
    | ⟨5, _⟩ => left0_5 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = left0_3 (blk0 V c 0 t) (blk0 V c 1 t) (blk0 V c 2 t) := by dsimp only [dat0]
theorem dat0_after4 (c : Dev nD) (t : Fin cfg0.N) : (dat0 V c).after 4 t = left0_4 (blk0 V c 0 t) (blk0 V c 1 t) (blk0 V c 2 t) := by dsimp only [dat0]
theorem dat0_after5 (c : Dev nD) (t : Fin cfg0.N) : (dat0 V c).after 5 t = left0_5 (blk0 V c 0 t) (blk0 V c 1 t) (blk0 V c 2 t) := by dsimp only [dat0]

theorem dat0_before0 (c : Dev nD) (t : Fin cfg0.N) (d) : (dat0 V c).before 0 t d = blk0 V c 0 t :=
  held0_0 V (dat0 V c) (dat0_A V c 0) (dat0_after0 V c) t d
theorem dat0_before1 (c : Dev nD) (t : Fin cfg0.N) (d) : (dat0 V c).before 1 t d = blk0 V c 1 t :=
  held0_1 V (dat0 V c) (dat0_A V c 1) (dat0_after1 V c) t d
theorem dat0_before2 (c : Dev nD) (t : Fin cfg0.N) (d) : (dat0 V c).before 2 t d = blk0 V c 2 t :=
  held0_2 V (dat0 V c) (dat0_A V c 2) (dat0_after2 V c) t d

/-- What the body is called with at point t, window by window, -/
def enter0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def leave0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input memrefs hold their blocks, so `body0_runs` applies; the rest passes through unread. -/
theorem body0_at (c : Dev nD) (t : Fin cfg0.N) :
    enter0 V c t ⊢ wp frame (wpE (defs₀ (F := F)) Variants.none c none) Set.univ (bodyAt0 t) (fun _ => leave0 V c t) := by
  unfold enter0 leave0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3, dat0_after4, dat0_after5]
  iintro ⟨HΦ, Ho, ⟨%d0, H0⟩, ⟨%d1, H1⟩, ⟨%d2, H2⟩, ⟨%d3, H3⟩, ⟨%d4, H4⟩, ⟨%d5, H5⟩⟩
  iapply (body0_runs c Set.univ _ _ _ _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body0_obligation (c : Dev nD) : BodyObligation (dat0 (F := F) V c) (defs₀ (F := F)) Variants.none () Set.univ := fun t => by
  rw [bigSep_W0, bigSep_W0]
  exact body0_at V c t

end Cert.KernelIdeal.Pipe

end
-- ==== Proof.AttnCall.lean ====
/-
  The second pallas_call (attention), for any float instance, at any contents `V` of the core's buffers when the call
  is entered. Grid point t = (n, h, i) takes query rows 512·i … 512·i+511 of head h of batch n, and all 2048 key rows
  and all 2048 value rows of that head, and leaves in its two output staging buffers a [1, 1, 512, 2048] block of
  attention weights and a [1, 1, 512, 64] block of context rows. Each output buffer is stored whole, once; the inputs'
  buffers are left as found (the key and value blocks are fetched only when the head changes, and found in place
  otherwise). This module states that as the pipeline's proof data and proves the body's obligation at every grid point
  by running the body symbolically.
-/
import proofs.«177007_j31035433681291_2_alg».proof.Proof.Gen.KernelIdeal.Launch
import proofs.«177007_j31035433681291_2_alg».proof.Proof.Gen.KernelIdeal.Skeleton
import proofs.«177007_j31035433681291_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core c's buffers hold when the region is entered
variable (V : (c : Dev nD) → (b : Ref sig .tc) → Buf (Elt F) ((c : Thread nD τ).loc b))

/-- Window w's block at grid point t, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether the point fetched it or
    found it from the point before (then the block index has not moved), for any proof data over `V` that leaves it in place. -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The rectangles the body loads and stores through: each a whole staging buffer. -/
abbrev all1_q : Rect S1x1x512x64 := Rect.unit (s := S1x1x512x64) ![0, 0, 0, 0] S1x1x512x64.size inb_S1x1x512x64_S1x1x512x64_0_0_0_0
abbrev all1_k : Rect S1x1x2048x64 := Rect.unit (s := S1x1x2048x64) ![0, 0, 0, 0] S1x1x2048x64.size inb_S1x1x2048x64_S1x1x2048x64_0_0_0_0
abbrev all1_a : Rect S1x1x512x2048 := Rect.unit (s := S1x1x512x2048) ![0, 0, 0, 0] S1x1x512x2048.size inb_S1x1x512x2048_S1x1x512x2048_0_0_0_0

/-- What the body leaves in the weights' and the context's staging buffers, from the three input blocks. -/
def left1_3 (q : Vec F S1x1x512x64 .f32) (k : Vec F S1x1x2048x64 .f32) : Vec F S1x1x512x2048 .f32 :=
  View.canon [⟨all1_a, k1_pay2 (View.ld q all1_q) (View.ld k all1_k)⟩]
def left1_4 (q : Vec F S1x1x512x64 .f32) (k : Vec F S1x1x2048x64 .f32) (v : Vec F S1x1x2048x64 .f32) : Vec F S1x1x512x64 .f32 :=
  View.canon [⟨all1_q, k1_pay3 (View.ld q all1_q) (View.ld k all1_k) (View.ld v all1_k)⟩]

/-- One store through the whole rectangle covers the buffer. -/
theorem covers1_a (p : Vec F S1x1x512x2048 .f32) (y : S1x1x512x2048.Idx) :
    ∃ pc ∈ ([⟨all1_a, p⟩] : List (View.Piece (Elt F) S1x1x512x2048 .f32)), y ∈ pc.1.set :=
  View.cover_of_tiled [⟨all1_a, p⟩] S1x1x512x2048.size (by rfl) y
theorem covers1_c (p : Vec F S1x1x512x64 .f32) (y : S1x1x512x64.Idx) :
    ∃ pc ∈ ([⟨all1_q, p⟩] : List (View.Piece (Elt F) S1x1x512x64 .f32)), y ∈ pc.1.set :=
  View.cover_of_tiled [⟨all1_q, p⟩] S1x1x512x64.size (by rfl) y

set_option maxHeartbeats 1000000 in
/-- The body on whole staging memrefs, the inputs' at contents q, k, v and the outputs' at anything: it runs to its
    continuation with the inputs' as they were and the outputs' at `left1_3`, `left1_4` of the inputs'. -/
theorem body1_runs (c : Dev nD) (E : Set ℕ) (i : grid1.Coords)
    (a3 : Memref sig .tc .vmem S1x1x512x64 .f32) (h3 : a3.IsWhole) (a4 : Memref sig .tc .vmem S1x1x2048x64 .f32) (h4 : a4.IsWhole)
    (a5 : Memref sig .tc .vmem S1x1x2048x64 .f32) (h5 : a5.IsWhole) (a6 : Memref sig .tc .vmem S1x1x512x2048 .f32) (h6 : a6.IsWhole)
    (a7 : Memref sig .tc .vmem S1x1x512x64 .f32) (h7 : a7.IsWhole)
    (q : Vec F S1x1x512x64 .f32) (k : Vec F S1x1x2048x64 .f32) (v : Vec F S1x1x2048x64 .f32) (K : PUnit → sProp 𝕄) :
    iprop(owns (c : Thread nD τ) a3 fullShare q ∗ owns (c : Thread nD τ) a4 fullShare k ∗ owns (c : Thread nD τ) a5 fullShare v
        ∗ (∃ d, owns (c : Thread nD τ) a6 fullShare d) ∗ (∃ d, owns (c : Thread nD τ) a7 fullShare d)
        ∗ (iprop(owns (c : Thread nD τ) a3 fullShare q ∗ owns (c : Thread nD τ) a4 fullShare k ∗ owns (c : Thread nD τ) a5 fullShare v
            ∗ owns (c : Thread nD τ) a6 fullShare (left1_3 q k) ∗ owns (c : Thread nD τ) a7 fullShare (left1_4 q k v)) -∗ K ⟨⟩))
      ⊢ wp frame (wpE (defs₀ (F := F)) Variants.none c none) E (cc1_kernel i a3 h3 a4 h4 a5 h5 a6 h6 a7 h7) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (covers1_a _)
  iexists _; isplitr
  swap; · iexact H4
  ipureintro
  exact View.read_writes_eq_canon _ _ _ (covers1_c _)

/-- The call's proof data on core c: the arrays as found; after the body at point t every input buffer at its block and
    every output buffer at what the body leaves from the input blocks; the scoped rest and the generator register ride
    along untouched; nothing owed, full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => left1_3 (blk1 V c 0 t) (blk1 V c 1 t)
    | ⟨4, _⟩ => left1_4 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = left1_3 (blk1 V c 0 t) (blk1 V c 1 t) := by dsimp only [dat1]
theorem dat1_after4 (c : Dev nD) (t : Fin cfg1.N) : (dat1 V c).after 4 t = left1_4 (blk1 V c 0 t) (blk1 V c 1 t) (blk1 V c 2 t) := by dsimp only [dat1]

theorem dat1_before0 (c : Dev nD) (t : Fin cfg1.N) (d) : (dat1 V c).before 0 t d = blk1 V c 0 t :=
  held1_0 V (dat1 V c) (dat1_A V c 0) (dat1_after0 V c) t d
theorem dat1_before1 (c : Dev nD) (t : Fin cfg1.N) (d) : (dat1 V c).before 1 t d = blk1 V c 1 t :=
  held1_1 V (dat1 V c) (dat1_A V c 1) (dat1_after1 V c) t d
theorem dat1_before2 (c : Dev nD) (t : Fin cfg1.N) (d) : (dat1 V c).before 2 t d = blk1 V c 2 t :=
  held1_2 V (dat1 V c) (dat1_A V c 2) (dat1_after2 V c) t d

/-- What the body is called with at point t, window by window, -/
def enter1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def leave1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input memrefs hold their blocks, so `body1_runs` applies; the rest passes through unread. -/
theorem body1_at (c : Dev nD) (t : Fin cfg1.N) :
    enter1 V c t ⊢ wp frame (wpE (defs₀ (F := F)) Variants.none c none) Set.univ (bodyAt1 t) (fun _ => leave1 V c t) := by
  unfold enter1 leave1 bodyAt1
  simp only [dat1_before0, dat1_before1, dat1_before2]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4]
  iintro ⟨HΦ, Ho, ⟨%d0, H0⟩, ⟨%d1, H1⟩, ⟨%d2, H2⟩, ⟨%d3, H3⟩, ⟨%d4, H4⟩⟩
  iapply (body1_runs c Set.univ _ _ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body1_obligation (c : Dev nD) : BodyObligation (dat1 (F := F) V c) (defs₀ (F := F)) Variants.none () Set.univ := fun t => by
  rw [bigSep_W1, bigSep_W1]
  exact body1_at V c t

end Cert.KernelIdeal.Pipe

end
-- ==== Proof.OutCall.lean ====
/-
  The third pallas_call (the output projection), for any float instance, at any contents `V` of the core's buffers when
  the call is entered. Grid point t = (n, s) takes rows 512·s … 512·s+511 of all 16 heads of batch n of the context
  (a [1, 16, 512, 64] block), the whole [1024, 1024] weight and the whole [1, 1024] bias, and leaves in its output staging
  buffer one [1, 512, 1024] block: the heads laid side by side, times the weight, plus the bias. The output buffer is
  stored whole, once; the inputs' buffers are left as found. This module states that as the pipeline's proof data and
  proves the body's obligation at every grid point by running the body symbolically.
-/
import proofs.«177007_j31035433681291_2_alg».proof.Proof.Gen.KernelIdeal.Launch
import proofs.«177007_j31035433681291_2_alg».proof.Proof.Gen.KernelIdeal.Skeleton
import proofs.«177007_j31035433681291_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core c's buffers hold when the region is entered
variable (V : (c : Dev nD) → (b : Ref sig .tc) → Buf (Elt F) ((c : Thread nD τ).loc b))

/-- Window w's block at grid point t, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, whether the point fetched it or
    found it from the point before (then the block index has not moved), for any proof data over `V` that leaves it in place. -/
theorem held2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem held2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem held2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The rectangles the body loads and stores through: each a whole staging buffer. -/
abbrev all2_c : Rect S1x16x512x64 := Rect.unit (s := S1x16x512x64) ![0, 0, 0, 0] S1x16x512x64.size inb_S1x16x512x64_S1x16x512x64_0_0_0_0
abbrev all2_w : Rect S1024x1024 := Rect.unit (s := S1024x1024) ![0, 0] S1024x1024.size inb_S1024x1024_S1024x1024_0_0
abbrev all2_b : Rect S1x1024 := Rect.unit (s := S1x1024) ![0, 0] S1x1024.size inb_S1x1024_S1x1024_0_0
abbrev all2_o : Rect S1x512x1024 := Rect.unit (s := S1x512x1024) ![0, 0, 0] S1x512x1024.size inb_S1x512x1024_S1x512x1024_0_0_0

/-- What the body leaves in the output staging buffer, from the three input blocks: its one store. -/
def left2_3 (x : Vec F S1x16x512x64 .f32) (w : Vec F S1024x1024 .bf16) (b : Vec F S1x1024 .f32) : Vec F S1x512x1024 .f32 :=
  View.canon [⟨all2_o, k2_pay1 (View.ld x all2_c) (View.ld w all2_w) (View.ld b all2_b)⟩]

/-- One store through the whole rectangle covers the buffer. -/
theorem covers2_o (p : Vec F S1x512x1024 .f32) (y : S1x512x1024.Idx) :
    ∃ pc ∈ ([⟨all2_o, p⟩] : List (View.Piece (Elt F) S1x512x1024 .f32)), y ∈ pc.1.set :=
  View.cover_of_tiled [⟨all2_o, p⟩] S1x512x1024.size (by rfl) y

set_option maxHeartbeats 1000000 in
/-- The body on whole staging memrefs, the inputs' at contents x, w, b and the output's at anything: it runs to its
    continuation with the inputs' as they were and the output's at `left2_3` of the inputs'. -/
theorem body2_runs (c : Dev nD) (E : Set ℕ) (i : grid2.Coords)
    (a2 : Memref sig .tc .vmem S1x16x512x64 .f32) (h2 : a2.IsWhole) (a3 : Memref sig .tc .vmem S1024x1024 .bf16) (h3 : a3.IsWhole)
    (a4 : Memref sig .tc .vmem S1x1024 .f32) (h4 : a4.IsWhole) (a5 : Memref sig .tc .vmem S1x512x1024 .f32) (h5 : a5.IsWhole)
    (x : Vec F S1x16x512x64 .f32) (w : Vec F S1024x1024 .bf16) (b : Vec F S1x1024 .f32) (K : PUnit → sProp 𝕄) :
    iprop(owns (c : Thread nD τ) a2 fullShare x ∗ owns (c : Thread nD τ) a3 fullShare w ∗ owns (c : Thread nD τ) a4 fullShare b
        ∗ (∃ d, owns (c : Thread nD τ) a5 fullShare d)
        ∗ (iprop(owns (c : Thread nD τ) a2 fullShare x ∗ owns (c : Thread nD τ) a3 fullShare w ∗ owns (c : Thread nD τ) a4 fullShare b
            ∗ owns (c : Thread nD τ) a5 fullShare (left2_3 x w b)) -∗ K ⟨⟩))
      ⊢ wp frame (wpE (defs₀ (F := F)) Variants.none c none) E (cc2__out_kernel i a2 h2 a3 h3 a4 h4 a5 h5) K := by
  simp only [cc2__out_kernel_eq_skeleton]; unfold cc2__out_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers2_o _)

/-- The call's proof data on core c: the arrays as found; after the body at point t every input buffer at its block and
    the output buffer at what the body leaves from the input blocks; the scoped rest and the generator register ride
    along untouched; nothing owed, full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => left2_3 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = left2_3 (blk2 V c 0 t) (blk2 V c 1 t) (blk2 V c 2 t) := by dsimp only [dat2]

theorem dat2_before0 (c : Dev nD) (t : Fin cfg2.N) (d) : (dat2 V c).before 0 t d = blk2 V c 0 t :=
  held2_0 V (dat2 V c) (dat2_A V c 0) (dat2_after0 V c) t d
theorem dat2_before1 (c : Dev nD) (t : Fin cfg2.N) (d) : (dat2 V c).before 1 t d = blk2 V c 1 t :=
  held2_1 V (dat2 V c) (dat2_A V c 1) (dat2_after1 V c) t d
theorem dat2_before2 (c : Dev nD) (t : Fin cfg2.N) (d) : (dat2 V c).before 2 t d = blk2 V c 2 t :=
  held2_2 V (dat2 V c) (dat2_A V c 2) (dat2_after2 V c) t d

/-- What the body is called with at point t, window by window, -/
def enter2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def leave2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input memrefs hold their blocks, so `body2_runs` applies; the rest passes through unread. -/
theorem body2_at (c : Dev nD) (t : Fin cfg2.N) :
    enter2 V c t ⊢ wp frame (wpE (defs₀ (F := F)) Variants.none c none) Set.univ (bodyAt2 t) (fun _ => leave2 V c t) := by
  unfold enter2 leave2 bodyAt2
  simp only [dat2_before0, dat2_before1, dat2_before2]
  rw [show (dat2 V c).Φ t.succ = (dat2 V c).Φ t.castSucc from rfl,
    show (dat2 V c).owesAt () t.succ = (dat2 V c).owesAt () t.castSucc from rfl,
    dat2_after0, dat2_after1, dat2_after2, dat2_after3]
  iintro ⟨HΦ, Ho, ⟨%d0, H0⟩, ⟨%d1, H1⟩, ⟨%d2, H2⟩, ⟨%d3, H3⟩⟩
  iapply (body2_runs c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body2_obligation (c : Dev nD) : BodyObligation (dat2 (F := F) V c) (defs₀ (F := F)) Variants.none () Set.univ := fun t => by
  rw [bigSep_W2, bigSep_W2]
  exact body2_at V c t

end Cert.KernelIdeal.Pipe

end
-- ==== Proof.PipeRun.lean ====
/-
  The whole program as a run, for any float instance: @main is seven host operations, the projection call, the attention
  call, one host operation, the output call. Between consecutive items core c holds every unscoped buffer at known
  contents: the launch memory, folded through each stretch of host operations, and after each call that call's arrays at
  what its pipeline leaves (an input window's array as entered, an output window's array with every grid point's block
  written back) and every other buffer as entered. This module names those contents (W0 … W5), shows that each of the nine
  arguments is carried unchanged to the end, gives each call its segment record over the body obligations of the three call
  modules, and launches the lot: every weakly fair execution terminates, without a fault, in a state whose every unscoped
  buffer on core c is W5 c. The frame claim and, at the ideal instance, the values of the two results are read off that.
-/
import proofs.«177007_j31035433681291_2_alg».proof.Proof.QkvCall
import proofs.«177007_j31035433681291_2_alg».proof.Proof.AttnCall
import proofs.«177007_j31035433681291_2_alg».proof.Proof.OutCall
import proofs.«177007_j31035433681291_2_alg».proof.Proof.Gen.KernelIdeal.Regions

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- Core c's buffers at launch. -/
abbrev W0 : Dev nD → Valuation τ sig (Elt F) := fun c b => (s₀ m ρ).mem ((c : Dev nD), b)
/-- After the seven host operations before the first call. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After call 0: its arrays at what the pipeline leaves (an input's as entered, an output's write-backs folded in),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m ρ c b
theorem left0_arr (c : Dev nD) (w : Fin cfg0.W) : (dat0 (V1 m ρ) c).arrAt w cfg0.N = V2 m ρ c (Pipeline.arrRef spec0 w) :=
  (W2_arr m ρ c w).symm
theorem left0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After call 1: its arrays at what the pipeline leaves (an input's as entered, an output's write-backs folded in),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev V3 : (c : Dev nD) → (b : Ref sig .tc) → Buf (Elt F) ((c : Thread nD τ).loc b) := fun c b => W3 m ρ c b
theorem left1_arr (c : Dev nD) (w : Fin cfg1.W) : (dat1 (V2 m ρ) c).arrAt w cfg1.N = V3 m ρ c (Pipeline.arrRef spec1 w) :=
  (W3_arr m ρ c w).symm
theorem left1_rest (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the one host operation between the attention call and the output call. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After call 2: its arrays at what the pipeline leaves (an input's as entered, an output's write-backs folded in),
    every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the core's references. -/
abbrev V5 : (c : Dev nD) → (b : Ref sig .tc) → Buf (Elt F) ((c : Thread nD τ).loc b) := fun c b => W5 m ρ c b
theorem left2_arr (c : Dev nD) (w : Fin cfg2.W) : (dat2 (V4 m ρ) c).arrAt w cfg2.N = V5 m ρ c (Pipeline.arrRef spec2 w) :=
  (W5_arr m ρ c w).symm
theorem left2_rest (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The arguments reach the end as launched -/

/-- A buffer that is no array of any call and that no host operation writes holds at the end what it held at launch. -/
theorem W5_untouched (c : Dev nD) (b : Ref sig .tc) (h2 : ∀ w, Pipeline.arrRef spec2 w ≠ b) (hh2 : b ∉ hostOps2_W)
    (h1 : ∀ w, Pipeline.arrRef spec1 w ≠ b) (h0 : ∀ w, Pipeline.arrRef spec0 w ≠ b) (hh0 : b ∉ hostOps0_W) :
    W5 m ρ c (Proc.devRef .tc b) = m ((c : Thread nD τ).loc b) :=
  calc W5 m ρ c (Proc.devRef .tc b)
    _ = W4 m ρ c (Proc.devRef .tc b) := W5_of_ne m ρ c b h2
    _ = W3 m ρ c (Proc.devRef .tc b) := StableHlo.after_of_writes_sub hostOps2 _ hostOps2_writes hh2
    _ = W2 m ρ c (Proc.devRef .tc b) := W3_of_ne m ρ c b h1
    _ = W1 m ρ c (Proc.devRef .tc b) := W2_of_ne m ρ c b h0
    _ = W0 m ρ c (Proc.devRef .tc b) := StableHlo.after_of_writes_sub hostOps0 _ hostOps0_writes hh0
    _ = m ((c : Thread nD τ).loc b) := rfl

/-- The activations are the first call's input window 0 and nothing else writes them. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (dat0_A (V1 m ρ) c 0))
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  W5_untouched m ρ c main_arg1 (by decide) (by decide) (by decide) (by decide) (by decide)
theorem W5_main_arg2 (c : Dev nD) : W5 m ρ c (Proc.devRef .tc main_arg2) = m ((c : Thread nD τ).loc main_arg2) :=
  W5_untouched m ρ c main_arg2 (by decide) (by decide) (by decide) (by decide) (by decide)
theorem W5_main_arg3 (c : Dev nD) : W5 m ρ c (Proc.devRef .tc main_arg3) = m ((c : Thread nD τ).loc main_arg3) :=
  W5_untouched m ρ c main_arg3 (by decide) (by decide) (by decide) (by decide) (by decide)
theorem W5_main_arg4 (c : Dev nD) : W5 m ρ c (Proc.devRef .tc main_arg4) = m ((c : Thread nD τ).loc main_arg4) :=
  W5_untouched m ρ c main_arg4 (by decide) (by decide) (by decide) (by decide) (by decide)
theorem W5_main_arg5 (c : Dev nD) : W5 m ρ c (Proc.devRef .tc main_arg5) = m ((c : Thread nD τ).loc main_arg5) :=
  W5_untouched m ρ c main_arg5 (by decide) (by decide) (by decide) (by decide) (by decide)
theorem W5_main_arg6 (c : Dev nD) : W5 m ρ c (Proc.devRef .tc main_arg6) = m ((c : Thread nD τ).loc main_arg6) :=
  W5_untouched m ρ c main_arg6 (by decide) (by decide) (by decide) (by decide) (by decide)
theorem W5_main_arg7 (c : Dev nD) : W5 m ρ c (Proc.devRef .tc main_arg7) = m ((c : Thread nD τ).loc main_arg7) :=
  W5_untouched m ρ c main_arg7 (by decide) (by decide) (by decide) (by decide) (by decide)
theorem W5_main_arg8 (c : Dev nD) : W5 m ρ c (Proc.devRef .tc main_arg8) = m ((c : Thread nD τ).loc main_arg8) :=
  W5_untouched m ρ c main_arg8 (by decide) (by decide) (by decide) (by decide) (by decide)

/-! ## The proof data of the three calls and what rides beside the buffers -/

/-- No call has a prefetched table. -/
abbrev adm : (p : Fin 3) → (pcfgs (F := F) p).Adm := fun p => (cfgs p).toPCfg_adm
/-- Each call's proof data at the contents its call is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything. -/
abbrev L : GSem nD τ sig → Finset Unit := fun _ => ∅
abbrev lv : GSem nD τ sig → Unit → ℕ := fun _ _ => 0
/-- Beside the buffers, through every item: the core's generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped buffers from the contents W. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at W5, the generator register at some state. -/
abbrev Tₙ (c : Dev nD) : sProp 𝕄 := iprop(StableHlo.held (c : Thread nD τ) (Pipeline.ucRefs τ sig) (W5 m ρ c) ∗ ∃ r, prngReg c r)

/-! ## The calls as segments -/

-- unifying a library lemma stated over the pinned configuration with the printed one takes unfolding plain definitions in a metavariable's type
set_option backward.isDefEq.respectTransparency.types false in
/-- Call 0 as a segment: entered with every unscoped buffer at `W1`, left with them at `W2`. Its arrays are split
    out of the unscoped buffers at entry and put back, at what the pipeline leaves, at exit; the generator register goes
    into the call's invariant and comes out; nothing is owed; the kernel has no semaphore of its own. -/
def call0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body0_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0_arr m ρ c) (left0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain definitions in a metavariable's type
set_option backward.isDefEq.respectTransparency.types false in
/-- Call 1 as a segment: entered with every unscoped buffer at `W2`, left with them at `W3`. Its arrays are split
    out of the unscoped buffers at entry and put back, at what the pipeline leaves, at exit; the generator register goes
    into the call's invariant and comes out; nothing is owed; the kernel has no semaphore of its own. -/
def call1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body1_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (left1_arr m ρ c) (left1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain definitions in a metavariable's type
set_option backward.isDefEq.respectTransparency.types false in
/-- Call 2 as a segment: entered with every unscoped buffer at `W4`, left with them at `W5`. Its arrays are split
    out of the unscoped buffers at entry and put back, at what the pipeline leaves, at exit; the generator register goes
    into the call's invariant and comes out; nothing is owed; the kernel has no semaphore of its own. -/
def call2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body2_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (left2_arr m ρ c) (left2_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its segments, and the launch -/

abbrev items : List (Pipeline.Seg (pcfgs (F := F)) adm (pdats m ρ) () defs₀ 𝒱₀ L lv) :=
  [ .host (stretch hostOps0 hostOps0_sub hostOps0_fresh (W0 m ρ)),
    .region (call0 m ρ),
    .region (call1 m ρ),
    .host (stretch hostOps2 hostOps2_sub hostOps2_fresh (W3 m ρ)),
    .region (call2 m ρ) ]
/-- @main is the run of its items. -/
theorem main_is_items (c : Dev nD) : main (F := F) c = Pipeline.Seg.run (items m ρ) := (main_chain c).trans (by chain_rfl)

set_option backward.isDefEq.respectTransparency.types false in
/-- THE RUN. From any memory with zero counters every weakly fair execution of @main terminates, nothing faulting, and
    in every final state core c's every unscoped buffer holds `W5 c`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every weakly fair execution terminates, nothing faulting, with the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c)⟩) (run_all m ρ)

end Cert.KernelIdeal.Pipe

end
-- ==== Proof.Spec.lean ====
/-
  Multi-head attention on the extended reals, as functions of the nine argument arrays, coordinate by coordinate.

  With x : [2, 2048, 1024], a weight W : [1024, 1024] and a bias b : [1024], the projection of head h, lane d is
      proj x W b n h s d = (Σ_e x(n, s, e) · W(64·h + d, e)) + b(64·h + d)                    (y = x Wᵀ + b, split into 16 heads of 64 lanes).
  The scores of a head are the products of a query row with every key row, scaled by the word 0x3E000000 (one eighth):
      score q k n h i j = (Σ_d q(n,h,i,d) · k(n,h,j,d)) · scale.
  A row of scores becomes a row of weights by the shifted softmax: with M the maximum of the row (a fold of max from the
  word 0xFF800000, which is −∞), weight j is exp(s_j − M) divided by Σ_j' exp(s_j' − M).
  The context is the weighted sum of the value rows, ctx a v n h i d = Σ_j a(n,h,i,j) · v(n,h,j,d), and the output is the
  projection of the heads laid side by side again: outp c Wo bo n s e = (Σ_f c(n, f / 64, s, f % 64) · Wo(e, f)) + bo(e).
  Sums are over Fin-indexed finite sets in the extended reals (a commutative monoid: any order, any grouping).
-/
import Idealize.ShloMosaic.PureOps.Ideal
import Idealize.ShloMosaic.PureOps.Ideal.Laws
import Idealize.ShloMosaic.Lib.ValueIdx

noncomputable section

namespace Cert.Mha

open Idealize.ShloMosaic Idealize.ShloMosaic.ValueIdx

/-- The shapes of the arguments and of the attention weights. -/
abbrev SX : Shape := ⟨3, ![2, 2048, 1024]⟩
abbrev SW : Shape := ⟨2, ![1024, 1024]⟩
abbrev SB : Shape := ⟨1, ![1024]⟩
abbrev SA : Shape := ⟨4, ![2, 16, 2048, 2048]⟩

/-- Feature 64·h + d: lane d of head h. -/
def feat (h : Fin 16) (d : Fin 64) : Fin 1024 := ⟨h.val * 64 + d.val, by omega⟩
/-- The head and the lane of a feature. -/
def headOf (f : Fin 1024) : Fin 16 := ⟨f.val / 64, by omega⟩
def laneOf (f : Fin 1024) : Fin 64 := ⟨f.val % 64, by omega⟩

theorem feat_head_lane (f : Fin 1024) : feat (headOf f) (laneOf f) = f := by
  apply Fin.ext; simp only [feat, headOf, laneOf]; omega
theorem headOf_feat (h : Fin 16) (d : Fin 64) : headOf (feat h d) = h := by
  apply Fin.ext; simp only [feat, headOf]; omega
theorem laneOf_feat (h : Fin 16) (d : Fin 64) : laneOf (feat h d) = d := by
  apply Fin.ext; simp only [feat, laneOf]; omega

/-- Column 1024·j + f of a [·, 3072] array made of three [·, 1024] arrays side by side: feature f of part j. -/
def third (j : Fin 3) (f : Fin 1024) : Fin 3072 := ⟨1024 * j.val + f.val, by omega⟩

/-- The scale of the scores: the word of one eighth. -/
def scale : EReal := Ideal.ofBits .f32 0x3E000000#32
/-- What a row maximum starts from: the word of −∞. -/
def negInf : EReal := Ideal.ofBits .f32 0xFF800000#32

/-- One projection, head by head: x Wᵀ + b at (n, s, 64·h + d). -/
def proj (x : SX.Idx → EReal) (W : SW.Idx → EReal) (b : SB.Idx → EReal) (n : Fin 2) (h : Fin 16) (s : Fin 2048) (d : Fin 64) : EReal :=
  (∑ e : Fin 1024, x (ix3 n s e) * W (ix2 (feat h d) e)) + b (ix1 (feat h d))

/-- The scaled product of query row i with key row j. -/
def score (q k : Fin 2 → Fin 16 → Fin 2048 → Fin 64 → EReal) (n : Fin 2) (h : Fin 16) (i j : Fin 2048) : EReal :=
  (∑ d : Fin 64, q n h i d * k n h j d) * scale

/-- A row's maximum, folded from −∞. -/
def rowMax (s : Fin 2048 → EReal) : EReal := (Finset.univ : Finset (Fin 2048)).fold max negInf s

/-- The shifted softmax of a row. -/
def softmaxRow (s : Fin 2048 → EReal) (j : Fin 2048) : EReal :=
  Ideal.div (Ideal.exp (s j - rowMax s)) (∑ j' : Fin 2048, Ideal.exp (s j' - rowMax s))

/-- The attention weights. -/
def attn (q k : Fin 2 → Fin 16 → Fin 2048 → Fin 64 → EReal) (n : Fin 2) (h : Fin 16) (i j : Fin 2048) : EReal :=
  softmaxRow (score q k n h i) j

/-- The context: the weights applied to the value rows. -/
def ctx (a : Fin 2 → Fin 16 → Fin 2048 → Fin 2048 → EReal) (v : Fin 2 → Fin 16 → Fin 2048 → Fin 64 → EReal)
    (n : Fin 2) (h : Fin 16) (i : Fin 2048) (d : Fin 64) : EReal :=
  ∑ j : Fin 2048, a n h i j * v n h j d

/-- The output projection of the heads laid side by side. -/
def outp (c : Fin 2 → Fin 16 → Fin 2048 → Fin 64 → EReal) (Wo : SW.Idx → EReal) (bo : SB.Idx → EReal)
    (n : Fin 2) (s : Fin 2048) (e : Fin 1024) : EReal :=
  (∑ f : Fin 1024, c n (headOf f) s (laneOf f) * Wo (ix2 e f)) + bo (ix1 e)

/-- The two results as arrays of the nine arguments. -/
def attnOf (x : SX.Idx → EReal) (Wq : SW.Idx → EReal) (bq : SB.Idx → EReal) (Wk : SW.Idx → EReal) (bk : SB.Idx → EReal) :
    SA.Idx → EReal :=
  fun i => attn (proj x Wq bq) (proj x Wk bk) (i 0) (i 1) (i 2) (i 3)

def outOf (x : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal) : SX.Idx → EReal :=
  fun i => outp (ctx (attn (proj x Wq bq) (proj x Wk bk)) (proj x Wv bv)) Wo bo (i 0) (i 1) (i 2)

/-- Starting a fold of max from b and then taking the maximum with b again changes nothing. -/
theorem max_fold_self {ι : Type} (b : EReal) (f : ι → EReal) (s : Finset ι) : max b (s.fold max b f) = s.fold max b f :=
  max_eq_right (by rw [Finset.le_fold_max]; exact Or.inl le_rfl)

end Cert.Mha

end
-- ==== Proof.LibNary.lean ====
import Idealize.ShloMosaic.Lib.StableHlo.Run

noncomputable section

namespace Cert.LibNary

open Idealize.ShloMosaic Idealize.ShloMosaic.StableHlo

variable {τ : Topo} {sig : RefSig} {Val : EltTy → Type} {x a b c e y : Ref sig .tc}

/-- A host operation over a LITERAL family of three operand references (a concatenation of three arrays), at its own
    result reference: its function of each operand's contents at that operand's own reference, so that reading the
    contents after a list of host operations can go on into the operands. (The library states the same for four.) -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same for five operand references. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The two literal forms with the result reference un-indexed, for a one-pass `simp` (as the library restates its own). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

/-- The contents after two lists of host operations run one after the other. -/
theorem after_append {Val' : EltTy → Type} {τ' : Topo} {sig' : RefSig} (l1 l2 : List (HloOp τ' sig' Val')) (V : Valuation τ' sig' Val') :
    after (l1 ++ l2) V = after l2 (after l1 V) := by
  induction l1 generalizing V with
  | nil => rfl
  | cons op ops ih => simp only [List.cons_append, after_cons, ih]

end Cert.LibNary

/-- Reads the contents of one reference after a literal list of host operations, as the library's `after_results` does, with
    the literal three- and five-operand forms tried before the general one. -/
macro "after_results_lit" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.quaternary_result]
               | rw [Idealize.ShloMosaic.StableHlo.reshape_result] | rw [Idealize.ShloMosaic.StableHlo.binaryIndexed_result]
               | rw [Cert.LibNary.nary3_result] | rw [Idealize.ShloMosaic.StableHlo.nary4_result] | rw [Cert.LibNary.nary5_result]
               | rw [Idealize.ShloMosaic.StableHlo.nary_result] | rw [Idealize.ShloMosaic.StableHlo.unaryIndexed_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.quaternary_result_ne]; rotate_left; decide)
               | (rw [Idealize.ShloMosaic.StableHlo.reshape_result_ne]; rotate_left; decide)
               | (rw [Idealize.ShloMosaic.StableHlo.binaryIndexed_result_ne]; rotate_left; decide)
               | (rw [Idealize.ShloMosaic.StableHlo.nary_result_ne]; rotate_left; decide)
               | (rw [Idealize.ShloMosaic.StableHlo.unaryIndexed_result_ne]; rotate_left; decide))))

/-- The same reading as ONE `simp` pass (each shared operand visited once), with the literal three-, four- and five-operand forms. -/
macro "after_results_simp_lit" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary.nary3_result', Idealize.ShloMosaic.StableHlo.nary4_result', Cert.LibNary.nary5_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

end
-- ==== Proof.HostGlue.lean ====
/-
  What the host operations around the calls leave in the buffers the calls read, at the ideal instance, read at an index.
  Before the first call: the three [1024, 1024] weights are stacked along axis 0 into [3072, 1024], transposed to
  [1024, 3072] and converted (the identity on extended reals): entry (e, 1024·j + f) of the fused weight is entry (f, e)
  of weight j. The three biases are stacked into [3072] and reshaped to [1, 3072]: entry (0, 1024·j + f) is entry f of
  bias j. The output weight is transposed and converted: entry (f, e) of the transposed weight is entry (e, f) of the weight.
  Before the last call the output bias is reshaped to [1, 1024].
-/
import proofs.«177007_j31035433681291_2_alg».proof.Proof.PipeRun
import proofs.«177007_j31035433681291_2_alg».proof.Proof.Spec
import proofs.«177007_j31035433681291_2_alg».proof.Proof.LibNary
import Idealize.ShloMosaic.Lib.Pipeline.Value
import Idealize.ShloMosaic.Lib.ValueIdx
import Idealize.ShloMosaic.Lib.ValueLayout

set_option maxRecDepth 16384

noncomputable section

namespace Cert.KernelIdeal.Arrays

open Cert.KernelIdeal Cert.KernelIdeal.Gen Cert.KernelIdeal.Pipe Cert.Mha
open Idealize.ShloMosaic Idealize.ShloMosaic.TcCoe Idealize.ShloMosaic.ValueIdx Idealize.SL.Sem

variable (m : (ℓ : Loc nD τ sig) → Buf (Elt Ideal) ℓ) (ρ : Dev nD → PrngReg)

/-- The nine arguments on core c, as arrays of extended reals. -/
abbrev aX (c : Dev nD) : S2x2048x1024.Idx → EReal := m ((c : Thread nD τ).loc main_arg0)
abbrev aWq (c : Dev nD) : S1024x1024.Idx → EReal := m ((c : Thread nD τ).loc main_arg1)
abbrev aBq (c : Dev nD) : S1024.Idx → EReal := m ((c : Thread nD τ).loc main_arg2)
abbrev aWk (c : Dev nD) : S1024x1024.Idx → EReal := m ((c : Thread nD τ).loc main_arg3)
abbrev aBk (c : Dev nD) : S1024.Idx → EReal := m ((c : Thread nD τ).loc main_arg4)
abbrev aWv (c : Dev nD) : S1024x1024.Idx → EReal := m ((c : Thread nD τ).loc main_arg5)
abbrev aBv (c : Dev nD) : S1024.Idx → EReal := m ((c : Thread nD τ).loc main_arg6)
abbrev aWo (c : Dev nD) : S1024x1024.Idx → EReal := m ((c : Thread nD τ).loc main_arg7)
abbrev aBo (c : Dev nD) : S1024.Idx → EReal := m ((c : Thread nD τ).loc main_arg8)

/-- The fused weight as the host operations' term of the three weights. -/
theorem fusedW_term (c : Dev nD) : (V1 m ρ c main_v3 : S1024x3072.Idx → EReal)
    = truncf (F := Ideal) .bf16 (transpose S1024x3072 [1, 0] (concatenate S3072x1024 0 [⟨S1024x1024, aWq m c⟩, ⟨S1024x1024, aWk m c⟩, ⟨S1024x1024, aWv m c⟩]
        concatenates_S1024x1024_S1024x1024_S1024x1024_S3072x1024_d0) transposes_S3072x1024_S1024x3072_1_0) bitsLt_bf16_f32 := by
  show StableHlo.after hostOps0 (W0 m ρ c) (Proc.devRef .tc main_v3) = _
  after_results_lit
  all_goals rfl

/-- The fused bias as the host operations' term of the three biases. -/
theorem fusedB_term (c : Dev nD) : (V1 m ρ c main_v6 : S1x3072.Idx → EReal)
    = shapeCast S1x3072 (concatenate S3072 0 [⟨S1024, aBq m c⟩, ⟨S1024, aBk m c⟩, ⟨S1024, aBv m c⟩]
        concatenates_S1024_S1024_S1024_S3072_d0) shapeCasts_S3072_S1x3072 := by
  show StableHlo.after hostOps0 (W0 m ρ c) (Proc.devRef .tc main_v6) = _
  after_results_lit
  all_goals rfl

/-- The transposed output weight as the host operations' term. -/
theorem outW_term (c : Dev nD) : (V1 m ρ c main_v5 : S1024x1024.Idx → EReal)
    = truncf (F := Ideal) .bf16 (transpose S1024x1024 [1, 0] (aWo m c) transposes_S1024x1024_S1024x1024_1_0) bitsLt_bf16_f32 := by
  show StableHlo.after hostOps0 (W0 m ρ c) (Proc.devRef .tc main_v5) = _
  after_results_lit
  all_goals rfl

/-- Entry (e, 0 + f) of the fused weight is entry (f, e) of the query weight. -/
theorem fusedW_q (c : Dev nD) (e f : Fin 1024) : (V1 m ρ c main_v3 : S1024x3072.Idx → EReal) (ix2 e (third 0 f)) = aWq m c (ix2 f e) := by
  rw [fusedW_term]
  refine (truncf_apply (φ := FTy.f32) (ψ := FTy.bf16) _ bitsLt_bf16_f32 _).trans ?_
  rw [transpose_apply [1, 0] _ transposes_S3072x1024_S1024x3072_1_0 (ix2 e (third 0 f)) (ix2 (third 0 f) e)
    (fun b => by match b with | ⟨0, _⟩ => rfl | ⟨1, _⟩ => rfl)]
  exact concatenate_apply_piece (t := S3072x1024) (0 : Fin 2) [⟨S1024x1024, aWq m c⟩, ⟨S1024x1024, aWk m c⟩, ⟨S1024x1024, aWv m c⟩] concatenates_S1024x1024_S1024x1024_S1024x1024_S3072x1024_d0 (ix2 (third 0 f) e)
    0 (by show 0 < 3; omega) S1024x1024 (aWq m c) rfl rfl 0 (by rfl) (ix2 f e)
    (fun b hb => by match b with | ⟨0, _⟩ => exact absurd rfl hb | ⟨1, _⟩ => rfl)
    (by show 0 + f.val = 1024 * 0 + f.val; omega)

/-- Entry (e, 1024 + f) of the fused weight is entry (f, e) of the key weight. -/
theorem fusedW_k (c : Dev nD) (e f : Fin 1024) : (V1 m ρ c main_v3 : S1024x3072.Idx → EReal) (ix2 e (third 1 f)) = aWk m c (ix2 f e) := by
  rw [fusedW_term]
  refine (truncf_apply (φ := FTy.f32) (ψ := FTy.bf16) _ bitsLt_bf16_f32 _).trans ?_
  rw [transpose_apply [1, 0] _ transposes_S3072x1024_S1024x3072_1_0 (ix2 e (third 1 f)) (ix2 (third 1 f) e)
    (fun b => by match b with | ⟨0, _⟩ => rfl | ⟨1, _⟩ => rfl)]
  exact concatenate_apply_piece (t := S3072x1024) (0 : Fin 2) [⟨S1024x1024, aWq m c⟩, ⟨S1024x1024, aWk m c⟩, ⟨S1024x1024, aWv m c⟩] concatenates_S1024x1024_S1024x1024_S1024x1024_S3072x1024_d0 (ix2 (third 1 f) e)
    1 (by show 1 < 3; omega) S1024x1024 (aWk m c) rfl rfl 1024 (by rfl) (ix2 f e)
    (fun b hb => by match b with | ⟨0, _⟩ => exact absurd rfl hb | ⟨1, _⟩ => rfl)
    (by show 1024 + f.val = 1024 * 1 + f.val; omega)

/-- Entry (e, 2048 + f) of the fused weight is entry (f, e) of the value weight. -/
theorem fusedW_v (c : Dev nD) (e f : Fin 1024) : (V1 m ρ c main_v3 : S1024x3072.Idx → EReal) (ix2 e (third 2 f)) = aWv m c (ix2 f e) := by
  rw [fusedW_term]
  refine (truncf_apply (φ := FTy.f32) (ψ := FTy.bf16) _ bitsLt_bf16_f32 _).trans ?_
  rw [transpose_apply [1, 0] _ transposes_S3072x1024_S1024x3072_1_0 (ix2 e (third 2 f)) (ix2 (third 2 f) e)
    (fun b => by match b with | ⟨0, _⟩ => rfl | ⟨1, _⟩ => rfl)]
  exact concatenate_apply_piece (t := S3072x1024) (0 : Fin 2) [⟨S1024x1024, aWq m c⟩, ⟨S1024x1024, aWk m c⟩, ⟨S1024x1024, aWv m c⟩] concatenates_S1024x1024_S1024x1024_S1024x1024_S3072x1024_d0 (ix2 (third 2 f) e)
    2 (by show 2 < 3; omega) S1024x1024 (aWv m c) rfl rfl 2048 (by rfl) (ix2 f e)
    (fun b hb => by match b with | ⟨0, _⟩ => exact absurd rfl hb | ⟨1, _⟩ => rfl)
    (by show 2048 + f.val = 1024 * 2 + f.val; omega)

/-- Entry (0, 0 + f) of the fused bias is entry f of the query bias. -/
theorem fusedB_q (c : Dev nD) (f : Fin 1024) : (V1 m ρ c main_v6 : S1x3072.Idx → EReal) (ix2 0 (third 0 f)) = aBq m c (ix1 f) := by
  rw [fusedB_term]
  rw [shapeCast_apply _ shapeCasts_S3072_S1x3072 (ix2 0 (third 0 f)) (ix1 (third 0 f))
    (by rw [Shape.rowMajor_val_one, Shape.rowMajor_val_two]; show (third 0 f).val = 0 * 3072 + (third 0 f).val; omega)]
  exact concatenate_apply_piece (t := S3072) (0 : Fin 1) [⟨S1024, aBq m c⟩, ⟨S1024, aBk m c⟩, ⟨S1024, aBv m c⟩] concatenates_S1024_S1024_S1024_S3072_d0 (ix1 (third 0 f))
    0 (by show 0 < 3; omega) S1024 (aBq m c) rfl rfl 0 (by rfl) (ix1 f)
    (fun b hb => by match b with | ⟨0, _⟩ => exact absurd rfl hb)
    (by show 0 + f.val = 1024 * 0 + f.val; omega)

/-- Entry (0, 1024 + f) of the fused bias is entry f of the key bias. -/
theorem fusedB_k (c : Dev nD) (f : Fin 1024) : (V1 m ρ c main_v6 : S1x3072.Idx → EReal) (ix2 0 (third 1 f)) = aBk m c (ix1 f) := by
  rw [fusedB_term]
  rw [shapeCast_apply _ shapeCasts_S3072_S1x3072 (ix2 0 (third 1 f)) (ix1 (third 1 f))
    (by rw [Shape.rowMajor_val_one, Shape.rowMajor_val_two]; show (third 1 f).val = 0 * 3072 + (third 1 f).val; omega)]
  exact concatenate_apply_piece (t := S3072) (0 : Fin 1) [⟨S1024, aBq m c⟩, ⟨S1024, aBk m c⟩, ⟨S1024, aBv m c⟩] concatenates_S1024_S1024_S1024_S3072_d0 (ix1 (third 1 f))
    1 (by show 1 < 3; omega) S1024 (aBk m c) rfl rfl 1024 (by rfl) (ix1 f)
    (fun b hb => by match b with | ⟨0, _⟩ => exact absurd rfl hb)
    (by show 1024 + f.val = 1024 * 1 + f.val; omega)

/-- Entry (0, 2048 + f) of the fused bias is entry f of the value bias. -/
theorem fusedB_v (c : Dev nD) (f : Fin 1024) : (V1 m ρ c main_v6 : S1x3072.Idx → EReal) (ix2 0 (third 2 f)) = aBv m c (ix1 f) := by
  rw [fusedB_term]
  rw [shapeCast_apply _ shapeCasts_S3072_S1x3072 (ix2 0 (third 2 f)) (ix1 (third 2 f))
    (by rw [Shape.rowMajor_val_one, Shape.rowMajor_val_two]; show (third 2 f).val = 0 * 3072 + (third 2 f).val; omega)]
  exact concatenate_apply_piece (t := S3072) (0 : Fin 1) [⟨S1024, aBq m c⟩, ⟨S1024, aBk m c⟩, ⟨S1024, aBv m c⟩] concatenates_S1024_S1024_S1024_S3072_d0 (ix1 (third 2 f))
    2 (by show 2 < 3; omega) S1024 (aBv m c) rfl rfl 2048 (by rfl) (ix1 f)
    (fun b hb => by match b with | ⟨0, _⟩ => exact absurd rfl hb)
    (by show 2048 + f.val = 1024 * 2 + f.val; omega)

/-- Entry (f, e) of the transposed output weight is entry (e, f) of the output weight. -/
theorem outW_at (c : Dev nD) (f e : Fin 1024) : (V1 m ρ c main_v5 : S1024x1024.Idx → EReal) (ix2 f e) = aWo m c (ix2 e f) := by
  rw [outW_term]
  refine (truncf_apply (φ := FTy.f32) (ψ := FTy.bf16) _ bitsLt_bf16_f32 _).trans ?_
  exact transpose_apply [1, 0] _ transposes_S1024x1024_S1024x1024_1_0 (ix2 f e) (ix2 e f)
    (fun b => by match b with | ⟨0, _⟩ => rfl | ⟨1, _⟩ => rfl)

/-- The activations are as launched when the first call is entered. -/
theorem x_entry (c : Dev nD) : (V1 m ρ c main_arg0 : S2x2048x1024.Idx → EReal) = aX m c :=
  StableHlo.after_of_writes_sub hostOps0 _ hostOps0_writes (by decide)

/-- The reshaped output bias, when the last call is entered: entry (0, e) is entry e of the output bias. -/
theorem outB_at (c : Dev nD) (e : Fin 1024) : (V4 m ρ c main_v9 : S1x1024.Idx → EReal) (ix2 0 e) = aBo m c (ix1 e) := by
  have h8 : W3 m ρ c (Proc.devRef .tc main_arg8) = m ((c : Thread nD τ).loc main_arg8) :=
    calc W3 m ρ c (Proc.devRef .tc main_arg8)
      _ = W2 m ρ c (Proc.devRef .tc main_arg8) := W3_of_ne m ρ c main_arg8 (by decide)
      _ = W1 m ρ c (Proc.devRef .tc main_arg8) := W2_of_ne m ρ c main_arg8 (by decide)
      _ = W0 m ρ c (Proc.devRef .tc main_arg8) := StableHlo.after_of_writes_sub hostOps0 _ hostOps0_writes (by decide)
      _ = m ((c : Thread nD τ).loc main_arg8) := rfl
  have e9 : (V4 m ρ c main_v9 : S1x1024.Idx → EReal) = shapeCast S1x1024 (W3 m ρ c (Proc.devRef .tc main_arg8) : S1024.Idx → EReal) shapeCasts_S1024_S1x1024 := by
    show StableHlo.after hostOps2 (W3 m ρ c) (Proc.devRef .tc main_v9) = _
    after_results_lit
    all_goals rfl
  rw [e9, h8]
  exact shapeCast_apply _ shapeCasts_S1024_S1x1024 (ix2 0 e) (ix1 e)
    (by rw [Shape.rowMajor_val_one, Shape.rowMajor_val_two]; show e.val = 0 * 1024 + e.val; omega)

/-! ## Buffers a later call finds as an earlier item left them -/

/-- The transposed output weight is untouched between the host operations that make it and the last call. -/
theorem outW_carried (c : Dev nD) : (V4 m ρ c main_v5 : S1024x1024.Idx → EReal) = V1 m ρ c main_v5 :=
  calc W4 m ρ c (Proc.devRef .tc main_v5)
    _ = W3 m ρ c (Proc.devRef .tc main_v5) := StableHlo.after_of_writes_sub hostOps2 _ hostOps2_writes (by decide)
    _ = W2 m ρ c (Proc.devRef .tc main_v5) := W3_of_ne m ρ c main_v5 (by decide)
    _ = W1 m ρ c (Proc.devRef .tc main_v5) := W2_of_ne m ρ c main_v5 (by decide)

/-- The context array is untouched by the host operation between the attention call and the last call. -/
theorem ctx_carried (c : Dev nD) : (V4 m ρ c main_v8_1 : S2x16x2048x64.Idx → EReal) = V3 m ρ c main_v8_1 :=
  StableHlo.after_of_writes_sub hostOps2 _ hostOps2_writes (by decide)

/-- The attention weights are untouched after the attention call. -/
theorem attn_carried (c : Dev nD) : (V5 m ρ c main_v8_0 : S2x16x2048x2048.Idx → EReal) = V3 m ρ c main_v8_0 :=
  (W5_of_ne m ρ c main_v8_0 (by decide)).trans (StableHlo.after_of_writes_sub hostOps2 _ hostOps2_writes (by decide))

end Cert.KernelIdeal.Arrays

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.ProjAtIndex.lean ====
/-
  The payloads of the two projection calls read at an index, on the extended reals.

  The fused projection forms, for a tile of 512 rows of x, the [512, 3072] array  x W + b  (W : [1024, 3072], the bias one
  row broadcast over the 512 rows), entry (r, c) being (Σ_e x(0, r, e) · W(e, c)) + b(0, c). Its three outputs are the
  three blocks of 1024 columns, each laid out head by head: column 64·h + d of block j goes to (0, h, r, d), so output j
  at (0, h, r, d) is the array's entry (r, 1024·j + 64·h + d).

  The output projection lays the 16 heads of its [1, 16, 512, 64] argument side by side, feature f = 64·h + d of row r
  being c(0, h, r, d), and forms (Σ_f c(0, f / 64, r, f % 64) · W(f, e)) + b(0, e) at (0, r, e).

  A narrowing of the element type is the identity on the extended reals, a product into the zero accumulator is the plain
  sum over the contracted axis, and reshapes, transposes and slices only move indices: a reshape keeps the row-major
  position, a transpose permutes the coordinates, a slice adds its offset.
-/
import proofs.«177007_j31035433681291_2_alg».proof.Proof.Gen.KernelIdeal.Skeleton
import proofs.«177007_j31035433681291_2_alg».proof.Proof.Spec
import proofs.«177007_j31035433681291_2_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AtIndex

open Cert.KernelIdeal Cert.KernelIdeal.Gen Cert.Mha Idealize.ShloMosaic Idealize.ShloMosaic.ValueIdx

/-! ## The two records of dimension numbers: which operand coordinates an output index names -/

/-- The fused projection's product: the left operand's row is the output's row. -/
theorem qkv_lhs0 (i : S512x3072.Idx) (q : dot_S512x1024_S1024x3072_S512x3072_1_0_0_1_n_n.contr.Idx) :
    (dot_S512x1024_S1024x3072_S512x3072_1_0_0_1_n_n.lhsIdx i q 0).val = (i 0).val := by
  simp [DotDims.lhsIdx, dot_S512x1024_S1024x3072_S512x3072_1_0_0_1_n_n]; rfl
/-- … and the right operand's column is the output's column. -/
theorem qkv_rhs1 (i : S512x3072.Idx) (q : dot_S512x1024_S1024x3072_S512x3072_1_0_0_1_n_n.contr.Idx) :
    (dot_S512x1024_S1024x3072_S512x3072_1_0_0_1_n_n.rhsIdx i q 1).val = (i 1).val := by
  simp [DotDims.rhsIdx, dot_S512x1024_S1024x3072_S512x3072_1_0_0_1_n_n]; rfl
/-- The output projection's product: the same two facts. -/
theorem out_lhs0 (i : S512x1024.Idx) (q : dot_S512x1024_S1024x1024_S512x1024_1_0_0_1_n_n.contr.Idx) :
    (dot_S512x1024_S1024x1024_S512x1024_1_0_0_1_n_n.lhsIdx i q 0).val = (i 0).val := by
  simp [DotDims.lhsIdx, dot_S512x1024_S1024x1024_S512x1024_1_0_0_1_n_n]; rfl
theorem out_rhs1 (i : S512x1024.Idx) (q : dot_S512x1024_S1024x1024_S512x1024_1_0_0_1_n_n.contr.Idx) :
    (dot_S512x1024_S1024x1024_S512x1024_1_0_0_1_n_n.rhsIdx i q 1).val = (i 1).val := by
  simp [DotDims.rhsIdx, dot_S512x1024_S1024x1024_S512x1024_1_0_0_1_n_n]; rfl

/-! ## The fused projection before it is cut in three -/

/-- Entry (r, c) of x W + b. -/
theorem qkv_rows (x : Vec Ideal S1x512x1024 .f32) (w : Vec Ideal S1024x3072 .bf16) (b : Vec Ideal S1x3072 .f32)
    (r : Fin 512) (col : Fin 3072) :
    k0_pay1 x w b (ix2 r col) = (∑ e : Fin 1024, x (ix3 0 r e) * w (ix2 e col)) + b (ix2 0 col) := by
  unfold k0_pay1
  refine (addf_apply _ _ _).trans ?_
  refine congrArg₂ (· + ·) ?_ ?_
  · refine MatmulRows.matmul_zero_rows dot_S512x1024_S1024x3072_S512x3072_1_0_0_1_n_n none rfl rfl rfl rfl
      qkv_lhs0 qkv_rhs1 _ _ (ix2 r col) (fun e => x (ix3 0 r e)) (fun e => w (ix2 e col)) (fun k => ?_) (fun k => ?_)
    · exact (truncf_apply (φ := FTy.f32) (ψ := FTy.bf16) _ _ _).trans (shapeCast_1ab_ab_apply x _ r k)
    · exact congrFun (shapeCast_self w _) _
  · refine (broadcastTo_1b_ab_apply _ _ r col).trans ?_
    exact congrFun (shapeCast_self b _) _

/-! ## One block of columns laid out head by head -/

theorem third_val (j : Fin 3) (f : Fin 1024) : (third j f).val = 1024 * j.val + f.val := rfl
theorem feat_val (h : Fin 16) (d : Fin 64) : (feat h d).val = h.val * 64 + d.val := rfl

/-- A [512, 3072] array cut to the 1024 columns from `o`, each row split into 16 heads of 64 lanes, the head axis moved in
    front of the rows and a unit axis put in front of that, reads at (0, h, r, d) the array's entry (r, o + 64·h + d). -/
theorem part_at {α : Type} (X : S512x3072.Idx → α) (o : Nat) (hs : S512x3072.Slices ![0, o] S512x1024)
    (c2 : S512x1024.ShapeCasts S512x16x64) (tr : S512x16x64.Transposes [1, 0, 2] S16x512x64)
    (c3 : S16x512x64.ShapeCasts S1x16x512x64) (h : Fin 16) (r : Fin 512) (d : Fin 64) (k : Fin 3072)
    (hk : k.val = o + (feat h d).val) :
    shapeCast S1x16x512x64
        (transpose S16x512x64 [1, 0, 2] (shapeCast S512x16x64 (extractStridedSlice S512x1024 ![0, o] X hs) c2) tr) c3
        (ix4 0 h r d)
      = X (ix2 r k) := by
  refine (shapeCast_abc_1abc_apply _ c3 0 h r d).trans ?_
  refine (transpose_apply [1, 0, 2] _ tr (ix3 h r d) (ix3 r h d)
    fun c => match c with | ⟨0, _⟩ => rfl | ⟨1, _⟩ => rfl | ⟨2, _⟩ => rfl).trans ?_
  refine (shapeCast_apply _ c2 (ix3 r h d) (ix2 r (feat h d)) ?_).trans ?_
  · rw [Shape.rowMajor_val_two, Shape.rowMajor_val_three]
    show r.val * 1024 + (feat h d).val = (r.val * 16 + h.val) * 64 + d.val
    rw [feat_val]
    omega
  · exact slice2_axis1_apply o X hs r (feat h d) k hk

/-- The first output of the fused projection: the columns of part 0. -/
theorem qkv_part0 (x : Vec Ideal S1x512x1024 .f32) (w : Vec Ideal S1024x3072 .bf16) (b : Vec Ideal S1x3072 .f32)
    (h : Fin 16) (r : Fin 512) (d : Fin 64) :
    k0_pay2 x w b (ix4 0 h r d)
      = (∑ e : Fin 1024, x (ix3 0 r e) * w (ix2 e (third 0 (feat h d)))) + b (ix2 0 (third 0 (feat h d))) := by
  unfold k0_pay2
  exact (part_at _ 0 _ _ _ _ h r d (third 0 (feat h d)) rfl).trans (qkv_rows x w b r _)

/-- The second output: the columns of part 1. -/
theorem qkv_part1 (x : Vec Ideal S1x512x1024 .f32) (w : Vec Ideal S1024x3072 .bf16) (b : Vec Ideal S1x3072 .f32)
    (h : Fin 16) (r : Fin 512) (d : Fin 64) :
    k0_pay3 x w b (ix4 0 h r d)
      = (∑ e : Fin 1024, x (ix3 0 r e) * w (ix2 e (third 1 (feat h d)))) + b (ix2 0 (third 1 (feat h d))) := by
  unfold k0_pay3
  exact (part_at _ 1024 _ _ _ _ h r d (third 1 (feat h d)) rfl).trans (qkv_rows x w b r _)

/-- The third output: the columns of part 2. -/
theorem qkv_part2 (x : Vec Ideal S1x512x1024 .f32) (w : Vec Ideal S1024x3072 .bf16) (b : Vec Ideal S1x3072 .f32)
    (h : Fin 16) (r : Fin 512) (d : Fin 64) :
    k0_pay4 x w b (ix4 0 h r d)
      = (∑ e : Fin 1024, x (ix3 0 r e) * w (ix2 e (third 2 (feat h d)))) + b (ix2 0 (third 2 (feat h d))) := by
  unfold k0_pay4
  exact (part_at _ 2048 _ _ _ _ h r d (third 2 (feat h d)) rfl).trans (qkv_rows x w b r _)

/-! ## The output projection -/

/-- The heads laid side by side: the [1, 16, 512, 64] array with the unit axis dropped, the rows moved in front of the heads
    and each row's 16 × 64 entries run together reads, at (r, f), the array at (0, f / 64, r, f % 64). -/
theorem heads_at {α : Type} (c : S1x16x512x64.Idx → α) (c1 : S1x16x512x64.ShapeCasts S16x512x64)
    (tr : S16x512x64.Transposes [1, 0, 2] S512x16x64) (c2 : S512x16x64.ShapeCasts S512x1024) (r : Fin 512) (f : Fin 1024) :
    shapeCast S512x1024 (transpose S512x16x64 [1, 0, 2] (shapeCast S16x512x64 c c1) tr) c2 (ix2 r f)
      = c (ix4 0 (headOf f) r (laneOf f)) := by
  refine (shapeCast_apply _ c2 (ix2 r f) (ix3 r (headOf f) (laneOf f)) ?_).trans ?_
  · rw [Shape.rowMajor_val_two, Shape.rowMajor_val_three]
    show (r.val * 16 + (headOf f).val) * 64 + (laneOf f).val = r.val * 1024 + f.val
    show (r.val * 16 + f.val / 64) * 64 + f.val % 64 = r.val * 1024 + f.val
    omega
  refine (transpose_apply [1, 0, 2] _ tr (ix3 r (headOf f) (laneOf f)) (ix3 (headOf f) r (laneOf f))
    fun c => match c with | ⟨0, _⟩ => rfl | ⟨1, _⟩ => rfl | ⟨2, _⟩ => rfl).trans ?_
  exact shapeCast_1abc_abc_apply c c1 (headOf f) r (laneOf f)

/-- Entry (0, r, e) of the output projection. -/
theorem out_rows (c : Vec Ideal S1x16x512x64 .f32) (w : Vec Ideal S1024x1024 .bf16) (b : Vec Ideal S1x1024 .f32)
    (r : Fin 512) (e : Fin 1024) :
    k2_pay1 c w b (ix3 0 r e)
      = (∑ f : Fin 1024, c (ix4 0 (headOf f) r (laneOf f)) * w (ix2 f e)) + b (ix2 0 e) := by
  unfold k2_pay1
  refine (shapeCast_ab_1ab_apply _ _ 0 r e).trans ?_
  refine (addf_apply _ _ _).trans ?_
  refine congrArg₂ (· + ·) ?_ ?_
  · refine MatmulRows.matmul_zero_rows dot_S512x1024_S1024x1024_S512x1024_1_0_0_1_n_n none rfl rfl rfl rfl
      out_lhs0 out_rhs1 _ _ (ix2 r e) (fun f => c (ix4 0 (headOf f) r (laneOf f))) (fun f => w (ix2 f e))
      (fun k => ?_) (fun k => ?_)
    · exact (truncf_apply (φ := FTy.f32) (ψ := FTy.bf16) _ _ _).trans (heads_at c _ _ _ r k)
    · exact congrFun (shapeCast_self w _) _
  · refine (broadcastTo_1b_ab_apply _ _ r e).trans ?_
    exact congrFun (shapeCast_self b _) _

end Cert.KernelIdeal.AtIndex

end
-- ==== Proof.QkvArrays.lean ====
/-
  From blocks to arrays, for the first call: after it, each of its three output arrays holds one projection.

  Grid point t = (n, s) reads rows 512·s … 512·s + 511 of batch n of the activations and the whole fused weight and bias,
  and writes back, to each of the three [2, 16, 2048, 64] arrays, the [1, 16, 512, 64] block at block index (n, 0, s, 0).
  Entry (0, h, r, d) of the block written to array J is entry (r, 1024·J + 64·h + d) of (rows · fused weight + fused bias),
  and column 1024·J + f of the fused weight is row f of weight J, entry 1024·J + f of the fused bias entry f of bias J: so
  the entry is the projection J of the arguments at (n, h, 512·s + r, d), which is where the block puts it in the array.
  The eight blocks (n, s) tile each array: row i lies in the block of s = i / 512.
-/
import proofs.«177007_j31035433681291_2_alg».proof.Proof.HostGlue
import proofs.«177007_j31035433681291_2_alg».proof.Proof.ProjAtIndex

set_option maxRecDepth 16384

noncomputable section

namespace Cert.KernelIdeal.Arrays

open Cert.KernelIdeal Cert.KernelIdeal.Gen Cert.KernelIdeal.Pipe Cert.KernelIdeal.AtIndex Cert.Mha Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The zero offsets of the whole-buffer rectangles, as constant functions. -/
theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl

/-- The block indices at a grid point, decided over the grid: the activations' block follows the outputs' batch and row
    tile, the fused weight and bias are one block each, the outputs' blocks are (n, 0, s, 0) with n ≤ 1 and s ≤ 3, and
    the three outputs share their block indices. -/
theorem blockIdx0 : ∀ t : Fin cfg0.N,
    win0_0.index t (0 : Fin 3) = win0_3.index t (0 : Fin 4)
    ∧ win0_0.index t (1 : Fin 3) = win0_3.index t (2 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) ≤ 1 ∧ win0_3.index t (1 : Fin 4) = 0
    ∧ win0_3.index t (2 : Fin 4) ≤ 3 ∧ win0_3.index t (3 : Fin 4) = 0
    ∧ win0_4.index t (0 : Fin 4) = win0_3.index t (0 : Fin 4) ∧ win0_4.index t (1 : Fin 4) = win0_3.index t (1 : Fin 4)
    ∧ win0_4.index t (2 : Fin 4) = win0_3.index t (2 : Fin 4) ∧ win0_4.index t (3 : Fin 4) = win0_3.index t (3 : Fin 4)
    ∧ win0_5.index t (0 : Fin 4) = win0_3.index t (0 : Fin 4) ∧ win0_5.index t (1 : Fin 4) = win0_3.index t (1 : Fin 4)
    ∧ win0_5.index t (2 : Fin 4) = win0_3.index t (2 : Fin 4) ∧ win0_5.index t (3 : Fin 4) = win0_3.index t (3 : Fin 4) :=
  (by decide +kernel : ∀ t : Fin grid0.N, _)

/-- Every block (n, 0, s, 0) is some point's. -/
theorem blockOnto0 : ∀ (q0 : Fin 2) (q2 : Fin 4), ∃ t : Fin cfg0.N, win0_3.index t = ![q0.val, 0, q2.val, 0] :=
  (by decide +kernel : ∀ (q0 : Fin 2) (q2 : Fin 4), ∃ t : Fin grid0.N, win0_3.index t = ![q0.val, 0, q2.val, 0])

/-- The query third of the fused projection at an entry of a block whose rows are rows of batch n of the activations
    and whose weight and bias blocks are the whole fused arrays: the query projection at that batch, head, row and lane. -/
theorem part_q (c : Dev nD) (x : Vec Ideal S1x512x1024 .f32) (w : Vec Ideal S1024x3072 .bf16) (b : Vec Ideal S1x3072 .f32)
    (n : Fin 2) (s : Fin 2048) (h : Fin 16) (r : Fin 512) (d : Fin 64)
    (hx : ∀ e : Fin 1024, x (ix3 0 r e) = aX m c (ix3 n s e))
    (hw : ∀ (e : Fin 1024) (col : Fin 3072), w (ix2 e col) = (V1 m ρ c main_v3 : S1024x3072.Idx → EReal) (ix2 e col))
    (hb : ∀ col : Fin 3072, b (ix2 0 col) = (V1 m ρ c main_v6 : S1x3072.Idx → EReal) (ix2 0 col)) :
    k0_pay2 x w b (ix4 0 h r d) = proj (aX m c) (aWq m c) (aBq m c) n h s d := by
  refine (qkv_part0 x w b h r d).trans ?_
  unfold proj
  refine congrArg₂ (· + ·) (Finset.sum_congr rfl fun e _ => ?_) ?_
  · rw [hx, hw, fusedW_q]
  · rw [hb, fusedB_q]

/-- What grid point t writes back to the query array is block t of the query projection. -/
theorem q_flushed (c : Dev nD) (t : Fin cfg0.N) :
    (dat0 (V1 m ρ) c).flushed 3 t
      = ((cfg0.win 3).blk t).view.read (Elt Ideal) (fun i : S2x16x2048x64.Idx => proj (aX m c) (aWq m c) (aBq m c) (i 0) (i 1) (i 2) (i 3)) := by
  show (cfg0.win 3).cut (grid0.coords t) ((dat0 (V1 m ρ) c).after 3 t) = _
  rw [dat0_after3]
  unfold left0_3
  rw [View.canon_unit_zero zeros4]
  simp only [View.ld_unit_zero (S := S1x512x1024) zeros3, View.ld_unit_zero (S := S1024x3072) zeros2, View.ld_unit_zero (S := S1x3072) zeros2]
  obtain ⟨x0, x1, x2, w0, w1, b0, b1, o0, o1, o2, o3, k0, k1, k2, k3, v0, v1, v2, v3⟩ := blockIdx0 t
  funext y
  obtain ⟨u, h, r, d, rfl⟩ : ∃ (u : Fin 1) (h : Fin 16) (r : Fin 512) (d : Fin 64), y = ix4 u h r d := ⟨y 0, y 1, y 2, y 3, eq_ix4 y⟩
  obtain rfl : u = 0 := Subsingleton.elim _ _
  have hh := h.isLt; have hr := r.isLt; have hd := d.isLt
  have j1 : ((cfg0.win 3).blk t).view.emb (ix4 0 h r d) 1 = h :=
    Fin.ext (by show win0_3.index t (1 : Fin 4) * 16 + 1 * h.val = h.val; omega)
  have j3 : ((cfg0.win 3).blk t).view.emb (ix4 0 h r d) 3 = d :=
    Fin.ext (by show win0_3.index t (3 : Fin 4) * 64 + 1 * d.val = d.val; omega)
  show k0_pay2 (blk0 (V1 m ρ) c 0 t) (blk0 (V1 m ρ) c 1 t) (blk0 (V1 m ρ) c 2 t) (ix4 0 h r d)
    = proj (aX m c) (aWq m c) (aBq m c) (((cfg0.win 3).blk t).view.emb (ix4 0 h r d) 0) (((cfg0.win 3).blk t).view.emb (ix4 0 h r d) 1)
        (((cfg0.win 3).blk t).view.emb (ix4 0 h r d) 2) (((cfg0.win 3).blk t).view.emb (ix4 0 h r d) 3)
  rw [j1, j3]
  refine part_q m ρ c (blk0 (V1 m ρ) c 0 t) (blk0 (V1 m ρ) c 1 t) (blk0 (V1 m ρ) c 2 t) _ _ h r d (fun e => ?_) (fun e col => ?_) (fun col => ?_)
  · show (V1 m ρ c main_arg0 : S2x2048x1024.Idx → EReal) (((cfg0.win 0).blk t).view.emb (ix3 0 r e)) = aX m c (ix3 _ _ e)
    refine (congrFun (x_entry m ρ c) _).trans (congrArg (aX m c) ?_)
    funext a; apply Fin.ext
    match a with
    | ⟨0, _⟩ => show win0_0.index t (0 : Fin 3) * 1 + 1 * 0 = win0_3.index t (0 : Fin 4) * 1 + 1 * 0; omega
    | ⟨1, _⟩ => show win0_0.index t (1 : Fin 3) * 512 + 1 * r.val = win0_3.index t (2 : Fin 4) * 512 + 1 * r.val; omega
    | ⟨2, _⟩ => show win0_0.index t (2 : Fin 3) * 1024 + 1 * e.val = e.val; omega
  · show (V1 m ρ c main_v3 : S1024x3072.Idx → EReal) (((cfg0.win 1).blk t).view.emb (ix2 e col)) = (V1 m ρ c main_v3 : S1024x3072.Idx → EReal) (ix2 e col)
    refine congrArg (V1 m ρ c main_v3 : S1024x3072.Idx → EReal) ?_
    funext a; apply Fin.ext
    match a with
    | ⟨0, _⟩ => show win0_1.index t (0 : Fin 2) * 1024 + 1 * e.val = e.val; omega
    | ⟨1, _⟩ => show win0_1.index t (1 : Fin 2) * 3072 + 1 * col.val = col.val; omega
  · show (V1 m ρ c main_v6 : S1x3072.Idx → EReal) (((cfg0.win 2).blk t).view.emb (ix2 0 col)) = (V1 m ρ c main_v6 : S1x3072.Idx → EReal) (ix2 0 col)
    refine congrArg (V1 m ρ c main_v6 : S1x3072.Idx → EReal) ?_
    funext a; apply Fin.ext
    match a with
    | ⟨0, _⟩ => show win0_2.index t (0 : Fin 2) * 1 + 1 * 0 = 0; omega
    | ⟨1, _⟩ => show win0_2.index t (1 : Fin 2) * 3072 + 1 * col.val = col.val; omega

/-- An index of the query array is in point t's block iff each coordinate is in the block's range on its axis. -/
theorem mem_q_block (t : Fin cfg0.N) (i : S2x16x2048x64.Idx) :
    i ∈ ((cfg0.win 3).blk t).view.set ↔ ∀ a : Fin 4, win0_3.index t a * S1x16x512x64.size a ≤ (i a).val ∧ (i a).val < win0_3.index t a * S1x16x512x64.size a + S1x16x512x64.size a := by
  show i ∈ ((View.whole main_v7_0).slice (win0_3.rect t)).set ↔ _
  rw [View.set_slice_whole, Rect.mem_set_unit]
  exact Iff.rfl

/-- Every index of the query array is in the block of the point (batch, row / 512). -/
theorem q_cover (i : S2x16x2048x64.Idx) : ∃ t : Fin cfg0.N, (cfg0.win 3).flush t = true ∧ i ∈ ((cfg0.win 3).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, ht⟩ := blockOnto0 ⟨(i 0).val, h0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  obtain ⟨x0, x1, x2, w0, w1, b0, b1, o0, o1, o2, o3, k0, k1, k2, k3, v0, v1, v2, v3⟩ := blockIdx0 t
  refine ⟨t, flush0_3 t, ?_⟩
  rw [mem_q_block]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- After the first call the query array holds the query projection of the arguments, head by head. -/
theorem q_final (c : Dev nD) : (V2 m ρ c main_v7_0 : S2x16x2048x64.Idx → EReal)
    = fun i => proj (aX m c) (aWq m c) (aBq m c) (i 0) (i 1) (i 2) (i 3) :=
  (W2_arr m ρ c 3).trans ((dat0 (V1 m ρ) c).arrAt_eq_of_cover 3 _ (fun t _ => q_flushed m ρ c t) q_cover)

/-- The key third of the fused projection at an entry of a block whose rows are rows of batch n of the activations
    and whose weight and bias blocks are the whole fused arrays: the key projection at that batch, head, row and lane. -/
theorem part_k (c : Dev nD) (x : Vec Ideal S1x512x1024 .f32) (w : Vec Ideal S1024x3072 .bf16) (b : Vec Ideal S1x3072 .f32)
    (n : Fin 2) (s : Fin 2048) (h : Fin 16) (r : Fin 512) (d : Fin 64)
    (hx : ∀ e : Fin 1024, x (ix3 0 r e) = aX m c (ix3 n s e))
    (hw : ∀ (e : Fin 1024) (col : Fin 3072), w (ix2 e col) = (V1 m ρ c main_v3 : S1024x3072.Idx → EReal) (ix2 e col))
    (hb : ∀ col : Fin 3072, b (ix2 0 col) = (V1 m ρ c main_v6 : S1x3072.Idx → EReal) (ix2 0 col)) :
    k0_pay3 x w b (ix4 0 h r d) = proj (aX m c) (aWk m c) (aBk m c) n h s d := by
  refine (qkv_part1 x w b h r d).trans ?_
  unfold proj
  refine congrArg₂ (· + ·) (Finset.sum_congr rfl fun e _ => ?_) ?_
  · rw [hx, hw, fusedW_k]
  · rw [hb, fusedB_k]

/-- What grid point t writes back to the key array is block t of the key projection. -/
theorem k_flushed (c : Dev nD) (t : Fin cfg0.N) :
    (dat0 (V1 m ρ) c).flushed 4 t
      = ((cfg0.win 4).blk t).view.read (Elt Ideal) (fun i : S2x16x2048x64.Idx => proj (aX m c) (aWk m c) (aBk m c) (i 0) (i 1) (i 2) (i 3)) := by
  show (cfg0.win 4).cut (grid0.coords t) ((dat0 (V1 m ρ) c).after 4 t) = _
  rw [dat0_after4]
  unfold left0_4
  rw [View.canon_unit_zero zeros4]
  simp only [View.ld_unit_zero (S := S1x512x1024) zeros3, View.ld_unit_zero (S := S1024x3072) zeros2, View.ld_unit_zero (S := S1x3072) zeros2]
  obtain ⟨x0, x1, x2, w0, w1, b0, b1, o0, o1, o2, o3, k0, k1, k2, k3, v0, v1, v2, v3⟩ := blockIdx0 t
  funext y
  obtain ⟨u, h, r, d, rfl⟩ : ∃ (u : Fin 1) (h : Fin 16) (r : Fin 512) (d : Fin 64), y = ix4 u h r d := ⟨y 0, y 1, y 2, y 3, eq_ix4 y⟩
  obtain rfl : u = 0 := Subsingleton.elim _ _
  have hh := h.isLt; have hr := r.isLt; have hd := d.isLt
  have j1 : ((cfg0.win 4).blk t).view.emb (ix4 0 h r d) 1 = h :=
    Fin.ext (by show win0_4.index t (1 : Fin 4) * 16 + 1 * h.val = h.val; omega)
  have j3 : ((cfg0.win 4).blk t).view.emb (ix4 0 h r d) 3 = d :=
    Fin.ext (by show win0_4.index t (3 : Fin 4) * 64 + 1 * d.val = d.val; omega)
  show k0_pay3 (blk0 (V1 m ρ) c 0 t) (blk0 (V1 m ρ) c 1 t) (blk0 (V1 m ρ) c 2 t) (ix4 0 h r d)
    = proj (aX m c) (aWk m c) (aBk m c) (((cfg0.win 4).blk t).view.emb (ix4 0 h r d) 0) (((cfg0.win 4).blk t).view.emb (ix4 0 h r d) 1)
        (((cfg0.win 4).blk t).view.emb (ix4 0 h r d) 2) (((cfg0.win 4).blk t).view.emb (ix4 0 h r d) 3)
  rw [j1, j3]
  refine part_k m ρ c (blk0 (V1 m ρ) c 0 t) (blk0 (V1 m ρ) c 1 t) (blk0 (V1 m ρ) c 2 t) _ _ h r d (fun e => ?_) (fun e col => ?_) (fun col => ?_)
  · show (V1 m ρ c main_arg0 : S2x2048x1024.Idx → EReal) (((cfg0.win 0).blk t).view.emb (ix3 0 r e)) = aX m c (ix3 _ _ e)
    refine (congrFun (x_entry m ρ c) _).trans (congrArg (aX m c) ?_)
    funext a; apply Fin.ext
    match a with
    | ⟨0, _⟩ => show win0_0.index t (0 : Fin 3) * 1 + 1 * 0 = win0_4.index t (0 : Fin 4) * 1 + 1 * 0; omega
    | ⟨1, _⟩ => show win0_0.index t (1 : Fin 3) * 512 + 1 * r.val = win0_4.index t (2 : Fin 4) * 512 + 1 * r.val; omega
    | ⟨2, _⟩ => show win0_0.index t (2 : Fin 3) * 1024 + 1 * e.val = e.val; omega
  · show (V1 m ρ c main_v3 : S1024x3072.Idx → EReal) (((cfg0.win 1).blk t).view.emb (ix2 e col)) = (V1 m ρ c main_v3 : S1024x3072.Idx → EReal) (ix2 e col)
    refine congrArg (V1 m ρ c main_v3 : S1024x3072.Idx → EReal) ?_
    funext a; apply Fin.ext
    match a with
    | ⟨0, _⟩ => show win0_1.index t (0 : Fin 2) * 1024 + 1 * e.val = e.val; omega
    | ⟨1, _⟩ => show win0_1.index t (1 : Fin 2) * 3072 + 1 * col.val = col.val; omega
  · show (V1 m ρ c main_v6 : S1x3072.Idx → EReal) (((cfg0.win 2).blk t).view.emb (ix2 0 col)) = (V1 m ρ c main_v6 : S1x3072.Idx → EReal) (ix2 0 col)
    refine congrArg (V1 m ρ c main_v6 : S1x3072.Idx → EReal) ?_
    funext a; apply Fin.ext
    match a with
    | ⟨0, _⟩ => show win0_2.index t (0 : Fin 2) * 1 + 1 * 0 = 0; omega
    | ⟨1, _⟩ => show win0_2.index t (1 : Fin 2) * 3072 + 1 * col.val = col.val; omega

/-- An index of the key array is in point t's block iff each coordinate is in the block's range on its axis. -/
theorem mem_k_block (t : Fin cfg0.N) (i : S2x16x2048x64.Idx) :
    i ∈ ((cfg0.win 4).blk t).view.set ↔ ∀ a : Fin 4, win0_4.index t a * S1x16x512x64.size a ≤ (i a).val ∧ (i a).val < win0_4.index t a * S1x16x512x64.size a + S1x16x512x64.size a := by
  show i ∈ ((View.whole main_v7_1).slice (win0_4.rect t)).set ↔ _
  rw [View.set_slice_whole, Rect.mem_set_unit]
  exact Iff.rfl

/-- Every index of the key array is in the block of the point (batch, row / 512). -/
theorem k_cover (i : S2x16x2048x64.Idx) : ∃ t : Fin cfg0.N, (cfg0.win 4).flush t = true ∧ i ∈ ((cfg0.win 4).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, ht⟩ := blockOnto0 ⟨(i 0).val, h0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  obtain ⟨x0, x1, x2, w0, w1, b0, b1, o0, o1, o2, o3, k0, k1, k2, k3, v0, v1, v2, v3⟩ := blockIdx0 t
  refine ⟨t, flush0_4 t, ?_⟩
  rw [mem_k_block]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- After the first call the key array holds the key projection of the arguments, head by head. -/
theorem k_final (c : Dev nD) : (V2 m ρ c main_v7_1 : S2x16x2048x64.Idx → EReal)
    = fun i => proj (aX m c) (aWk m c) (aBk m c) (i 0) (i 1) (i 2) (i 3) :=
  (W2_arr m ρ c 4).trans ((dat0 (V1 m ρ) c).arrAt_eq_of_cover 4 _ (fun t _ => k_flushed m ρ c t) k_cover)

/-- The value third of the fused projection at an entry of a block whose rows are rows of batch n of the activations
    and whose weight and bias blocks are the whole fused arrays: the value projection at that batch, head, row and lane. -/
theorem part_v (c : Dev nD) (x : Vec Ideal S1x512x1024 .f32) (w : Vec Ideal S1024x3072 .bf16) (b : Vec Ideal S1x3072 .f32)
    (n : Fin 2) (s : Fin 2048) (h : Fin 16) (r : Fin 512) (d : Fin 64)
    (hx : ∀ e : Fin 1024, x (ix3 0 r e) = aX m c (ix3 n s e))
    (hw : ∀ (e : Fin 1024) (col : Fin 3072), w (ix2 e col) = (V1 m ρ c main_v3 : S1024x3072.Idx → EReal) (ix2 e col))
    (hb : ∀ col : Fin 3072, b (ix2 0 col) = (V1 m ρ c main_v6 : S1x3072.Idx → EReal) (ix2 0 col)) :
    k0_pay4 x w b (ix4 0 h r d) = proj (aX m c) (aWv m c) (aBv m c) n h s d := by
  refine (qkv_part2 x w b h r d).trans ?_
  unfold proj
  refine congrArg₂ (· + ·) (Finset.sum_congr rfl fun e _ => ?_) ?_
  · rw [hx, hw, fusedW_v]
  · rw [hb, fusedB_v]

/-- What grid point t writes back to the value array is block t of the value projection. -/
theorem v_flushed (c : Dev nD) (t : Fin cfg0.N) :
    (dat0 (V1 m ρ) c).flushed 5 t
      = ((cfg0.win 5).blk t).view.read (Elt Ideal) (fun i : S2x16x2048x64.Idx => proj (aX m c) (aWv m c) (aBv m c) (i 0) (i 1) (i 2) (i 3)) := by
  show (cfg0.win 5).cut (grid0.coords t) ((dat0 (V1 m ρ) c).after 5 t) = _
  rw [dat0_after5]
  unfold left0_5
  rw [View.canon_unit_zero zeros4]
  simp only [View.ld_unit_zero (S := S1x512x1024) zeros3, View.ld_unit_zero (S := S1024x3072) zeros2, View.ld_unit_zero (S := S1x3072) zeros2]
  obtain ⟨x0, x1, x2, w0, w1, b0, b1, o0, o1, o2, o3, k0, k1, k2, k3, v0, v1, v2, v3⟩ := blockIdx0 t
  funext y
  obtain ⟨u, h, r, d, rfl⟩ : ∃ (u : Fin 1) (h : Fin 16) (r : Fin 512) (d : Fin 64), y = ix4 u h r d := ⟨y 0, y 1, y 2, y 3, eq_ix4 y⟩
  obtain rfl : u = 0 := Subsingleton.elim _ _
  have hh := h.isLt; have hr := r.isLt; have hd := d.isLt
  have j1 : ((cfg0.win 5).blk t).view.emb (ix4 0 h r d) 1 = h :=
    Fin.ext (by show win0_5.index t (1 : Fin 4) * 16 + 1 * h.val = h.val; omega)
  have j3 : ((cfg0.win 5).blk t).view.emb (ix4 0 h r d) 3 = d :=
    Fin.ext (by show win0_5.index t (3 : Fin 4) * 64 + 1 * d.val = d.val; omega)
  show k0_pay4 (blk0 (V1 m ρ) c 0 t) (blk0 (V1 m ρ) c 1 t) (blk0 (V1 m ρ) c 2 t) (ix4 0 h r d)
    = proj (aX m c) (aWv m c) (aBv m c) (((cfg0.win 5).blk t).view.emb (ix4 0 h r d) 0) (((cfg0.win 5).blk t).view.emb (ix4 0 h r d) 1)
        (((cfg0.win 5).blk t).view.emb (ix4 0 h r d) 2) (((cfg0.win 5).blk t).view.emb (ix4 0 h r d) 3)
  rw [j1, j3]
  refine part_v m ρ c (blk0 (V1 m ρ) c 0 t) (blk0 (V1 m ρ) c 1 t) (blk0 (V1 m ρ) c 2 t) _ _ h r d (fun e => ?_) (fun e col => ?_) (fun col => ?_)
  · show (V1 m ρ c main_arg0 : S2x2048x1024.Idx → EReal) (((cfg0.win 0).blk t).view.emb (ix3 0 r e)) = aX m c (ix3 _ _ e)
    refine (congrFun (x_entry m ρ c) _).trans (congrArg (aX m c) ?_)
    funext a; apply Fin.ext
    match a with
    | ⟨0, _⟩ => show win0_0.index t (0 : Fin 3) * 1 + 1 * 0 = win0_5.index t (0 : Fin 4) * 1 + 1 * 0; omega
    | ⟨1, _⟩ => show win0_0.index t (1 : Fin 3) * 512 + 1 * r.val = win0_5.index t (2 : Fin 4) * 512 + 1 * r.val; omega
    | ⟨2, _⟩ => show win0_0.index t (2 : Fin 3) * 1024 + 1 * e.val = e.val; omega
  · show (V1 m ρ c main_v3 : S1024x3072.Idx → EReal) (((cfg0.win 1).blk t).view.emb (ix2 e col)) = (V1 m ρ c main_v3 : S1024x3072.Idx → EReal) (ix2 e col)
    refine congrArg (V1 m ρ c main_v3 : S1024x3072.Idx → EReal) ?_
    funext a; apply Fin.ext
    match a with
    | ⟨0, _⟩ => show win0_1.index t (0 : Fin 2) * 1024 + 1 * e.val = e.val; omega
    | ⟨1, _⟩ => show win0_1.index t (1 : Fin 2) * 3072 + 1 * col.val = col.val; omega
  · show (V1 m ρ c main_v6 : S1x3072.Idx → EReal) (((cfg0.win 2).blk t).view.emb (ix2 0 col)) = (V1 m ρ c main_v6 : S1x3072.Idx → EReal) (ix2 0 col)
    refine congrArg (V1 m ρ c main_v6 : S1x3072.Idx → EReal) ?_
    funext a; apply Fin.ext
    match a with
    | ⟨0, _⟩ => show win0_2.index t (0 : Fin 2) * 1 + 1 * 0 = 0; omega
    | ⟨1, _⟩ => show win0_2.index t (1 : Fin 2) * 3072 + 1 * col.val = col.val; omega

/-- An index of the value array is in point t's block iff each coordinate is in the block's range on its axis. -/
theorem mem_v_block (t : Fin cfg0.N) (i : S2x16x2048x64.Idx) :
    i ∈ ((cfg0.win 5).blk t).view.set ↔ ∀ a : Fin 4, win0_5.index t a * S1x16x512x64.size a ≤ (i a).val ∧ (i a).val < win0_5.index t a * S1x16x512x64.size a + S1x16x512x64.size a := by
  show i ∈ ((View.whole main_v7_2).slice (win0_5.rect t)).set ↔ _
  rw [View.set_slice_whole, Rect.mem_set_unit]
  exact Iff.rfl

/-- Every index of the value array is in the block of the point (batch, row / 512). -/
theorem v_cover (i : S2x16x2048x64.Idx) : ∃ t : Fin cfg0.N, (cfg0.win 5).flush t = true ∧ i ∈ ((cfg0.win 5).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, ht⟩ := blockOnto0 ⟨(i 0).val, h0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  obtain ⟨x0, x1, x2, w0, w1, b0, b1, o0, o1, o2, o3, k0, k1, k2, k3, v0, v1, v2, v3⟩ := blockIdx0 t
  refine ⟨t, flush0_5 t, ?_⟩
  rw [mem_v_block]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 512 ≤ (i 2).val ∧ (i 2).val < win0_5.index t (2 : Fin 4) * 512 + 512; omega
  | ⟨3, _⟩ => show win0_5.index t (3 : Fin 4) * 64 ≤ (i 3).val ∧ (i 3).val < win0_5.index t (3 : Fin 4) * 64 + 64; omega

/-- After the first call the value array holds the value projection of the arguments, head by head. -/
theorem v_final (c : Dev nD) : (V2 m ρ c main_v7_2 : S2x16x2048x64.Idx → EReal)
    = fun i => proj (aX m c) (aWv m c) (aBv m c) (i 0) (i 1) (i 2) (i 3) :=
  (W2_arr m ρ c 5).trans ((dat0 (V1 m ρ) c).arrAt_eq_of_cover 5 _ (fun t _ => v_flushed m ρ c t) v_cover)

end Cert.KernelIdeal.Arrays

end
-- ==== Proof.LibMatmulNT.lean ====
/-
  A rank-2 by rank-2 matrix product against a TRANSPOSED right operand, read at an index, at the ideal instance.

  For dimension numbers that contract the left operand's axis 1 with the right operand's axis 1 (a[M, K] against
  b[N, K], the product a · bᵀ with no transpose operation) and have no batch axis, the entry (r, c) of the product
  into a zero accumulator is the plain sum over k of a(r, k) * b(c, k) on the extended reals. The two side facts
  about the free axes (hl0, hr0) are decided once per literal record of dimension numbers.
-/
import Idealize.ShloMosaic.PureOps.Ideal.Laws
import Idealize.ShloMosaic.Lib.ValueIdx

noncomputable section

namespace Idealize.ShloMosaic.MatmulNT

open Idealize.ShloMosaic Idealize.ShloMosaic.ValueIdx

variable {M K N : Nat} {φ₁ φ₂ : FTy}

/-- The operand indices of such a product at output index `i` and contraction position `k` are (i 0, k) and (i 1, k). -/
theorem operand_indices
    (d : DotDims (⟨2, ![M, K]⟩ : Shape) (⟨2, ![N, K]⟩ : Shape) (⟨2, ![M, N]⟩ : Shape))
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 (i 1) k := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact hr0 _ _
    | ⟨1, _⟩ => exact (d.rhsIdx_val_of_single hcr _ _).trans hk

/-- A kernel's product a · bᵀ into the zero accumulator, entry by entry. -/
theorem matmul_zero_apply
    (d : DotDims (⟨2, ![M, K]⟩ : Shape) (⟨2, ![N, K]⟩ : Shape) (⟨2, ![M, N]⟩ : Shape)) (prec : Option ContractPrecision)
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (a : FVec Ideal (⟨2, ![M, K]⟩ : Shape) φ₁) (b : FVec Ideal (⟨2, ![N, K]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 (i 1) k) := by
  rw [Ideal.matmul_constant_zero_apply, ← Equiv.sum_comp (contrEquiv1 d K hrk hs).symm]
  refine Finset.sum_congr rfl fun k _ => ?_
  obtain ⟨el, er⟩ := operand_indices d hcl hcr hrk hs hl0 hr0 i k
  rw [el, er]
  rfl

end Idealize.ShloMosaic.MatmulNT

end
-- ==== Proof.LibRowMax.lean ====
/-
  A row's maximum read at an index, at the ideal instance.

  For an a by b array, a kernel's reduction with maximum along axis 1 holds, at row i, the fold of max over the
  column coordinate j of the entries at (i, j), started from the accumulator's value. The fold is over the whole
  finite type of columns, in no particular order.
-/
import Idealize.ShloMosaic.PureOps.Ideal.Laws
import Idealize.ShloMosaic.Lib.ValueIdx

noncomputable section

namespace Idealize.ShloMosaic.RowMax

open Idealize.ShloMosaic Idealize.ShloMosaic.ValueIdx

variable {a b : ℕ} {φ : FTy}

/-- The index a reduction along axis 1 puts back: row i, column j. -/
theorem lift_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

/-- A row's maximum, from the accumulator's value. -/
theorem row_max_apply (v : FVec Ideal (⟨2, ![a, b]⟩ : Shape) φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ v acc h hφ hacc (ix1 i)
      = (Finset.univ : Finset (Fin b)).fold max (Ideal.ofBits φ acc) (fun j => v (ix2 i j)) := by
  rw [Ideal.multiReduction_maximumf_single]
  have e : (v ∘ h.lift (ix1 i)) = fun j : Fin b => v (ix2 i j) := funext fun j => congrArg v (lift_row h i j)
  rw [e]
  rfl

end Idealize.ShloMosaic.RowMax

end
-- ==== Proof.LibReduceAt.lean ====
/-
  Reductions over one axis read at an index of the result, at the ideal instance, with the reduced index named by
  its coordinates.

  For an a by b array: a row's sum, a row's minimum and a column's maximum (a kernel's vector reductions) are the sum,
  the fold of min and the fold of max over the coordinate that was reduced away, of the array's entries at (i, j).
  For an n by a by b array the host's one-operand reduce with a commutative associative operation, along the last axis
  or along the middle axis, is likewise the fold from its initial value over that coordinate of the entries at
  (n, i, j). The folds are over the whole finite type of the reduced coordinate, in no particular order.
-/
import Idealize.ShloMosaic.PureOps.Ideal.Laws
import Idealize.ShloMosaic.PureOps.Reduce
import Idealize.ShloMosaic.Lib.ValueIdx

noncomputable section

namespace Idealize.ShloMosaic.ReduceAt

open Idealize.ShloMosaic Idealize.ShloMosaic.ValueIdx

variable {a b n : ℕ} {φ : FTy}

/-! ### Rank 2: the index put back by a reduction along the columns' axis, or along the rows' axis -/

theorem lift_along_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

theorem lift_along_col (h : (⟨2, ![a, b]⟩ : Shape).Reduces [(0 : Fin 2)] ⟨1, ![b]⟩) (j : Fin b) (i : Fin a) :
    h.lift (ix1 j) i = ix2 i j := by
  funext ax
  apply Fin.ext
  match ax with
  | ⟨0, _⟩ => rfl
  | ⟨1, _⟩ => rfl

/-- A row's sum. -/
theorem row_sum_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.add.neutral φ hφ)
    (i : Fin a) :
    multiReduction .add [(1 : Fin 2)] ⟨1, ![a]⟩ v acc h hφ hacc (ix1 i) = ∑ j : Fin b, v (ix2 i j) :=
  (Ideal.multiReduction_add_single v acc h hφ hacc (ix1 i)).trans
    (Finset.sum_congr rfl fun j _ => congrArg v (lift_along_row h i j))

/-- A column's sum. -/
theorem col_sum_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.add.neutral φ hφ)
    (j : Fin b) :
    multiReduction .add [(0 : Fin 2)] ⟨1, ![b]⟩ v acc h hφ hacc (ix1 j) = ∑ i : Fin a, v (ix2 i j) :=
  (Ideal.multiReduction_add_single v acc h hφ hacc (ix1 j)).trans
    (Finset.sum_congr rfl fun i _ => congrArg v (lift_along_col h j i))

/-- A row's minimum, from the accumulator's value. -/
theorem row_min_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.minimumf.neutral φ hφ)
    (i : Fin a) :
    multiReduction .minimumf [(1 : Fin 2)] ⟨1, ![a]⟩ v acc h hφ hacc (ix1 i)
      = (Finset.univ : Finset (Fin b)).fold min (Ideal.ofBits φ acc) (fun j => v (ix2 i j)) := by
  rw [multiReduction_minimumf_eq_fold, h.fold_filter_drop_single]
  have e : (v ∘ h.lift (ix1 i)) = fun j : Fin b => v (ix2 i j) := funext fun j => congrArg v (lift_along_row h i j)
  rw [e]
  rfl

/-- A column's maximum, from the accumulator's value. -/
theorem col_max_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.maximumf.neutral φ hφ)
    (j : Fin b) :
    multiReduction .maximumf [(0 : Fin 2)] ⟨1, ![b]⟩ v acc h hφ hacc (ix1 j)
      = (Finset.univ : Finset (Fin a)).fold max (Ideal.ofBits φ acc) (fun i => v (ix2 i j)) := by
  rw [Ideal.multiReduction_maximumf_single]
  have e : (v ∘ h.lift (ix1 j)) = fun i : Fin a => v (ix2 i j) := funext fun i => congrArg v (lift_along_col h j i)
  rw [e]
  rfl

/-! ### Rank 3: the host's reduce along the last axis, or along the middle axis -/

theorem lift_along_last (h : (⟨3, ![n, a, b]⟩ : Shape).Reduces [(2 : Fin 3)] ⟨2, ![n, a]⟩) (p : Fin n) (i : Fin a) (j : Fin b) :
    h.lift (ix2 p i) j = ix3 p i j := by
  funext ax
  apply Fin.ext
  match ax with
  | ⟨0, _⟩ => rfl
  | ⟨1, _⟩ => rfl
  | ⟨2, _⟩ => rfl

theorem lift_along_middle (h : (⟨3, ![n, a, b]⟩ : Shape).Reduces [(1 : Fin 3)] ⟨2, ![n, b]⟩) (p : Fin n) (j : Fin b) (i : Fin a) :
    h.lift (ix2 p j) i = ix3 p i j := by
  funext ax
  apply Fin.ext
  match ax with
  | ⟨0, _⟩ => rfl
  | ⟨1, _⟩ => rfl
  | ⟨2, _⟩ => rfl

/-- The host's reduce along the last axis. -/
theorem host_reduce_last_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(2 : Fin 3)] ⟨2, ![n, a]⟩) (hu : 0 < u.numel)
    (h : (⟨3, ![n, a, b]⟩ : Shape).Reduces [(2 : Fin 3)] ⟨2, ![n, a]⟩) (p : Fin n) (i : Fin a) :
    Host.reduce f x init h' hu (ix2 p i)
      = (Finset.univ : Finset (Fin b)).fold f (init (Shape.Idx.first hu)) (fun j => x (ix3 p i j)) := by
  rw [Host.reduce_eq_fold, Shape.ReducesTo.drop_eq_drop h' h, h.fold_filter_drop_single]
  have e : (x ∘ h.lift (ix2 p i)) = fun j : Fin b => x (ix3 p i j) := funext fun j => congrArg x (lift_along_last h p i j)
  rw [e]
  rfl

/-- The host's reduce along the middle axis. -/
theorem host_reduce_middle_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(1 : Fin 3)] ⟨2, ![n, b]⟩) (hu : 0 < u.numel)
    (h : (⟨3, ![n, a, b]⟩ : Shape).Reduces [(1 : Fin 3)] ⟨2, ![n, b]⟩) (p : Fin n) (j : Fin b) :
    Host.reduce f x init h' hu (ix2 p j)
      = (Finset.univ : Finset (Fin a)).fold f (init (Shape.Idx.first hu)) (fun i => x (ix3 p i j)) := by
  rw [Host.reduce_eq_fold, Shape.ReducesTo.drop_eq_drop h' h, h.fold_filter_drop_single]
  have e : (x ∘ h.lift (ix2 p j)) = fun i : Fin a => x (ix3 p i j) := funext fun i => congrArg x (lift_along_middle h p j i)
  rw [e]
  rfl

end Idealize.ShloMosaic.ReduceAt

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.AttnAtIndex.lean ====
/-
  The attention call's stored values read at an index, on the extended reals.

  With q the [512, 64] block of query rows and k, v the [2048, 64] arrays of key and value rows of one head, the call
  forms the scores S(r, j) = (Σ_d q(r, d) · k(j, d)) · (1/8); then, for every row r, its maximum M_r (a fold of max from
  −∞), the shifted exponentials E(r, j) = exp(S(r, j) − M_r), their row sum Z_r (a plain sum: the accumulator is zero),
  and the weights A(r, j) = E(r, j) / Z_r. The context is C(r, d) = Σ_j A(r, j) · v(j, d). The weights are stored as a
  [1, 1, 512, 2048] array and the context as a [1, 1, 512, 64] array: two leading unit axes do not move an entry's
  row-major position, so the casts between [1, 1, a, b] and [a, b] read the same entry. Narrowing to the 16-bit format
  is the identity on the extended reals.
-/
import proofs.«177007_j31035433681291_2_alg».proof.Proof.Gen.KernelIdeal.Skeleton
import proofs.«177007_j31035433681291_2_alg».proof.Proof.Spec
import proofs.«177007_j31035433681291_2_alg».proof.Proof.LibMatmulNT
import proofs.«177007_j31035433681291_2_alg».proof.Proof.LibMatmulRows
import proofs.«177007_j31035433681291_2_alg».proof.Proof.LibRowMax
import proofs.«177007_j31035433681291_2_alg».proof.Proof.LibReduceAt
import proofs.«177007_j31035433681291_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AtIndex

open Cert.KernelIdeal Cert.KernelIdeal.Gen Cert.Mha Idealize.ShloMosaic Idealize.ShloMosaic.ValueIdx
open Idealize.ShloMosaic.Pipeline

/-! ### Two leading unit axes -/

/-- A [1, 1, a, b] array cast to [a, b] reads, at (r, c), the operand at (0, 0, r, c). -/
theorem drop_units_apply {α : Type} {a b : ℕ} (x : (⟨4, ![1, 1, a, b]⟩ : Shape).Idx → α)
    (h : (⟨4, ![1, 1, a, b]⟩ : Shape).ShapeCasts ⟨2, ![a, b]⟩) (r : Fin a) (c : Fin b) :
    shapeCast ⟨2, ![a, b]⟩ x h (ix2 r c) = x (ix4 0 0 r c) :=
  shapeCast_apply x h _ _ (by
    rw [Shape.rowMajor_val_four, Shape.rowMajor_val_two]
    show ((0 * 1 + 0) * a + r.val) * b + c.val = r.val * b + c.val
    simp)

/-- An [a, b] array cast to [1, 1, a, b] reads, at (0, 0, r, c), the operand at (r, c). -/
theorem add_units_apply {α : Type} {a b : ℕ} (x : (⟨2, ![a, b]⟩ : Shape).Idx → α)
    (h : (⟨2, ![a, b]⟩ : Shape).ShapeCasts ⟨4, ![1, 1, a, b]⟩) (r : Fin a) (c : Fin b) :
    shapeCast ⟨4, ![1, 1, a, b]⟩ x h (ix4 0 0 r c) = x (ix2 r c) :=
  shapeCast_apply x h _ _ (by
    rw [Shape.rowMajor_val_four, Shape.rowMajor_val_two]
    show r.val * b + c.val = ((0 * 1 + 0) * a + r.val) * b + c.val
    simp)

/-! ### The free axes of the two products' dimension numbers -/

theorem qk_lhs0 (i : S512x2048.Idx) (c : dot_S512x64_S2048x64_S512x2048_1_1_0_0_n_n.contr.Idx) :
    (dot_S512x64_S2048x64_S512x2048_1_1_0_0_n_n.lhsIdx i c 0).val = (i 0).val := by
  simp [DotDims.lhsIdx, dot_S512x64_S2048x64_S512x2048_1_1_0_0_n_n]; rfl

theorem qk_rhs0 (i : S512x2048.Idx) (c : dot_S512x64_S2048x64_S512x2048_1_1_0_0_n_n.contr.Idx) :
    (dot_S512x64_S2048x64_S512x2048_1_1_0_0_n_n.rhsIdx i c 0).val = (i 1).val := by
  simp [DotDims.rhsIdx, dot_S512x64_S2048x64_S512x2048_1_1_0_0_n_n]; rfl

theorem av_lhs0 (i : S512x64.Idx) (c : dot_S512x2048_S2048x64_S512x64_1_0_0_1_n_n.contr.Idx) :
    (dot_S512x2048_S2048x64_S512x64_1_0_0_1_n_n.lhsIdx i c 0).val = (i 0).val := by
  simp [DotDims.lhsIdx, dot_S512x2048_S2048x64_S512x64_1_0_0_1_n_n]; rfl

theorem av_rhs1 (i : S512x64.Idx) (c : dot_S512x2048_S2048x64_S512x64_1_0_0_1_n_n.contr.Idx) :
    (dot_S512x2048_S2048x64_S512x64_1_0_0_1_n_n.rhsIdx i c 1).val = (i 1).val := by
  simp [DotDims.rhsIdx, dot_S512x2048_S2048x64_S512x64_1_0_0_1_n_n]; rfl

/-! ### The scores -/

/-- the scaled scores of query row r of the block against every key row -/
def blockScores (q : Vec Ideal S1x1x512x64 .f32) (k : Vec Ideal S1x1x2048x64 .f32) (r : Fin 512) (j : Fin 2048) : EReal :=
  (∑ d : Fin 64, q (ix4 0 0 r d) * k (ix4 0 0 j d)) * scale

/-- The scaled scores as the call builds them: the product of the two narrowed blocks, times the splat of one eighth. -/
def scoresMat (q : Vec Ideal S1x1x512x64 .f32) (k : Vec Ideal S1x1x2048x64 .f32) : FVec Ideal S512x2048 .f32 :=
  mulf (matmul dot_S512x64_S2048x64_S512x2048_1_1_0_0_n_n none
      (truncf .bf16 (shapeCast S512x64 q Facts₀.shapeCasts_S1x1x512x64_S512x64) Facts₀.bitsLt_bf16_f32)
      (truncf .bf16 (shapeCast S2048x64 k Facts₀.shapeCasts_S1x1x2048x64_S2048x64) Facts₀.bitsLt_bf16_f32)
      (constant S512x2048 .f32 0x00000000#32))
    (broadcast S512x2048 (Scalar.ofBits .f32 0x3E000000#32))

theorem scoresMat_apply (q : Vec Ideal S1x1x512x64 .f32) (k : Vec Ideal S1x1x2048x64 .f32) (r : Fin 512) (j : Fin 2048) :
    scoresMat q k (ix2 r j) = blockScores q k r j := by
  unfold scoresMat blockScores
  rw [mulf_apply, broadcast_apply]
  refine congrArg₂ (· * ·) ?_ rfl
  refine (MatmulNT.matmul_zero_apply _ none rfl rfl rfl rfl qk_lhs0 qk_rhs0 _ _ (ix2 r j)).trans ?_
  refine Finset.sum_congr rfl fun d _ => ?_
  exact congrArg₂ (· * ·) (drop_units_apply q _ r d) (drop_units_apply k _ j d)

/-! ### The row maximum, the shifted exponentials, the row sum -/

/-- Every row's maximum spread back over the row. -/
def maxSpread (q : Vec Ideal S1x1x512x64 .f32) (k : Vec Ideal S1x1x2048x64 .f32) : FVec Ideal S512x2048 .f32 :=
  broadcastTo S512x2048
    (shapeCast S512x1
      (multiReduction .maximumf [1] S512 (scoresMat q k) 0xFF800000#32 Facts₀.reduces_S512x2048_S512 (.inl rfl) rfl)
      Facts₀.shapeCasts_S512_S512x1)
    Facts₀.broadcasts_S512x1_S512x2048

theorem maxSpread_apply (q : Vec Ideal S1x1x512x64 .f32) (k : Vec Ideal S1x1x2048x64 .f32) (r : Fin 512) (j : Fin 2048) :
    maxSpread q k (ix2 r j) = rowMax (blockScores q k r) := by
  unfold maxSpread
  refine (Keepdims.column_spread _ _ _ r j).trans ?_
  refine (RowMax.row_max_apply (scoresMat q k) _ _ _ _ r).trans ?_
  unfold rowMax negInf
  exact congrArg (fun f : Fin 2048 → EReal => Finset.fold max (Ideal.ofBits FTy.f32 0xFF800000#32) f Finset.univ)
    (funext fun j' => scoresMat_apply q k r j')

/-- The exponentials of the scores less their row's maximum. -/
def expMat (q : Vec Ideal S1x1x512x64 .f32) (k : Vec Ideal S1x1x2048x64 .f32) : FVec Ideal S512x2048 .f32 :=
  exp (subf (scoresMat q k) (maxSpread q k))

theorem expMat_apply (q : Vec Ideal S1x1x512x64 .f32) (k : Vec Ideal S1x1x2048x64 .f32) (r : Fin 512) (j : Fin 2048) :
    expMat q k (ix2 r j) = Ideal.exp (blockScores q k r j - rowMax (blockScores q k r)) := by
  show Ideal.exp (scoresMat q k (ix2 r j) - maxSpread q k (ix2 r j)) = _
  rw [scoresMat_apply, maxSpread_apply]

/-- Every row's sum of exponentials spread back over the row. -/
def sumSpread (q : Vec Ideal S1x1x512x64 .f32) (k : Vec Ideal S1x1x2048x64 .f32) : FVec Ideal S512x2048 .f32 :=
  broadcastTo S512x2048
    (shapeCast S512x1
      (multiReduction .add [1] S512 (expMat q k) 0x00000000#32 Facts₀.reduces_S512x2048_S512 (.inl rfl) rfl)
      Facts₀.shapeCasts_S512_S512x1)
    Facts₀.broadcasts_S512x1_S512x2048

theorem sumSpread_apply (q : Vec Ideal S1x1x512x64 .f32) (k : Vec Ideal S1x1x2048x64 .f32) (r : Fin 512) (j : Fin 2048) :
    sumSpread q k (ix2 r j) = ∑ j' : Fin 2048, Ideal.exp (blockScores q k r j' - rowMax (blockScores q k r)) := by
  unfold sumSpread
  refine (Keepdims.column_spread _ _ _ r j).trans ?_
  refine (ReduceAt.row_sum_apply (expMat q k) _ _ _ _ r).trans ?_
  exact Finset.sum_congr rfl fun j' _ => expMat_apply q k r j'

/-! ### The three stored values -/

/-- The weights before they are cast: the quotient of the two arrays above. -/
theorem pay1_eq (q : Vec Ideal S1x1x512x64 .f32) (k : Vec Ideal S1x1x2048x64 .f32) :
    k1_pay1 q k = divf (expMat q k) (sumSpread q k) := rfl

theorem pay1_at (q : Vec Ideal S1x1x512x64 .f32) (k : Vec Ideal S1x1x2048x64 .f32) (r : Fin 512) (j : Fin 2048) :
    k1_pay1 q k (ix2 r j) = softmaxRow (blockScores q k r) j := by
  rw [pay1_eq, divf_apply, expMat_apply, sumSpread_apply]
  rfl

theorem weights_at (q : Vec Ideal S1x1x512x64 .f32) (k : Vec Ideal S1x1x2048x64 .f32) (r : Fin 512) (j : Fin 2048) :
    k1_pay2 q k (ix4 0 0 r j) = softmaxRow (blockScores q k r) j := by
  unfold k1_pay2
  exact (add_units_apply (k1_pay1 q k) _ r j).trans (pay1_at q k r j)

theorem context_at (q : Vec Ideal S1x1x512x64 .f32) (k : Vec Ideal S1x1x2048x64 .f32) (v : Vec Ideal S1x1x2048x64 .f32)
    (r : Fin 512) (d : Fin 64) :
    k1_pay3 q k v (ix4 0 0 r d) = ∑ j : Fin 2048, softmaxRow (blockScores q k r) j * v (ix4 0 0 j d) := by
  unfold k1_pay3
  refine (add_units_apply _ _ r d).trans ?_
  exact MatmulRows.matmul_zero_rows _ none rfl rfl rfl rfl av_lhs0 av_rhs1 _ _ (ix2 r d) _ _
    (fun j => pay1_at q k r j) (fun j => drop_units_apply v _ j d)

end Cert.KernelIdeal.AtIndex

end
-- ==== Proof.AttnArrays.lean ====
/-
  The attention call's two output arrays, whole, on the extended reals.

  The call runs over the grid [2, 16, 4]: point t = 64·n + 4·h + i takes the block of query rows 512·i … 512·i + 511 of
  head h of batch n, and all 2048 key rows and all 2048 value rows of that head. Entry (r, d) of its query block is entry
  (n, h, 512·i + r, d) of the query array; entry (j, d) of its key (value) block is entry (n, h, j, d) of the key (value)
  array. So row r of the block's scaled scores is row 512·i + r of the head's scores, the block of weights the point
  writes back is block (n, h, i, 0) of the array of attention weights, and the block of context rows it writes back is
  block (n, h, i, 0) of the array of contexts. Every entry (n, h, s, ·) of either output array lies in the block of the
  point 64·n + 4·h + s / 512, so after the call the two arrays are the attention weights and the contexts of whatever
  query, key and value arrays the call found.
-/
import proofs.«177007_j31035433681291_2_alg».proof.Proof.HostGlue
import proofs.«177007_j31035433681291_2_alg».proof.Proof.AttnAtIndex
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Pipe Cert.KernelIdeal.AtIndex Cert.Mha Idealize.ShloMosaic
  Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ### The grid: point t = 64·n + 4·h + i is batch n, head h, block i of 512 query rows -/

/-- The query block, the weights' block and the context's block of point t sit at block index (n, h, i, 0). -/
theorem rows_blocks : ∀ t : Fin cfg1.N,
    (win1_0.index t (0 : Fin 4) = t.val / 64 ∧ win1_0.index t (1 : Fin 4) = t.val / 4 % 16
      ∧ win1_0.index t (2 : Fin 4) = t.val % 4 ∧ win1_0.index t (3 : Fin 4) = 0)
    ∧ (win1_3.index t (0 : Fin 4) = t.val / 64 ∧ win1_3.index t (1 : Fin 4) = t.val / 4 % 16
      ∧ win1_3.index t (2 : Fin 4) = t.val % 4 ∧ win1_3.index t (3 : Fin 4) = 0)
    ∧ (win1_4.index t (0 : Fin 4) = t.val / 64 ∧ win1_4.index t (1 : Fin 4) = t.val / 4 % 16
      ∧ win1_4.index t (2 : Fin 4) = t.val % 4 ∧ win1_4.index t (3 : Fin 4) = 0) :=
  (by decide +kernel : ∀ t : Fin grid1.N, _)

/-- The key block and the value block of point t sit at block index (n, h, 0, 0): all rows of the head. -/
theorem head_blocks : ∀ t : Fin cfg1.N,
    (win1_1.index t (0 : Fin 4) = t.val / 64 ∧ win1_1.index t (1 : Fin 4) = t.val / 4 % 16
      ∧ win1_1.index t (2 : Fin 4) = 0 ∧ win1_1.index t (3 : Fin 4) = 0)
    ∧ (win1_2.index t (0 : Fin 4) = t.val / 64 ∧ win1_2.index t (1 : Fin 4) = t.val / 4 % 16
      ∧ win1_2.index t (2 : Fin 4) = 0 ∧ win1_2.index t (3 : Fin 4) = 0) :=
  (by decide +kernel : ∀ t : Fin grid1.N, _)

theorem point_lt (t : Fin cfg1.N) : t.val < 128 := by
  have h : t.val < grid1.N := t.isLt
  rw [N_1] at h
  exact h

/-- Batch, head and first-row-block of a point, and the query row 512·i + r of the array that row r of its block is. -/
def batchAt (t : Fin cfg1.N) : Fin 2 := ⟨t.val / 64, by have := point_lt t; omega⟩
def headAt (t : Fin cfg1.N) : Fin 16 := ⟨t.val / 4 % 16, by omega⟩
def rowAt (t : Fin cfg1.N) (r : Fin 512) : Fin 2048 := ⟨t.val % 4 * 512 + r.val, by have := r.isLt; omega⟩

/-! ### Where an entry of a block sits in its array -/

theorem q_block_index (t : Fin cfg1.N) (r : Fin 512) (d : Fin 64) :
    ((cfg1.win 0).blk t).view.emb (ix4 (0 : Fin 1) (0 : Fin 1) r d) = ix4 (batchAt t) (headAt t) (rowAt t r) d := by
  obtain ⟨⟨e0, e1, e2, e3⟩, -, -⟩ := rows_blocks t
  funext a; apply Fin.ext
  match a with
  | ⟨0, _⟩ => show win1_0.index t (0 : Fin 4) * 1 + 1 * 0 = t.val / 64; omega
  | ⟨1, _⟩ => show win1_0.index t (1 : Fin 4) * 1 + 1 * 0 = t.val / 4 % 16; omega
  | ⟨2, _⟩ => show win1_0.index t (2 : Fin 4) * 512 + 1 * r.val = t.val % 4 * 512 + r.val; omega
  | ⟨3, _⟩ => show win1_0.index t (3 : Fin 4) * 64 + 1 * d.val = d.val; omega

theorem k_block_index (t : Fin cfg1.N) (j : Fin 2048) (d : Fin 64) :
    ((cfg1.win 1).blk t).view.emb (ix4 (0 : Fin 1) (0 : Fin 1) j d) = ix4 (batchAt t) (headAt t) j d := by
  obtain ⟨⟨e0, e1, e2, e3⟩, -⟩ := head_blocks t
  funext a; apply Fin.ext
  match a with
  | ⟨0, _⟩ => show win1_1.index t (0 : Fin 4) * 1 + 1 * 0 = t.val / 64; omega
  | ⟨1, _⟩ => show win1_1.index t (1 : Fin 4) * 1 + 1 * 0 = t.val / 4 % 16; omega
  | ⟨2, _⟩ => show win1_1.index t (2 : Fin 4) * 2048 + 1 * j.val = j.val; omega
  | ⟨3, _⟩ => show win1_1.index t (3 : Fin 4) * 64 + 1 * d.val = d.val; omega

theorem v_block_index (t : Fin cfg1.N) (j : Fin 2048) (d : Fin 64) :
    ((cfg1.win 2).blk t).view.emb (ix4 (0 : Fin 1) (0 : Fin 1) j d) = ix4 (batchAt t) (headAt t) j d := by
  obtain ⟨-, ⟨e0, e1, e2, e3⟩⟩ := head_blocks t
  funext a; apply Fin.ext
  match a with
  | ⟨0, _⟩ => show win1_2.index t (0 : Fin 4) * 1 + 1 * 0 = t.val / 64; omega
  | ⟨1, _⟩ => show win1_2.index t (1 : Fin 4) * 1 + 1 * 0 = t.val / 4 % 16; omega
  | ⟨2, _⟩ => show win1_2.index t (2 : Fin 4) * 2048 + 1 * j.val = j.val; omega
  | ⟨3, _⟩ => show win1_2.index t (3 : Fin 4) * 64 + 1 * d.val = d.val; omega

theorem weights_block_index (t : Fin cfg1.N) (r : Fin 512) (j : Fin 2048) :
    ((cfg1.win 3).blk t).view.emb (ix4 (0 : Fin 1) (0 : Fin 1) r j) = ix4 (batchAt t) (headAt t) (rowAt t r) j := by
  obtain ⟨-, ⟨e0, e1, e2, e3⟩, -⟩ := rows_blocks t
  funext a; apply Fin.ext
  match a with
  | ⟨0, _⟩ => show win1_3.index t (0 : Fin 4) * 1 + 1 * 0 = t.val / 64; omega
  | ⟨1, _⟩ => show win1_3.index t (1 : Fin 4) * 1 + 1 * 0 = t.val / 4 % 16; omega
  | ⟨2, _⟩ => show win1_3.index t (2 : Fin 4) * 512 + 1 * r.val = t.val % 4 * 512 + r.val; omega
  | ⟨3, _⟩ => show win1_3.index t (3 : Fin 4) * 2048 + 1 * j.val = j.val; omega

theorem context_block_index (t : Fin cfg1.N) (r : Fin 512) (d : Fin 64) :
    ((cfg1.win 4).blk t).view.emb (ix4 (0 : Fin 1) (0 : Fin 1) r d) = ix4 (batchAt t) (headAt t) (rowAt t r) d := by
  obtain ⟨-, -, ⟨e0, e1, e2, e3⟩⟩ := rows_blocks t
  funext a; apply Fin.ext
  match a with
  | ⟨0, _⟩ => show win1_4.index t (0 : Fin 4) * 1 + 1 * 0 = t.val / 64; omega
  | ⟨1, _⟩ => show win1_4.index t (1 : Fin 4) * 1 + 1 * 0 = t.val / 4 % 16; omega
  | ⟨2, _⟩ => show win1_4.index t (2 : Fin 4) * 512 + 1 * r.val = t.val % 4 * 512 + r.val; omega
  | ⟨3, _⟩ => show win1_4.index t (3 : Fin 4) * 64 + 1 * d.val = d.val; omega

/-! ### The three input blocks of a point, read off the arrays the call finds -/

theorem q_block (c : Dev nD) (Q : Fin 2 → Fin 16 → Fin 2048 → Fin 64 → EReal)
    (hq : (V2 m ρ c main_v7_0 : S2x16x2048x64.Idx → EReal) = fun i => Q (i 0) (i 1) (i 2) (i 3))
    (t : Fin cfg1.N) (r : Fin 512) (d : Fin 64) :
    (blk1 (V2 m ρ) c 0 t : S1x1x512x64.Idx → EReal) (ix4 0 0 r d) = Q (batchAt t) (headAt t) (rowAt t r) d := by
  show (V2 m ρ c main_v7_0 : S2x16x2048x64.Idx → EReal) (((cfg1.win 0).blk t).view.emb (ix4 (0 : Fin 1) (0 : Fin 1) r d)) = _
  rw [q_block_index, hq]
  rfl

theorem k_block (c : Dev nD) (K : Fin 2 → Fin 16 → Fin 2048 → Fin 64 → EReal)
    (hk : (V2 m ρ c main_v7_1 : S2x16x2048x64.Idx → EReal) = fun i => K (i 0) (i 1) (i 2) (i 3))
    (t : Fin cfg1.N) (j : Fin 2048) (d : Fin 64) :
    (blk1 (V2 m ρ) c 1 t : S1x1x2048x64.Idx → EReal) (ix4 0 0 j d) = K (batchAt t) (headAt t) j d := by
  show (V2 m ρ c main_v7_1 : S2x16x2048x64.Idx → EReal) (((cfg1.win 1).blk t).view.emb (ix4 (0 : Fin 1) (0 : Fin 1) j d)) = _
  rw [k_block_index, hk]
  rfl

theorem v_block (c : Dev nD) (U : Fin 2 → Fin 16 → Fin 2048 → Fin 64 → EReal)
    (hv : (V2 m ρ c main_v7_2 : S2x16x2048x64.Idx → EReal) = fun i => U (i 0) (i 1) (i 2) (i 3))
    (t : Fin cfg1.N) (j : Fin 2048) (d : Fin 64) :
    (blk1 (V2 m ρ) c 2 t : S1x1x2048x64.Idx → EReal) (ix4 0 0 j d) = U (batchAt t) (headAt t) j d := by
  show (V2 m ρ c main_v7_2 : S2x16x2048x64.Idx → EReal) (((cfg1.win 2).blk t).view.emb (ix4 (0 : Fin 1) (0 : Fin 1) j d)) = _
  rw [v_block_index, hv]
  rfl

/-- Row r of the point's block of scores is row 512·i + r of the head's scores. -/
theorem scores_of_blocks (c : Dev nD) (Q K : Fin 2 → Fin 16 → Fin 2048 → Fin 64 → EReal)
    (hq : (V2 m ρ c main_v7_0 : S2x16x2048x64.Idx → EReal) = fun i => Q (i 0) (i 1) (i 2) (i 3))
    (hk : (V2 m ρ c main_v7_1 : S2x16x2048x64.Idx → EReal) = fun i => K (i 0) (i 1) (i 2) (i 3))
    (t : Fin cfg1.N) (r : Fin 512) :
    blockScores (blk1 (V2 m ρ) c 0 t) (blk1 (V2 m ρ) c 1 t) r = score Q K (batchAt t) (headAt t) (rowAt t r) := by
  funext j
  unfold blockScores score
  refine congrArg (· * scale) (Finset.sum_congr rfl fun d _ => ?_)
  exact congrArg₂ (· * ·) (q_block m ρ c Q hq t r d) (k_block m ρ c K hk t j d)

/-! ### What a point writes back -/

theorem origin4 : (![0, 0, 0, 0] : Fin 4 → Nat) = fun _ => 0 := funext fun a => by fin_cases a <;> rfl

/-- Point t writes back block t of the attention weights. -/
theorem weights_flushed (c : Dev nD) (Q K : Fin 2 → Fin 16 → Fin 2048 → Fin 64 → EReal)
    (hq : (V2 m ρ c main_v7_0 : S2x16x2048x64.Idx → EReal) = fun i => Q (i 0) (i 1) (i 2) (i 3))
    (hk : (V2 m ρ c main_v7_1 : S2x16x2048x64.Idx → EReal) = fun i => K (i 0) (i 1) (i 2) (i 3))
    (t : Fin cfg1.N) :
    (dat1 (V2 m ρ) c).flushed 3 t
      = ((cfg1.win 3).blk t).view.read (Elt Ideal) (fun i : S2x16x2048x2048.Idx => attn Q K (i 0) (i 1) (i 2) (i 3)) := by
  show (cfg1.win 3).cut (grid1.coords t) ((dat1 (V2 m ρ) c).after 3 t) = _
  rw [dat1_after3]
  unfold left1_3
  rw [View.canon_unit_zero origin4]
  simp only [View.ld_unit_zero (S := S1x1x512x64) origin4, View.ld_unit_zero (S := S1x1x2048x64) origin4]
  funext y
  obtain ⟨u, h, r, j, rfl⟩ : ∃ (u : Fin 1) (h : Fin 1) (r : Fin 512) (j : Fin 2048), y = ix4 u h r j :=
    ⟨y 0, y 1, y 2, y 3, eq_ix4 y⟩
  obtain rfl : u = 0 := Subsingleton.elim _ _
  obtain rfl : h = 0 := Subsingleton.elim _ _
  refine (weights_at (blk1 (V2 m ρ) c 0 t) (blk1 (V2 m ρ) c 1 t) r j).trans ?_
  rw [scores_of_blocks m ρ c Q K hq hk t r]
  show _ = (fun i : S2x16x2048x2048.Idx => attn Q K (i 0) (i 1) (i 2) (i 3))
    (((cfg1.win 3).blk t).view.emb (ix4 (0 : Fin 1) (0 : Fin 1) r j))
  rw [weights_block_index]
  rfl

/-- Point t writes back block t of the context. -/
theorem context_flushed (c : Dev nD) (Q K U : Fin 2 → Fin 16 → Fin 2048 → Fin 64 → EReal)
    (hq : (V2 m ρ c main_v7_0 : S2x16x2048x64.Idx → EReal) = fun i => Q (i 0) (i 1) (i 2) (i 3))
    (hk : (V2 m ρ c main_v7_1 : S2x16x2048x64.Idx → EReal) = fun i => K (i 0) (i 1) (i 2) (i 3))
    (hv : (V2 m ρ c main_v7_2 : S2x16x2048x64.Idx → EReal) = fun i => U (i 0) (i 1) (i 2) (i 3))
    (t : Fin cfg1.N) :
    (dat1 (V2 m ρ) c).flushed 4 t
      = ((cfg1.win 4).blk t).view.read (Elt Ideal) (fun i : S2x16x2048x64.Idx => ctx (attn Q K) U (i 0) (i 1) (i 2) (i 3)) := by
  show (cfg1.win 4).cut (grid1.coords t) ((dat1 (V2 m ρ) c).after 4 t) = _
  rw [dat1_after4]
  unfold left1_4
  rw [View.canon_unit_zero origin4]
  simp only [View.ld_unit_zero (S := S1x1x512x64) origin4, View.ld_unit_zero (S := S1x1x2048x64) origin4]
  funext y
  obtain ⟨u, h, r, d, rfl⟩ : ∃ (u : Fin 1) (h : Fin 1) (r : Fin 512) (d : Fin 64), y = ix4 u h r d :=
    ⟨y 0, y 1, y 2, y 3, eq_ix4 y⟩
  obtain rfl : u = 0 := Subsingleton.elim _ _
  obtain rfl : h = 0 := Subsingleton.elim _ _
  refine (context_at (blk1 (V2 m ρ) c 0 t) (blk1 (V2 m ρ) c 1 t) (blk1 (V2 m ρ) c 2 t) r d).trans ?_
  rw [scores_of_blocks m ρ c Q K hq hk t r]
  show _ = (fun i : S2x16x2048x64.Idx => ctx (attn Q K) U (i 0) (i 1) (i 2) (i 3))
    (((cfg1.win 4).blk t).view.emb (ix4 (0 : Fin 1) (0 : Fin 1) r d))
  rw [context_block_index]
  show _ = ∑ j : Fin 2048, softmaxRow (score Q K (batchAt t) (headAt t) (rowAt t r)) j * U (batchAt t) (headAt t) j d
  exact Finset.sum_congr rfl fun j _ => congrArg (softmaxRow (score Q K (batchAt t) (headAt t) (rowAt t r)) j * ·)
    (v_block m ρ c U hv t j d)

/-! ### The blocks tile the two output arrays -/

theorem mem_weights_block (t : Fin cfg1.N) (i : S2x16x2048x2048.Idx) :
    i ∈ ((cfg1.win 3).blk t).view.set ↔ ∀ a : Fin 4, win1_3.index t a * S1x1x512x2048.size a ≤ (i a).val
      ∧ (i a).val < win1_3.index t a * S1x1x512x2048.size a + S1x1x512x2048.size a := by
  show i ∈ ((View.whole main_v8_0).slice (win1_3.rect t)).set ↔ _
  rw [View.set_slice_whole, Rect.mem_set_unit]
  exact Iff.rfl

theorem mem_context_block (t : Fin cfg1.N) (i : S2x16x2048x64.Idx) :
    i ∈ ((cfg1.win 4).blk t).view.set ↔ ∀ a : Fin 4, win1_4.index t a * S1x1x512x64.size a ≤ (i a).val
      ∧ (i a).val < win1_4.index t a * S1x1x512x64.size a + S1x1x512x64.size a := by
  show i ∈ ((View.whole main_v8_1).slice (win1_4.rect t)).set ↔ _
  rw [View.set_slice_whole, Rect.mem_set_unit]
  exact Iff.rfl

/-- Entry (n, h, s, j) of the weights is in the block of point 64·n + 4·h + s / 512. -/
theorem weights_cover (i : S2x16x2048x2048.Idx) :
    ∃ t : Fin cfg1.N, (cfg1.win 3).flush t = true ∧ i ∈ ((cfg1.win 3).blk t).view.set := by
  have h0 : (i 0).val < 2 := (i 0).isLt
  have h1 : (i 1).val < 16 := (i 1).isLt
  have h2 : (i 2).val < 2048 := (i 2).isLt
  have h3 : (i 3).val < 2048 := (i 3).isLt
  have hN : (i 0).val * 64 + (i 1).val * 4 + (i 2).val / 512 < cfg1.N := by
    show _ < grid1.N
    rw [N_1]; omega
  refine ⟨⟨(i 0).val * 64 + (i 1).val * 4 + (i 2).val / 512, hN⟩, flush1_3 _, ?_⟩
  rw [mem_weights_block]
  obtain ⟨-, ⟨e0, e1, e2, e3⟩, -⟩ := rows_blocks ⟨(i 0).val * 64 + (i 1).val * 4 + (i 2).val / 512, hN⟩
  simp only [] at e0 e1 e2 e3
  intro a
  match a with
  | ⟨0, _⟩ =>
    show win1_3.index ⟨_, hN⟩ (0 : Fin 4) * 1 ≤ (i 0).val ∧ (i 0).val < win1_3.index ⟨_, hN⟩ (0 : Fin 4) * 1 + 1
    omega
  | ⟨1, _⟩ =>
    show win1_3.index ⟨_, hN⟩ (1 : Fin 4) * 1 ≤ (i 1).val ∧ (i 1).val < win1_3.index ⟨_, hN⟩ (1 : Fin 4) * 1 + 1
    omega
  | ⟨2, _⟩ =>
    show win1_3.index ⟨_, hN⟩ (2 : Fin 4) * 512 ≤ (i 2).val ∧ (i 2).val < win1_3.index ⟨_, hN⟩ (2 : Fin 4) * 512 + 512
    omega
  | ⟨3, _⟩ =>
    show win1_3.index ⟨_, hN⟩ (3 : Fin 4) * 2048 ≤ (i 3).val ∧ (i 3).val < win1_3.index ⟨_, hN⟩ (3 : Fin 4) * 2048 + 2048
    omega

/-- Entry (n, h, s, d) of the context is in the block of point 64·n + 4·h + s / 512. -/
theorem context_cover (i : S2x16x2048x64.Idx) :
    ∃ t : Fin cfg1.N, (cfg1.win 4).flush t = true ∧ i ∈ ((cfg1.win 4).blk t).view.set := by
  have h0 : (i 0).val < 2 := (i 0).isLt
  have h1 : (i 1).val < 16 := (i 1).isLt
  have h2 : (i 2).val < 2048 := (i 2).isLt
  have h3 : (i 3).val < 64 := (i 3).isLt
  have hN : (i 0).val * 64 + (i 1).val * 4 + (i 2).val / 512 < cfg1.N := by
    show _ < grid1.N
    rw [N_1]; omega
  refine ⟨⟨(i 0).val * 64 + (i 1).val * 4 + (i 2).val / 512, hN⟩, flush1_4 _, ?_⟩
  rw [mem_context_block]
  obtain ⟨-, -, ⟨e0, e1, e2, e3⟩⟩ := rows_blocks ⟨(i 0).val * 64 + (i 1).val * 4 + (i 2).val / 512, hN⟩
  simp only [] at e0 e1 e2 e3
  intro a
  match a with
  | ⟨0, _⟩ =>
    show win1_4.index ⟨_, hN⟩ (0 : Fin 4) * 1 ≤ (i 0).val ∧ (i 0).val < win1_4.index ⟨_, hN⟩ (0 : Fin 4) * 1 + 1
    omega
  | ⟨1, _⟩ =>
    show win1_4.index ⟨_, hN⟩ (1 : Fin 4) * 1 ≤ (i 1).val ∧ (i 1).val < win1_4.index ⟨_, hN⟩ (1 : Fin 4) * 1 + 1
    omega
  | ⟨2, _⟩ =>
    show win1_4.index ⟨_, hN⟩ (2 : Fin 4) * 512 ≤ (i 2).val ∧ (i 2).val < win1_4.index ⟨_, hN⟩ (2 : Fin 4) * 512 + 512
    omega
  | ⟨3, _⟩ =>
    show win1_4.index ⟨_, hN⟩ (3 : Fin 4) * 64 ≤ (i 3).val ∧ (i 3).val < win1_4.index ⟨_, hN⟩ (3 : Fin 4) * 64 + 64
    omega

/-! ### The two output arrays after the call -/

theorem attn_final (c : Dev nD) (Q K : Fin 2 → Fin 16 → Fin 2048 → Fin 64 → EReal)
    (hq : (V2 m ρ c main_v7_0 : S2x16x2048x64.Idx → EReal) = fun i => Q (i 0) (i 1) (i 2) (i 3))
    (hk : (V2 m ρ c main_v7_1 : S2x16x2048x64.Idx → EReal) = fun i => K (i 0) (i 1) (i 2) (i 3)) :
    (V3 m ρ c main_v8_0 : S2x16x2048x2048.Idx → EReal) = fun i => attn Q K (i 0) (i 1) (i 2) (i 3) :=
  (W3_arr m ρ c 3).trans ((dat1 (V2 m ρ) c).arrAt_eq_of_cover 3 _
    (fun t _ => weights_flushed m ρ c Q K hq hk t) weights_cover)

theorem ctx_final (c : Dev nD) (Q K U : Fin 2 → Fin 16 → Fin 2048 → Fin 64 → EReal)
    (hq : (V2 m ρ c main_v7_0 : S2x16x2048x64.Idx → EReal) = fun i => Q (i 0) (i 1) (i 2) (i 3))
    (hk : (V2 m ρ c main_v7_1 : S2x16x2048x64.Idx → EReal) = fun i => K (i 0) (i 1) (i 2) (i 3))
    (hv : (V2 m ρ c main_v7_2 : S2x16x2048x64.Idx → EReal) = fun i => U (i 0) (i 1) (i 2) (i 3)) :
    (V3 m ρ c main_v8_1 : S2x16x2048x64.Idx → EReal) = fun i => ctx (attn Q K) U (i 0) (i 1) (i 2) (i 3) :=
  (W3_arr m ρ c 4).trans ((dat1 (V2 m ρ) c).arrAt_eq_of_cover 4 _
    (fun t _ => context_flushed m ρ c Q K U hq hk hv t) context_cover)

end Cert.KernelIdeal.Arrays

end
-- ==== Proof.OutArrays.lean ====
/-
  From the blocks of the output projection to its whole array, on the extended reals.

  The last call runs over the grid [2, 4]. Point (n, s) reads rows 512·s … 512·s + 511 of all 16 heads of batch n of the
  context array [2, 16, 2048, 64] (block index (n, 0, s, 0) in blocks of [1, 16, 512, 64]), the whole transposed weight and
  the whole bias, and writes block (n, s, 0) of the output array [2, 2048, 1024] in blocks of [1, 512, 1024]. What it
  writes at (0, r, e) of its block is

      (Σ_f C(n, f / 64, 512·s + r, f % 64) · Wo(e, f)) + bo(e),

  the output projection of the context C at (n, 512·s + r, e): the block's row r is the array's row 512·s + r, the
  transposed weight at (f, e) is the weight at (e, f), and the reshaped bias at (0, e) is the bias at e. The eight blocks
  tile the array (row ρ of batch n lies in the block of point (n, ρ / 512)), so the array ends holding the output
  projection of C everywhere.
-/
import proofs.«177007_j31035433681291_2_alg».proof.Proof.HostGlue
import proofs.«177007_j31035433681291_2_alg».proof.Proof.ProjAtIndex
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Pipe Cert.KernelIdeal.AtIndex Cert.Mha Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The body's rectangles start at the origin -/

theorem origin2 : (![0, 0] : Fin 2 → Nat) = fun _ => 0 := funext fun a => by fin_cases a <;> rfl
theorem origin3 : (![0, 0, 0] : Fin 3 → Nat) = fun _ => 0 := funext fun a => by fin_cases a <;> rfl
theorem origin4 : (![0, 0, 0, 0] : Fin 4 → Nat) = fun _ => 0 := funext fun a => by fin_cases a <;> rfl

/-! ## The block indices over the grid -/

/-- At every point the context block has the output block's batch and row-block, and index 0 on the head and lane axes;
    the weight's and the bias's blocks are the whole arrays; the output's block index is (n, s, 0) with n ≤ 1, s ≤ 3. -/
theorem out_block_indices : ∀ t : Fin cfg2.N,
      win2_0.index t (0 : Fin 4) = win2_3.index t (0 : Fin 3)
    ∧ win2_0.index t (1 : Fin 4) = 0
    ∧ win2_0.index t (2 : Fin 4) = win2_3.index t (1 : Fin 3)
    ∧ win2_0.index t (3 : Fin 4) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) ≤ 1 ∧ win2_3.index t (1 : Fin 3) ≤ 3 ∧ win2_3.index t (2 : Fin 3) = 0 :=
  (by decide +kernel : ∀ t : Fin grid2.N, _)

/-- Every block (n, s, 0) of the output array is some point's. -/
theorem out_block_onto : ∀ (n : Fin 2) (s : Fin 4), ∃ t : Fin cfg2.N, win2_3.index t = ![n.val, s.val, 0] :=
  (by decide +kernel : ∀ (n : Fin 2) (s : Fin 4), ∃ t : Fin grid2.N, win2_3.index t = ![n.val, s.val, 0])

/-! ## One entry of one block -/

/-- If a point's three blocks read the context at batch n, row s, the weight transposed and the bias reshaped, then the
    body's payload at (0, r, e) is the output projection at (n, s, e). -/
theorem out_block_entry (C : Fin 2 → Fin 16 → Fin 2048 → Fin 64 → EReal) (Wo : SW.Idx → EReal) (bo : SB.Idx → EReal)
    (x : Vec Ideal S1x16x512x64 .f32) (w : Vec Ideal S1024x1024 .bf16) (b : Vec Ideal S1x1024 .f32)
    (n : Fin 2) (s : Fin 2048) (r : Fin 512) (e : Fin 1024)
    (hx : ∀ (h : Fin 16) (d : Fin 64), x (ix4 0 h r d) = C n h s d)
    (hw : ∀ f : Fin 1024, w (ix2 f e) = Wo (ix2 e f)) (hb : b (ix2 0 e) = bo (ix1 e)) :
    k2_pay1 x w b (ix3 0 r e) = outp C Wo bo n s e := by
  refine (out_rows x w b r e).trans ?_
  unfold outp
  rw [hb]
  exact congrArg (· + bo (ix1 e)) (Finset.sum_congr rfl fun f _ => by rw [hx, hw])

/-! ## What the three input blocks read -/

/-- Point t's context block at (0, h, r, d) is the context array at (n, h, s, d), n the block's batch and s = 512·(its
    row-block) + r. -/
theorem ctx_block_at (c : Dev nD) (C : Fin 2 → Fin 16 → Fin 2048 → Fin 64 → EReal)
    (hc : (V4 m ρ c main_v8_1 : S2x16x2048x64.Idx → EReal) = fun i => C (i 0) (i 1) (i 2) (i 3))
    (t : Fin cfg2.N) (n : Fin 2) (s : Fin 2048) (h : Fin 16) (r : Fin 512) (d : Fin 64)
    (hn : n.val = win2_3.index t (0 : Fin 3)) (hs : s.val = win2_3.index t (1 : Fin 3) * 512 + r.val) :
    blk2 (V4 m ρ) c 0 t (ix4 0 h r d) = C n h s d := by
  obtain ⟨e0, e1, e2, e3, -⟩ := out_block_indices t
  have hi : ((cfg2.win 0).blk t).view.emb (ix4 0 h r d) = ix4 n h s d := by
    funext a; apply Fin.ext
    match a with
    | ⟨0, _⟩ => show win2_0.index t (0 : Fin 4) * 1 + 1 * 0 = n.val; omega
    | ⟨1, _⟩ => show win2_0.index t (1 : Fin 4) * 16 + 1 * h.val = h.val; omega
    | ⟨2, _⟩ => show win2_0.index t (2 : Fin 4) * 512 + 1 * r.val = s.val; omega
    | ⟨3, _⟩ => show win2_0.index t (3 : Fin 4) * 64 + 1 * d.val = d.val; omega
  show (V4 m ρ c main_v8_1 : S2x16x2048x64.Idx → EReal) (((cfg2.win 0).blk t).view.emb (ix4 0 h r d)) = _
  rw [hi]
  exact congrFun hc (ix4 n h s d)

/-- Point t's weight block is the whole transposed weight: at (f, e) it is the output weight at (e, f). -/
theorem outW_block_at (c : Dev nD) (t : Fin cfg2.N) (f e : Fin 1024) :
    blk2 (V4 m ρ) c 1 t (ix2 f e) = aWo m c (ix2 e f) := by
  obtain ⟨-, -, -, -, e4, e5, -⟩ := out_block_indices t
  have hi : ((cfg2.win 1).blk t).view.emb (ix2 f e) = ix2 f e := by
    funext a; apply Fin.ext
    match a with
    | ⟨0, _⟩ => show win2_1.index t (0 : Fin 2) * 1024 + 1 * f.val = f.val; omega
    | ⟨1, _⟩ => show win2_1.index t (1 : Fin 2) * 1024 + 1 * e.val = e.val; omega
  show (V4 m ρ c main_v5 : S1024x1024.Idx → EReal) (((cfg2.win 1).blk t).view.emb (ix2 f e)) = _
  rw [hi, outW_carried]
  exact outW_at m ρ c f e

/-- Point t's bias block is the whole reshaped bias: at (0, e) it is the output bias at e. -/
theorem outB_block_at (c : Dev nD) (t : Fin cfg2.N) (e : Fin 1024) :
    blk2 (V4 m ρ) c 2 t (ix2 0 e) = aBo m c (ix1 e) := by
  obtain ⟨-, -, -, -, -, -, e6, e7, -⟩ := out_block_indices t
  have hi : ((cfg2.win 2).blk t).view.emb (ix2 0 e) = ix2 0 e := by
    funext a; apply Fin.ext
    match a with
    | ⟨0, _⟩ => show win2_2.index t (0 : Fin 2) * 1 + 1 * 0 = 0; omega
    | ⟨1, _⟩ => show win2_2.index t (1 : Fin 2) * 1024 + 1 * e.val = e.val; omega
  show (V4 m ρ c main_v9 : S1x1024.Idx → EReal) (((cfg2.win 2).blk t).view.emb (ix2 0 e)) = _
  rw [hi]
  exact outB_at m ρ c e

/-! ## What a point writes back, and the whole array -/

/-- What point t writes back is block t of the output projection of the context. -/
theorem out_flushed (c : Dev nD) (C : Fin 2 → Fin 16 → Fin 2048 → Fin 64 → EReal)
    (hc : (V4 m ρ c main_v8_1 : S2x16x2048x64.Idx → EReal) = fun i => C (i 0) (i 1) (i 2) (i 3)) (t : Fin cfg2.N) :
    (dat2 (V4 m ρ) c).flushed 3 t
      = ((cfg2.win 3).blk t).view.read (Elt Ideal) (fun i : S2x2048x1024.Idx => outp C (aWo m c) (aBo m c) (i 0) (i 1) (i 2)) := by
  show (cfg2.win 3).cut (grid2.coords t) ((dat2 (V4 m ρ) c).after 3 t) = _
  rw [dat2_after3]
  unfold left2_3
  rw [View.canon_unit_zero origin3]
  simp only [View.ld_unit_zero (S := S1x16x512x64) origin4, View.ld_unit_zero (S := S1024x1024) origin2,
    View.ld_unit_zero (S := S1x1024) origin2]
  obtain ⟨-, -, -, -, -, -, -, -, b0, b1, e2⟩ := out_block_indices t
  funext y
  obtain ⟨u, r, e, rfl⟩ : ∃ (u : Fin 1) (r : Fin 512) (e : Fin 1024), y = ix3 u r e := ⟨y 0, y 1, y 2, eq_ix3 y⟩
  obtain rfl : u = 0 := Subsingleton.elim _ _
  show k2_pay1 (blk2 (V4 m ρ) c 0 t) (blk2 (V4 m ρ) c 1 t) (blk2 (V4 m ρ) c 2 t) (ix3 0 r e)
    = outp C (aWo m c) (aBo m c) (((cfg2.win 3).blk t).view.emb (ix3 0 r e) 0)
        (((cfg2.win 3).blk t).view.emb (ix3 0 r e) 1) (((cfg2.win 3).blk t).view.emb (ix3 0 r e) 2)
  have h2 : ((cfg2.win 3).blk t).view.emb (ix3 0 r e) 2 = e :=
    Fin.ext (by show win2_3.index t (2 : Fin 3) * 1024 + 1 * e.val = e.val; omega)
  refine (out_block_entry C (aWo m c) (aBo m c) (blk2 (V4 m ρ) c 0 t) (blk2 (V4 m ρ) c 1 t) (blk2 (V4 m ρ) c 2 t)
    (((cfg2.win 3).blk t).view.emb (ix3 0 r e) 0) (((cfg2.win 3).blk t).view.emb (ix3 0 r e) 1) r e
    (fun h d => ctx_block_at m ρ c C hc t _ _ h r d
      (by show win2_3.index t (0 : Fin 3) * 1 + 1 * 0 = win2_3.index t (0 : Fin 3); omega)
      (by show win2_3.index t (1 : Fin 3) * 512 + 1 * r.val = win2_3.index t (1 : Fin 3) * 512 + r.val; omega))
    (fun f => outW_block_at m ρ c t f e) (outB_block_at m ρ c t e)).trans ?_
  exact congrArg (outp C (aWo m c) (aBo m c) _ _) h2.symm

/-- An index of the output array is in point t's block iff each coordinate is in the block's range on its axis. -/
theorem out_mem_block (t : Fin cfg2.N) (i : S2x2048x1024.Idx) :
    i ∈ ((cfg2.win 3).blk t).view.set ↔ ∀ a : Fin 3, win2_3.index t a * S1x512x1024.size a ≤ (i a).val
      ∧ (i a).val < win2_3.index t a * S1x512x1024.size a + S1x512x1024.size a := by
  show i ∈ ((View.whole main_v10).slice (win2_3.rect t)).set ↔ _
  rw [View.set_slice_whole, Rect.mem_set_unit]
  exact Iff.rfl

/-- The blocks tile the array: (n, ρ, e) lies in the block of the point with block index (n, ρ / 512, 0). -/
theorem out_cover (i : S2x2048x1024.Idx) :
    ∃ t : Fin cfg2.N, (cfg2.win 3).flush t = true ∧ i ∈ ((cfg2.win 3).blk t).view.set := by
  have hi0 : (i 0).val < 2 := (i 0).isLt
  have hi1 : (i 1).val < 2048 := (i 1).isLt
  have hi2 : (i 2).val < 1024 := (i 2).isLt
  obtain ⟨t, ht⟩ := out_block_onto ⟨(i 0).val, by omega⟩ ⟨(i 1).val / 512, by omega⟩
  have q0 : win2_3.index t (0 : Fin 3) = (i 0).val := congrFun ht 0
  have q1 : win2_3.index t (1 : Fin 3) = (i 1).val / 512 := congrFun ht 1
  have q2 : win2_3.index t (2 : Fin 3) = 0 := congrFun ht 2
  refine ⟨t, flush2_3 t, ?_⟩
  rw [out_mem_block]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 512 ≤ (i 1).val ∧ (i 1).val < win2_3.index t (1 : Fin 3) * 512 + 512; omega
  | ⟨2, _⟩ => show win2_3.index t (2 : Fin 3) * 1024 ≤ (i 2).val ∧ (i 2).val < win2_3.index t (2 : Fin 3) * 1024 + 1024; omega

/-- The output array after the last call: the output projection of whatever the call finds in the context array. -/
theorem out_final (c : Dev nD) (C : Fin 2 → Fin 16 → Fin 2048 → Fin 64 → EReal)
    (hc : (V4 m ρ c main_v8_1 : S2x16x2048x64.Idx → EReal) = fun i => C (i 0) (i 1) (i 2) (i 3)) :
    (V5 m ρ c main_v10 : S2x2048x1024.Idx → EReal) = fun i => outp C (aWo m c) (aBo m c) (i 0) (i 1) (i 2) :=
  (W5_arr m ρ c 3).trans ((dat2 (V4 m ρ) c).arrAt_eq_of_cover 3
    (fun i : S2x2048x1024.Idx => outp C (aWo m c) (aBo m c) (i 0) (i 1) (i 2))
    (fun t _ => out_flushed m ρ c C hc t) out_cover)

end Cert.KernelIdeal.Arrays

end
-- ==== Proof.KernelValue.lean ====
/-
  The idealized kernel's two results as the specification's functions of the arguments. The first call leaves the three
  projections in the q, k and v arrays; the attention call, finding those, leaves the attention weights and the context;
  the last call, finding the context, the transposed output weight and the reshaped bias, leaves the output projection.
  Nothing in between touches what a later call reads. So at the end of every execution the output array holds
  `outOf` and the weights' array `attnOf` of the nine argument arrays, which themselves are as launched.
-/
import proofs.«177007_j31035433681291_2_alg».proof.Proof.QkvArrays
import proofs.«177007_j31035433681291_2_alg».proof.Proof.AttnArrays
import proofs.«177007_j31035433681291_2_alg».proof.Proof.OutArrays

set_option maxRecDepth 16384

noncomputable section

namespace Cert.KernelIdeal.Arrays

open Cert.KernelIdeal Cert.KernelIdeal.Gen Cert.KernelIdeal.Pipe Cert.Mha
open Idealize.ShloMosaic Idealize.ShloMosaic.TcCoe Idealize.ShloMosaic.ValueIdx Idealize.SL.Sem

variable (m : (ℓ : Loc nD τ sig) → Buf (Elt Ideal) ℓ) (ρ : Dev nD → PrngReg)

/-- The attention weights at the end. -/
theorem attn_result (c : Dev nD) :
    (V5 m ρ c main_v8_0 : S2x16x2048x2048.Idx → EReal) = attnOf (aX m c) (aWq m c) (aBq m c) (aWk m c) (aBk m c) :=
  (attn_carried m ρ c).trans
    (attn_final m ρ c (proj (aX m c) (aWq m c) (aBq m c)) (proj (aX m c) (aWk m c) (aBk m c)) (q_final m ρ c) (k_final m ρ c))

/-- The output at the end. -/
theorem out_result (c : Dev nD) :
    (V5 m ρ c main_v10 : S2x2048x1024.Idx → EReal)
      = outOf (aX m c) (aWq m c) (aBq m c) (aWk m c) (aBk m c) (aWv m c) (aBv m c) (aWo m c) (aBo m c) :=
  out_final m ρ c (ctx (attn (proj (aX m c) (aWq m c) (aBq m c)) (proj (aX m c) (aWk m c) (aBk m c))) (proj (aX m c) (aWv m c) (aBv m c)))
    ((ctx_carried m ρ c).trans
      (ctx_final m ρ c (proj (aX m c) (aWq m c) (aBq m c)) (proj (aX m c) (aWk m c) (aBk m c)) (proj (aX m c) (aWv m c) (aBv m c))
        (q_final m ρ c) (k_final m ρ c) (v_final m ρ c)))

/-- THE VALUE RUN: every weakly fair execution of the idealized kernel terminates, nothing faulting, with the output at
    `outOf` and the attention weights at `attnOf` of the argument arrays, and the argument arrays as launched. -/
theorem value_run : θ_run defs (onTc (τ := τ) (main (F := Ideal))) ⟨m, fun _ => 0, ρ⟩ (fun r => ∀ c : Dev nD,
      r.2.mem ((c.tc : Thread nD τ).loc main_v10)
          = outOf (aX m c) (aWq m c) (aBq m c) (aWk m c) (aBk m c) (aWv m c) (aBv m c) (aWo m c) (aBo m c)
      ∧ r.2.mem ((c.tc : Thread nD τ).loc main_v8_0) = attnOf (aX m c) (aWq m c) (aBq m c) (aWk m c) (aBk m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v10 (by decide))).trans (out_result m ρ c),
     (h c _ (mem_uc main_v8_0 (by decide))).trans (attn_result m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c)⟩) (run_all m ρ)

end Cert.KernelIdeal.Arrays

end
-- ==== Proof.RefQkv.lean ====
/-
  The reference's three projections read at an index, and its divisor as the specification's scale.

  Each projection is x Wᵀ + b computed on [2, 2048, 1024], reshaped to [2, 2048, 16, 64] (feature 64·h + d becomes
  head h, lane d, because the row-major position is unchanged) and transposed to [2, 16, 2048, 64]. At (n, h, s, d) it
  therefore holds (Σ_e x(n, s, e) · W(64·h + d, e)) + b(64·h + d).
  The word 0x41000000 is the real 8 and the word 0x3E000000 is the real 1/8, so dividing by the first is multiplying by
  the second, at the infinities too.
-/
import proofs.«177007_j31035433681291_2_alg».proof.Proof.Gen.ReferenceIdeal.Read
import proofs.«177007_j31035433681291_2_alg».proof.Proof.Spec

noncomputable section

namespace Cert.ReferenceIdeal.AsMha

open Cert.ReferenceIdeal Cert.ReferenceIdeal.Read Cert.Mha Idealize.ShloMosaic Idealize.ShloMosaic.ValueIdx

/-- The word 0x41000000 denotes the real 8. -/
theorem ofBits_eight : Ideal.ofBits .f32 0x41000000#32 = ((8 : ℝ) : EReal) := by
  simp [Ideal.ofBits, Ideal.ieee, -EReal.coe_mul]; norm_num

/-- The scale, the word 0x3E000000, denotes the real 1/8. -/
theorem scale_eq : scale = ((1 / 8 : ℝ) : EReal) := by
  unfold scale
  simp [Ideal.ofBits, Ideal.ieee, -EReal.coe_mul]; norm_num

/-- Dividing by the word of 8 is multiplying by the scale. -/
theorem div_eight (a : EReal) : Ideal.div a (Ideal.ofBits .f32 0x41000000#32) = a * scale := by
  rw [ofBits_eight, scale_eq]
  exact Ideal.div_coe (by norm_num) a

/-- The query projection, head by head: the product with the transposed weight plus the bias, its feature axis split
    into 16 heads of 64 lanes and the head axis moved before the position axis. -/
theorem v5_at (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (n : Fin 2) (h : Fin 16) (s : Fin 2048) (d : Fin 64) :
    val_main_v5 (F := Ideal) x0 x1 x2 (ix4 n h s d) = proj x0 x1 x2 n h s d := by
  rw [val_main_v5_apply, val_main_v4_apply, val_main_v3_apply, val_main_v0_apply, val_main_v2_apply, val_main_v1_apply]
  have e : idx_main_v4 (idx_main_v5 (ix4 n h s d)) = ix3 n s (feat h d) := funext fun a => Fin.ext (by
    have hn := n.isLt; have hh := h.isLt; have hs := s.isLt; have hd := d.isLt
    match a with
    | ⟨0, _⟩ => show (((n.val * 2048 + s.val) * 16 + h.val) * 64 + d.val) / 2097152 = n.val; omega
    | ⟨1, _⟩ => show (((n.val * 2048 + s.val) * 16 + h.val) * 64 + d.val) / 1024 % 2048 = s.val; omega
    | ⟨2, _⟩ => show (((n.val * 2048 + s.val) * 16 + h.val) * 64 + d.val) % 1024 = h.val * 64 + d.val; omega)
  rw [e]
  refine congrArg₂ (· + ·) (Finset.sum_congr rfl fun k _ => congrArg₂ (· * ·) (congrArg x0 ?_) (congrArg x1 ?_)) (congrArg x2 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The key projection, head by head: the product with the transposed weight plus the bias, its feature axis split
    into 16 heads of 64 lanes and the head axis moved before the position axis. -/
theorem v11_at (x0 : (⟨S2x2048x1024, .f32⟩ : BufTy).Contents (Elt Ideal)) (x3 : (⟨S1024x1024, .f32⟩ : BufTy).Contents (Elt Ideal)) (x4 : (⟨S1024, .f32⟩ : BufTy).Contents (Elt Ideal)) (n : Fin 2) (h : Fin 16) (s : Fin 2048) (d : Fin 64) :
    val_main_v11 (F := Ideal) x0 x3 x4 (ix4 n h s d) = proj x0 x3 x4 n h s d := by
  rw [val_main_v11_apply, val_main_v10_apply, val_main_v9_apply, val_main_v6_apply, val_main_v8_apply, val_main_v7_apply]
  have e : idx_main_v10 (idx_main_v11 (ix4 n h s d)) = ix3 n s (feat h d) := funext fun a => Fin.ext (by
    have hn := n.isLt; have hh := h.isLt; have hs := s.isLt; have hd := d.isLt
    match a with
    | ⟨0, _⟩ => show (((n.val * 2048 + s.val) * 16 + h.val) * 64 + d.val) / 2097152 = n.val; omega
    | ⟨1, _⟩ => show (((n.val * 2048 + s.val) * 16 + h.val) * 64 + d.val) / 1024 % 2048 = s.val; omega
    | ⟨2, _⟩ => show (((n.val * 2048 + s.val) * 16 + h.val) * 64 + d.val) % 1024 = h.val * 64 + d.val; omega)
  rw [e]
  refine congrArg₂ (· + ·) (Finset.sum_congr rfl fun k _ => congrArg₂ (· * ·) (congrArg x0 ?_) (congrArg x3 ?_)) (congrArg x4 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The value projection, head by head: the product with the transposed weight plus the bias, its feature axis split
    into 16 heads of 64 lanes and the head axis moved before the position axis. -/
theorem v17_at (x0 : (⟨S2x2048x1024, .f32⟩ : BufTy).Contents (Elt Ideal)) (x5 : (⟨S1024x1024, .f32⟩ : BufTy).Contents (Elt Ideal)) (x6 : (⟨S1024, .f32⟩ : BufTy).Contents (Elt Ideal)) (n : Fin 2) (h : Fin 16) (s : Fin 2048) (d : Fin 64) :
    val_main_v17 (F := Ideal) x0 x5 x6 (ix4 n h s d) = proj x0 x5 x6 n h s d := by
  rw [val_main_v17_apply, val_main_v16_apply, val_main_v15_apply, val_main_v12_apply, val_main_v14_apply, val_main_v13_apply]
  have e : idx_main_v16 (idx_main_v17 (ix4 n h s d)) = ix3 n s (feat h d) := funext fun a => Fin.ext (by
    have hn := n.isLt; have hh := h.isLt; have hs := s.isLt; have hd := d.isLt
    match a with
    | ⟨0, _⟩ => show (((n.val * 2048 + s.val) * 16 + h.val) * 64 + d.val) / 2097152 = n.val; omega
    | ⟨1, _⟩ => show (((n.val * 2048 + s.val) * 16 + h.val) * 64 + d.val) / 1024 % 2048 = s.val; omega
    | ⟨2, _⟩ => show (((n.val * 2048 + s.val) * 16 + h.val) * 64 + d.val) % 1024 = h.val * 64 + d.val; omega)
  rw [e]
  refine congrArg₂ (· + ·) (Finset.sum_congr rfl fun k _ => congrArg₂ (· * ·) (congrArg x0 ?_) (congrArg x5 ?_)) (congrArg x6 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

end Cert.ReferenceIdeal.AsMha

end
-- ==== Proof.RefAttn.lean ====
/-
  The reference's attention weights read at an index: its first result is the specification's.

  The scores are the products of a query row with the key rows divided by the word of 8, which is the product with the
  scale. The row maximum is the host's reduce with maximum along the last axis from −∞, a fold of max over the
  column coordinate; the maximum with −∞ taken afterwards changes nothing. The weights are the exponentials of the
  shifted scores divided by their sum along the row, the sum started from the zero word.
-/
import proofs.«177007_j31035433681291_2_alg».proof.Proof.RefQkv

noncomputable section

namespace Cert.ReferenceIdeal.AsMha

open Cert.ReferenceIdeal Cert.ReferenceIdeal.Read Cert.Mha Idealize.ShloMosaic Idealize.ShloMosaic.ValueIdx

/-- The scores at (n, h, i, j). -/
theorem v20_at (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (n : Fin 2) (h : Fin 16) (i j : Fin 2048) :
    val_main_v20 (F := Ideal) x0 x1 x2 x3 x4 (ix4 n h i j) = score (proj x0 x1 x2) (proj x0 x3 x4) n h i j := by
  rw [val_main_v20_apply, val_main_v18_apply, val_main_v19_apply, val_main_cst_apply]
  refine (div_eight _).trans (congrArg (· * scale) (Finset.sum_congr rfl fun k _ => ?_))
  have el : lidx_main_v18 (ix4 n h i j) k = ix4 n h i k := funext fun a => Fin.ext (by match a with | ⟨0, _⟩ => rfl | ⟨1, _⟩ => rfl | ⟨2, _⟩ => rfl | ⟨3, _⟩ => rfl)
  have er : ridx_main_v18 (ix4 n h i j) k = ix4 n h j k := funext fun a => Fin.ext (by match a with | ⟨0, _⟩ => rfl | ⟨1, _⟩ => rfl | ⟨2, _⟩ => rfl | ⟨3, _⟩ => rfl)
  rw [el, er, v5_at, v11_at]

/-- The reduction along the last axis of [2, 16, 2048, 2048]. -/
theorem reduces_last : S2x16x2048x2048.Reduces [3] S2x16x2048 := by decide

/-- The index that reduction puts back over (n, h, i): column k of that row. -/
theorem lift_last (n : Fin 2) (h : Fin 16) (i k : Fin 2048) : reduces_last.lift (ix3 n h i) k = ix4 n h i k := funext fun a => Fin.ext (by match a with | ⟨0, _⟩ => rfl | ⟨1, _⟩ => rfl | ⟨2, _⟩ => rfl | ⟨3, _⟩ => rfl)

/-- The row maximum at (n, h, i). -/
theorem v23_at (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (n : Fin 2) (h : Fin 16) (i : Fin 2048) :
    val_main_v23 (F := Ideal) x0 x1 x2 x3 x4 (ix3 n h i) = rowMax (score (proj x0 x1 x2) (proj x0 x3 x4) n h i) := by
  rw [val_main_v23_apply, val_main_v22_apply, val_main_cst_1_apply]
  have e : val_main_v21 (F := Ideal) x0 x1 x2 x3 x4 (ix3 n h i)
      = (Finset.univ : Finset (Fin 2048)).fold max negInf (score (proj x0 x1 x2) (proj x0 x3 x4) n h i) := by
    unfold val_main_v21
    refine (Host.reduce_eq_fold_single FloatOps.maximumf _ _ Gen.reducesTo_S2x16x2048x2048_S2x16x2048_d3 reduces_last Gen.h_S_ (ix3 n h i)).trans ?_
    have ef : (val_main_v20 (F := Ideal) x0 x1 x2 x3 x4 ∘ reduces_last.lift (ix3 n h i))
        = score (proj x0 x1 x2) (proj x0 x3 x4) n h i :=
      funext fun k => (congrArg (val_main_v20 (F := Ideal) x0 x1 x2 x3 x4) (lift_last n h i k)).trans (v20_at x0 x1 x2 x3 x4 n h i k)
    rw [ef]
    rfl
  rw [e]
  exact max_fold_self negInf _ _

/-- The exponential of the shifted score at (n, h, i, j). -/
theorem v27_at (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (n : Fin 2) (h : Fin 16) (i j : Fin 2048) :
    val_main_v27 (F := Ideal) x0 x1 x2 x3 x4 (ix4 n h i j)
      = Ideal.exp (score (proj x0 x1 x2) (proj x0 x3 x4) n h i j - rowMax (score (proj x0 x1 x2) (proj x0 x3 x4) n h i)) := by
  rw [val_main_v27_apply, val_main_v26_apply, val_main_v25_apply, val_main_v24_apply]
  have e : idx_main_v24 (idx_main_v25 (ix4 n h i j)) = ix3 n h i := funext fun a => Fin.ext (by match a with | ⟨0, _⟩ => rfl | ⟨1, _⟩ => rfl | ⟨2, _⟩ => rfl)
  rw [e, v20_at, v23_at]
  rfl

/-- The weights at (n, h, i, j). -/
theorem v31_at (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (n : Fin 2) (h : Fin 16) (i j : Fin 2048) :
    val_main_v31 (F := Ideal) x0 x1 x2 x3 x4 (ix4 n h i j) = attn (proj x0 x1 x2) (proj x0 x3 x4) n h i j := by
  rw [val_main_v31_apply, val_main_v30_apply, val_main_v29_apply, val_main_v28_apply, val_main_cst_2_apply, v27_at]
  have e : idx_main_v29 (idx_main_v30 (ix4 n h i j)) = ix3 n h i := funext fun a => Fin.ext (by match a with | ⟨0, _⟩ => rfl | ⟨1, _⟩ => rfl | ⟨2, _⟩ => rfl)
  rw [e]
  have es : (∑ k : Fin 2048, val_main_v27 (F := Ideal) x0 x1 x2 x3 x4 (idx_main_v28 (ix3 n h i) k))
      = ∑ j' : Fin 2048, Ideal.exp (score (proj x0 x1 x2) (proj x0 x3 x4) n h i j' - rowMax (score (proj x0 x1 x2) (proj x0 x3 x4) n h i)) :=
    Finset.sum_congr rfl fun k _ => by
      have ek : idx_main_v28 (ix3 n h i) k = ix4 n h i k := funext fun a => Fin.ext (by match a with | ⟨0, _⟩ => rfl | ⟨1, _⟩ => rfl | ⟨2, _⟩ => rfl | ⟨3, _⟩ => rfl)
      rw [ek, v27_at]
  rw [es]
  show Ideal.div _ (Ideal.ofBits .f32 0x00000000#32 + _) = _
  rw [Ideal.ofBits_zero_f32, zero_add]
  rfl

/-- The reference's second result, the attention weights, is the specification's. -/
theorem attn_is (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) :
    val_main_v31 (F := Ideal) x0 x1 x2 x3 x4 = attnOf x0 x1 x2 x3 x4 := by
  funext i
  obtain ⟨n, h, a, b, rfl⟩ : ∃ (n : Fin 2) (h : Fin 16) (a b : Fin 2048), i = ix4 n h a b := ⟨i 0, i 1, i 2, i 3, eq_ix4 i⟩
  exact v31_at x0 x1 x2 x3 x4 n h a b

end Cert.ReferenceIdeal.AsMha

end
-- ==== Proof.RefOut.lean ====
/-
  The reference's output read at an index: its first result is the specification's.

  The context is the weights applied to the value rows, a sum over the key position. It is transposed back to
  [2, 2048, 16, 64] and reshaped to [2, 2048, 1024]: feature f holds head f / 64, lane f % 64, because the row-major
  position is unchanged. The output is the product with the transposed output weight plus the output bias.
-/
import proofs.«177007_j31035433681291_2_alg».proof.Proof.RefAttn

noncomputable section

namespace Cert.ReferenceIdeal.AsMha

open Cert.ReferenceIdeal Cert.ReferenceIdeal.Read Cert.Mha Idealize.ShloMosaic Idealize.ShloMosaic.ValueIdx

/-- The context at (n, h, i, d). -/
theorem v32_at (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (n : Fin 2) (h : Fin 16) (i : Fin 2048) (d : Fin 64) :
    val_main_v32 (F := Ideal) x0 x1 x2 x3 x4 x5 x6 (ix4 n h i d) = ctx (attn (proj x0 x1 x2) (proj x0 x3 x4)) (proj x0 x5 x6) n h i d := by
  rw [val_main_v32_apply]
  refine Finset.sum_congr rfl fun k _ => ?_
  have el : lidx_main_v32 (ix4 n h i d) k = ix4 n h i k := funext fun a => Fin.ext (by match a with | ⟨0, _⟩ => rfl | ⟨1, _⟩ => rfl | ⟨2, _⟩ => rfl | ⟨3, _⟩ => rfl)
  have er : ridx_main_v32 (ix4 n h i d) k = ix4 n h k d := funext fun a => Fin.ext (by match a with | ⟨0, _⟩ => rfl | ⟨1, _⟩ => rfl | ⟨2, _⟩ => rfl | ⟨3, _⟩ => rfl)
  rw [el, er, v31_at, v17_at]

/-- The context with its heads laid side by side again, at (n, s, f). -/
theorem v34_at (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (n : Fin 2) (s : Fin 2048) (f : Fin 1024) :
    val_main_v34 (F := Ideal) x0 x1 x2 x3 x4 x5 x6 (ix3 n s f) = ctx (attn (proj x0 x1 x2) (proj x0 x3 x4)) (proj x0 x5 x6) n (headOf f) s (laneOf f) := by
  rw [val_main_v34_apply, val_main_v33_apply]
  have e : idx_main_v33 (idx_main_v34 (ix3 n s f)) = ix4 n (headOf f) s (laneOf f) := funext fun a => Fin.ext (by
    have hn := n.isLt; have hs := s.isLt; have hf := f.isLt
    match a with
    | ⟨0, _⟩ => show ((n.val * 2048 + s.val) * 1024 + f.val) / 2097152 = n.val; omega
    | ⟨1, _⟩ => show ((n.val * 2048 + s.val) * 1024 + f.val) / 64 % 16 = f.val / 64; omega
    | ⟨2, _⟩ => show ((n.val * 2048 + s.val) * 1024 + f.val) / 1024 % 2048 = s.val; omega
    | ⟨3, _⟩ => show ((n.val * 2048 + s.val) * 1024 + f.val) % 64 = f.val % 64; omega)
  rw [e, v32_at]

/-- The output at (n, s, e). -/
theorem v38_at (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (n : Fin 2) (s : Fin 2048) (e : Fin 1024) :
    val_main_v38 (F := Ideal) x0 x1 x2 x3 x4 x5 x6 x7 x8 (ix3 n s e) = outp (ctx (attn (proj x0 x1 x2) (proj x0 x3 x4)) (proj x0 x5 x6)) x7 x8 n s e := by
  rw [val_main_v38_apply, val_main_v35_apply, val_main_v37_apply, val_main_v36_apply]
  refine congrArg₂ (· + ·) (Finset.sum_congr rfl fun k _ => ?_) (congrArg x8 ?_)
  · have el : lidx_main_v35 (ix3 n s e) k = ix3 n s k := funext fun a => Fin.ext (by match a with | ⟨0, _⟩ => rfl | ⟨1, _⟩ => rfl | ⟨2, _⟩ => rfl)
    have er : ridx_main_v35 (ix3 n s e) k = ix2 e k := funext fun a => Fin.ext (by match a with | ⟨0, _⟩ => rfl | ⟨1, _⟩ => rfl)
    rw [el, er, v34_at]
  · exact funext fun a => Fin.ext (by match a with | ⟨0, _⟩ => rfl)

/-- The reference's first result, the output, is the specification's. -/
theorem out_is (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) :
    val_main_v38 (F := Ideal) x0 x1 x2 x3 x4 x5 x6 x7 x8 = outOf x0 x1 x2 x3 x4 x5 x6 x7 x8 := by
  funext i
  obtain ⟨n, s, e, rfl⟩ : ∃ (n : Fin 2) (s : Fin 2048) (e : Fin 1024), i = ix3 n s e := ⟨i 0, i 1, i 2, eq_ix3 i⟩
  exact v38_at x0 x1 x2 x3 x4 x5 x6 x7 x8 n s e

end Cert.ReferenceIdeal.AsMha

end
-- ==== Proof.RefAsMha.lean ====
/-
  The reference's two results as the specification's functions of the arguments.

  The proofs are in three modules, each reading the reference's stages at an index given by its coordinates: the
  projections and the divisor (RefQkv), the scores, the row maximum and the softmax weights with the statement attn_is
  (RefAttn), and the context, the heads laid side by side and the output projection with the statement out_is (RefOut).
-/
import proofs.«177007_j31035433681291_2_alg».proof.Proof.Gen.ReferenceIdeal.Read
import proofs.«177007_j31035433681291_2_alg».proof.Proof.Spec
import proofs.«177007_j31035433681291_2_alg».proof.Proof.RefOut

noncomputable section

namespace Cert.ReferenceIdeal.AsMha

end Cert.ReferenceIdeal.AsMha

end
-- ==== Proof.lean ====
/-
  The certificate of the multi-head attention kernel (three pallas_calls: the fused q, k, v projection; attention with a
  whole softmax row per query tile; the output projection) against its jnp reference, over the extended reals.

  The three frames. The kernel's program, at the word-level instance and at the ideal one, is seven host operations, three
  calls with one host operation before the last: each call's body loads whole staging buffers, computes, and stores each
  output buffer whole, so every grid point's obligation is one symbolic run of the body; the calls are chained through the
  contents of the unscoped buffers between them, and no item writes an argument. The reference has no kernel: its frame is
  its run with the results dropped.

  The ideal pass rewrote nothing, so the kernel's idealization is its own text read on the extended reals.

  The values. Both programs compute, for every batch n, head h and rows: q, k, v = x Wᵀ + b split into 16 heads of 64 lanes;
  scores = (q kᵀ)·(1/8); weights = the shifted softmax of each row of scores; context = weights · v; output = the heads
  laid side by side times Woᵀ plus bo; and they return the output and the weights. The kernel multiplies the scores by
  the word of 0.125 where the reference divides by the word of 8: on every extended real, dividing by 8 is multiplying by
  1/8. The kernel stacks the three weights and slices the product where the reference makes three products: the same
  entries. Sums are Fin-indexed sums in a commutative monoid, so tiling and order do not matter, and no step uses that the
  inputs are finite.
-/
import proofs.«177007_j31035433681291_2_alg».proof.Defs
import proofs.«177007_j31035433681291_2_alg».proof.Proof.Gen.Kernel
import proofs.«177007_j31035433681291_2_alg».proof.Proof.Gen.KernelIdeal
import proofs.«177007_j31035433681291_2_alg».proof.Proof.Gen.ReferenceIdeal
import proofs.«177007_j31035433681291_2_alg».proof.Proof.Gen.Pre_finite_inputs
import proofs.«177007_j31035433681291_2_alg».proof.Proof.BitsPipeRun
import proofs.«177007_j31035433681291_2_alg».proof.Proof.KernelValue
import proofs.«177007_j31035433681291_2_alg».proof.Proof.RefAsMha
import Idealize.ShloMosaic.Adequacy
import Idealize.ShloMosaic.Init

noncomputable section

namespace Cert.Proof

open Idealize.ShloMosaic Idealize.ShloMosaic.TcCoe Idealize.SL.Sem

namespace Parts

theorem frame_kernel : Cert.frame_Kernel := fun m ρ _ => Cert.Kernel.Pipe.frame m ρ

theorem frame_kernel_ideal : Cert.frame_KernelIdeal := fun m ρ _ => Cert.KernelIdeal.Pipe.frame m ρ

theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end with the output at `outOf` and the attention weights at `attnOf` of the kernel's argument arrays: the
    kernel's by its value run, the reference's by its generated run read as the specification, its arguments agreeing. -/
theorem algebraic : Cert.algebraic_KernelIdeal_ReferenceIdeal := by
  intro m ρ m' ρ' _ hagree
  refine ⟨_, _, Cert.KernelIdeal.Arrays.value_run m ρ, ?_⟩
  refine (θ_run Cert.ReferenceIdeal.defs _ _).mono (fun r h c => ?_) (Cert.ReferenceIdeal.Value.run (F := Ideal) m' ρ')
  obtain ⟨h38, h31, hargs⟩ := h c
  obtain ⟨e0, e1, e2, e3, e4, e5, e6, e7, e8⟩ := hagree c
  refine ⟨?_, ?_, hargs⟩
  · rw [h38, Cert.ReferenceIdeal.Read.val_main_v38_eq, Cert.ReferenceIdeal.AsMha.out_is, e0, e1, e2, e3, e4, e5, e6, e7, e8]
  · rw [h31, Cert.ReferenceIdeal.Read.val_main_v31_eq, Cert.ReferenceIdeal.AsMha.attn_is, e0, e1, e2, e3, e4]

end Parts

theorem claim : Cert.Claim := ⟨Cert.Kernel.Gen.facts, Cert.KernelIdeal.Gen.facts, Cert.ReferenceIdeal.Gen.facts, Cert.Pre_finite_inputs.Gen.facts,
  Parts.frame_kernel, Parts.frame_kernel_ideal, Parts.frame_reference, Parts.preserves, Parts.algebraic⟩

end Cert.Proof

end
